-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S5000x128 : Shape := ⟨2, ![5000, 128]⟩
abbrev S740000x128 : Shape := ⟨2, ![740000, 128]⟩
abbrev S1x128 : Shape := ⟨2, ![1, 128]⟩
abbrev S100000x40 : Shape := ⟨2, ![100000, 40]⟩
abbrev S5000x40 : Shape := ⟨2, ![5000, 40]⟩
abbrev S740000x40 : Shape := ⟨2, ![740000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 126
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S100000, .i32⟩
  | .hbm, ⟨11, _⟩ => ⟨S1x640000, .i32⟩
  | .hbm, ⟨12, _⟩ => ⟨S640000, .i32⟩
  | .hbm, ⟨13, _⟩ => ⟨S740000, .i32⟩
  | .hbm, ⟨14, _⟩ => ⟨S1x640000, .i32⟩
  | .hbm, ⟨15, _⟩ => ⟨S640000, .i32⟩
  | .hbm, ⟨16, _⟩ => ⟨S740000, .i32⟩
  | .hbm, ⟨17, _⟩ => ⟨S_, .f32⟩
  | .hbm, ⟨18, _⟩ => ⟨S740000, .f32⟩
  | .hbm, ⟨19, _⟩ => ⟨S_, .f32⟩
  | .hbm, ⟨20, _⟩ => ⟨S100000, .f32⟩
  | .hbm, ⟨21, _⟩ => ⟨S740000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S740000, .i32⟩
  | .hbm, ⟨33, _⟩ => ⟨S740000, .i1⟩
  | .hbm, ⟨34, _⟩ => ⟨S_, .i32⟩
  | .hbm, ⟨35, _⟩ => ⟨S740000, .i32⟩
  | .hbm, ⟨36, _⟩ => ⟨S740000, .i32⟩
  | .hbm, ⟨37, _⟩ => ⟨S740000, .i32⟩
  | .hbm, ⟨38, _⟩ => ⟨S740000x1, .i32⟩
  | .hbm, ⟨39, _⟩ => ⟨S740000, .f32⟩
  | .hbm, ⟨40, _⟩ => ⟨S_, .i32⟩
  | .hbm, ⟨41, _⟩ => ⟨S740000, .i32⟩
  | .hbm, ⟨42, _⟩ => ⟨S740000, .i1⟩
  | .hbm, ⟨43, _⟩ => ⟨S_, .i32⟩
  | .hbm, ⟨44, _⟩ => ⟨S740000, .i32⟩
  | .hbm, ⟨45, _⟩ => ⟨S740000, .i32⟩
  | .hbm, ⟨46, _⟩ => ⟨S740000, .i32⟩
  | .hbm, ⟨47, _⟩ => ⟨S740000x1, .i32⟩
  | .hbm, ⟨48, _⟩ => ⟨S740000, .f32⟩
  | .hbm, ⟨49, _⟩ => ⟨S740000, .f32⟩
  | .hbm, ⟨50, _⟩ => ⟨S100000x128, .f32⟩
  | .hbm, ⟨51, _⟩ => ⟨S_, .i32⟩
  | .hbm, ⟨52, _⟩ => ⟨S740000, .i32⟩
  | .hbm, ⟨53, _⟩ => ⟨S740000, .i1⟩
  | .hbm, ⟨54, _⟩ => ⟨S_, .i32⟩
  | .hbm, ⟨55, _⟩ => ⟨S740000, .i32⟩
  | .hbm, ⟨56, _⟩ => ⟨S740000, .i32⟩
  | .hbm, ⟨57, _⟩ => ⟨S740000, .i32⟩
  | .hbm, ⟨58, _⟩ => ⟨S740000x1, .i32⟩
  | .hbm, ⟨59, _⟩ => ⟨S740000x128, .f32⟩
  | .hbm, ⟨60, _⟩ => ⟨S740000x1, .f32⟩
  | .hbm, ⟨61, _⟩ => ⟨S740000x128, .f32⟩
  | .hbm, ⟨62, _⟩ => ⟨S740000x128, .f32⟩
  | .hbm, ⟨63, _⟩ => ⟨S_, .f32⟩
  | .hbm, ⟨64, _⟩ => ⟨S100000x128, .f32⟩
  | .hbm, ⟨65, _⟩ => ⟨S740000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S740000, .i32⟩
  | .hbm, ⟨72, _⟩ => ⟨S740000, .i1⟩
  | .hbm, ⟨73, _⟩ => ⟨S_, .i32⟩
  | .hbm, ⟨74, _⟩ => ⟨S740000, .i32⟩
  | .hbm, ⟨75, _⟩ => ⟨S740000, .i32⟩
  | .hbm, ⟨76, _⟩ => ⟨S740000, .i32⟩
  | .hbm, ⟨77, _⟩ => ⟨S740000x1, .i32⟩
  | .hbm, ⟨78, _⟩ => ⟨S740000x128, .f32⟩
  | .hbm, ⟨79, _⟩ => ⟨S740000x1, .f32⟩
  | .hbm, ⟨80, _⟩ => ⟨S740000x128, .f32⟩
  | .hbm, ⟨81, _⟩ => ⟨S740000x128, .f32⟩
  | .hbm, ⟨82, _⟩ => ⟨S_, .f32⟩
  | .hbm, ⟨83, _⟩ => ⟨S100000x128, .f32⟩
  | .hbm, ⟨84, _⟩ => ⟨S740000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S740000, .i32⟩
  | .hbm, ⟨91, _⟩ => ⟨S740000, .i1⟩
  | .hbm, ⟨92, _⟩ => ⟨S_, .i32⟩
  | .hbm, ⟨93, _⟩ => ⟨S740000, .i32⟩
  | .hbm, ⟨94, _⟩ => ⟨S740000, .i32⟩
  | .hbm, ⟨95, _⟩ => ⟨S740000, .i32⟩
  | .hbm, ⟨96, _⟩ => ⟨S740000x1, .i32⟩
  | .hbm, ⟨97, _⟩ => ⟨S740000x128, .f32⟩
  | .hbm, ⟨98, _⟩ => ⟨S740000x1, .f32⟩
  | .hbm, ⟨99, _⟩ => ⟨S740000x128, .f32⟩
  | .hbm, ⟨100, _⟩ => ⟨S740000x128, .f32⟩
  | .hbm, ⟨101, _⟩ => ⟨S_, .f32⟩
  | .hbm, ⟨102, _⟩ => ⟨S100000x128, .f32⟩
  | .hbm, ⟨103, _⟩ => ⟨S740000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x40, .f32⟩
  | .hbm, ⟨108, _⟩ => ⟨S_, .i32⟩
  | .hbm, ⟨109, _⟩ => ⟨S740000, .i32⟩
  | .hbm, ⟨110, _⟩ => ⟨S740000, .i1⟩
  | .hbm, ⟨111, _⟩ => ⟨S_, .i32⟩
  | .hbm, ⟨112, _⟩ => ⟨S740000, .i32⟩
  | .hbm, ⟨113, _⟩ => ⟨S740000, .i32⟩
  | .hbm, ⟨114, _⟩ => ⟨S740000, .i32⟩
  | .hbm, ⟨115, _⟩ => ⟨S740000x1, .i32⟩
  | .hbm, ⟨116, _⟩ => ⟨S740000x40, .f32⟩
  | .hbm, ⟨117, _⟩ => ⟨S740000x1, .f32⟩
  | .hbm, ⟨118, _⟩ => ⟨S740000x40, .f32⟩
  | .hbm, ⟨119, _⟩ => ⟨S740000x40, .f32⟩
  | .hbm, ⟨120, _⟩ => ⟨S_, .f32⟩
  | .hbm, ⟨121, _⟩ => ⟨S100000x40, .f32⟩
  | .hbm, ⟨122, _⟩ => ⟨S740000x1, .i32⟩
  | .hbm, ⟨123, _⟩ => ⟨S100000x40, .f32⟩
  | .hbm, ⟨124, _⟩ => ⟨S1x40, .f32⟩
  | .hbm, ⟨125, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x40, .f32⟩
  | .local _ .vmem, ⟨33, _⟩ => ⟨S5000x40, .f32⟩
  | .local _ .vmem, ⟨34, _⟩ => ⟨S5000x40, .f32⟩
  | .local _ .vmem, ⟨35, _⟩ => ⟨S5000x40, .f32⟩
  | .local _ .vmem, ⟨36, _⟩ => ⟨S5000x40, .f32⟩
  | .local _ .vmem, ⟨37, _⟩ => ⟨S1x40, .f32⟩
  | .local _ .vmem, ⟨38, _⟩ => ⟨S5000x40, .f32⟩
  | .local _ .vmem, ⟨39, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x40 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S740000x1_S740000x40_0_1 : S740000x1.BroadcastsInDim S740000x40 (![0, 1] : Fin 2 → Fin S740000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S5000x128_S128x128_S5000x128_1_0_0_1_n_n_wf : DotDims.WF S5000x128 S128x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S5000x128_S128x40_S5000x40_1_0_0_1_n_n_wf : DotDims.WF S5000x128 S128x40 S5000x40 [1] [0] [0] [1] [] []
  gather_S100000x40_S740000x1_S740000x40_1_0_n_n_0_1_140_wf : GatherDims.WF S100000x40 S740000x1 S740000x40 [1] [0] [] [0] [] 1 ![1, 40]
  scatter_S100000x40_S740000x1_S740000x40_1_0_0_1_wf : ScatterDims.WF S100000x40 S740000x1 S740000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x40.size a ≤ S100000x40.size a
  hwx6_2 : ∀ i : grid6.Coords, EltTy.bits .f32 = 32 ∨ (Rect.block (s := S100000x40) S5000x40.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x40.size a ≤ S100000x40.size a
  hwx7_0 : ∀ i : grid7.Coords, EltTy.bits .f32 = 32 ∨ (Rect.block (s := S100000x40) S5000x40.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x40.size a ≤ S1x40.size a
  hwx7_1 : ∀ i : grid7.Coords, EltTy.bits .f32 = 32 ∨ (Rect.block (s := S1x40) S1x40.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x40.size a ≤ S100000x40.size a
  hwx7_2 : ∀ i : grid7.Coords, EltTy.bits .f32 = 32 ∨ (Rect.block (s := S100000x40) S5000x40.size (cc7_transform_2 i) (hinb7_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S740000x1_S740000x40_1_0_n_n_0_1_140 : GatherDims S100000x40 S740000x1 S740000x40 where
  offsetDims := [1]
  collapsedSliceDims := [0]
  operandBatchingDims := []
  startIndicesBatchingDims := []
  startIndexMap := [0]
  indexVectorDim := 1
  sliceSizes := ![1, 40]
  wf := gather_S100000x40_S740000x1_S740000x40_1_0_n_n_0_1_140_wf
def scatter_S100000x40_S740000x1_S740000x40_1_0_0_1 : ScatterDims S100000x40 S740000x1 S740000x40 where
  updateWindowDims := [1]
  insertedWindowDims := [0]
  scatterDimsToOperandDims := [0]
  indexVectorDim := 1
  wf := scatter_S100000x40_S740000x1_S740000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S5000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v91) S5000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S1x40.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S5000x40.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩
abbrev S100000x40 : Shape := ⟨2, ![100000, 40]⟩
abbrev S740000x40 : Shape := ⟨2, ![740000, 40]⟩
abbrev S1x40 : Shape := ⟨2, ![1, 40]⟩
abbrev S100000x1 : Shape := ⟨2, ![100000, 1]⟩

abbrev nBuf : Space → Nat
  | .hbm => 154
  | .vmem => 0
  | .smem => 0
  | _ => 0

abbrev hbmTy0_0 (i : Nat) : BufTy := match i % 128 with
  | 0 => ⟨S100000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x40, .f32⟩
  | 9 => ⟨S40, .f32⟩
  | 10 => ⟨S100000, .i32⟩
  | 11 => ⟨S1x640000, .i32⟩
  | 12 => ⟨S640000, .i32⟩
  | 13 => ⟨S740000, .i32⟩
  | 14 => ⟨S1x640000, .i32⟩
  | 15 => ⟨S640000, .i32⟩
  | 16 => ⟨S740000, .i32⟩
  | 17 => ⟨S_, .f32⟩
  | 18 => ⟨S740000, .f32⟩
  | 19 => ⟨S_, .f32⟩
  | 20 => ⟨S100000, .f32⟩
  | 21 => ⟨S740000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S740000, .i32⟩
  | 33 => ⟨S740000, .i1⟩
  | 34 => ⟨S_, .i32⟩
  | 35 => ⟨S740000, .i32⟩
  | 36 => ⟨S740000, .i32⟩
  | 37 => ⟨S740000, .i32⟩
  | 38 => ⟨S740000x1, .i32⟩
  | 39 => ⟨S740000, .f32⟩
  | 40 => ⟨S_, .i32⟩
  | 41 => ⟨S740000, .i32⟩
  | 42 => ⟨S740000, .i1⟩
  | 43 => ⟨S_, .i32⟩
  | 44 => ⟨S740000, .i32⟩
  | 45 => ⟨S740000, .i32⟩
  | 46 => ⟨S740000, .i32⟩
  | 47 => ⟨S740000x1, .i32⟩
  | 48 => ⟨S740000, .f32⟩
  | 49 => ⟨S740000, .f32⟩
  | 50 => ⟨S100000x128, .f32⟩
  | 51 => ⟨S_, .i32⟩
  | 52 => ⟨S740000, .i32⟩
  | 53 => ⟨S740000, .i1⟩
  | 54 => ⟨S_, .i32⟩
  | 55 => ⟨S740000, .i32⟩
  | 56 => ⟨S740000, .i32⟩
  | 57 => ⟨S740000, .i32⟩
  | 58 => ⟨S740000x1, .i32⟩
  | 59 => ⟨S740000x128, .f32⟩
  | 60 => ⟨S740000x1, .f32⟩
  | 61 => ⟨S740000x128, .f32⟩
  | 62 => ⟨S740000x128, .f32⟩
  | 63 => ⟨S_, .f32⟩
  | 64 => ⟨S100000x128, .f32⟩
  | 65 => ⟨S740000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S_, .i32⟩
  | 75 => ⟨S740000, .i32⟩
  | 76 => ⟨S740000, .i1⟩
  | 77 => ⟨S_, .i32⟩
  | 78 => ⟨S740000, .i32⟩
  | 79 => ⟨S740000, .i32⟩
  | 80 => ⟨S740000, .i32⟩
  | 81 => ⟨S740000x1, .i32⟩
  | 82 => ⟨S740000x128, .f32⟩
  | 83 => ⟨S740000x1, .f32⟩
  | 84 => ⟨S740000x128, .f32⟩
  | 85 => ⟨S740000x128, .f32⟩
  | 86 => ⟨S_, .f32⟩
  | 87 => ⟨S100000x128, .f32⟩
  | 88 => ⟨S740000x1, .i32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S100000x128, .f32⟩
  | 97 => ⟨S_, .i32⟩
  | 98 => ⟨S740000, .i32⟩
  | 99 => ⟨S740000, .i1⟩
  | 100 => ⟨S_, .i32⟩
  | 101 => ⟨S740000, .i32⟩
  | 102 => ⟨S740000, .i32⟩
  | 103 => ⟨S740000, .i32⟩
  | 104 => ⟨S740000x1, .i32⟩
  | 105 => ⟨S740000x128, .f32⟩
  | 106 => ⟨S740000x1, .f32⟩
  | 107 => ⟨S740000x128, .f32⟩
  | 108 => ⟨S740000x128, .f32⟩
  | 109 => ⟨S_, .f32⟩
  | 110 => ⟨S100000x128, .f32⟩
  | 111 => ⟨S740000x1, .i32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000x40, .f32⟩
  | 120 => ⟨S_, .i32⟩
  | 121 => ⟨S740000, .i32⟩
  | 122 => ⟨S740000, .i1⟩
  | 123 => ⟨S_, .i32⟩
  | 124 => ⟨S740000, .i32⟩
  | 125 => ⟨S740000, .i32⟩
  | 126 => ⟨S740000, .i32⟩
  | 127 => ⟨S740000x1, .i32⟩
  | _ => ⟨S100000x128, .f32⟩

abbrev hbmTy0_1 (i : Nat) : BufTy := match i % 128 with
  | 0 => ⟨S740000x40, .f32⟩
  | 1 => ⟨S740000x1, .f32⟩
  | 2 => ⟨S740000x40, .f32⟩
  | 3 => ⟨S740000x40, .f32⟩
  | 4 => ⟨S_, .f32⟩
  | 5 => ⟨S100000x40, .f32⟩
  | 6 => ⟨S740000x1, .i32⟩
  | 7 => ⟨S100000x40, .f32⟩
  | 8 => ⟨S1x40, .f32⟩
  | 9 => ⟨S100000x40, .f32⟩
  | 10 => ⟨S100000x40, .f32⟩
  | 11 => ⟨S_, .f32⟩
  | 12 => ⟨S100000, .f32⟩
  | 13 => ⟨S_, .f32⟩
  | 14 => ⟨S100000, .f32⟩
  | 15 => ⟨S100000, .f32⟩
  | 16 => ⟨S100000x1, .f32⟩
  | 17 => ⟨S100000x40, .f32⟩
  | 18 => ⟨S100000x40, .f32⟩
  | 19 => ⟨S100000x40, .f32⟩
  | 20 => ⟨S_, .f32⟩
  | 21 => ⟨S100000, .f32⟩
  | 22 => ⟨S100000x1, .f32⟩
  | 23 => ⟨S100000x1, .f32⟩
  | 24 => ⟨S100000x40, .f32⟩
  | 25 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_call4_cst : Ref sig .tc := ⟨.hbm, 139, rfl⟩
abbrev main_call4_v0 : Ref sig .tc := ⟨.hbm, 140, rfl⟩
abbrev main_call4_cst_0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_v6 : Ref sig .tc := ⟨.hbm, 147, rfl⟩
abbrev main_call4_cst_1 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_v101 : Ref sig .tc := ⟨.hbm, 153, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S740000x1_S740000x40_0_1 : S740000x1.BroadcastsInDim S740000x40 (![0, 1] : Fin 2 → Fin S740000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x40_S100000x40_1_0_0_1_n_n_wf : DotDims.WF S100000x128 S128x40 S100000x40 [1] [0] [0] [1] [] []
  gather_S100000x40_S740000x1_S740000x40_1_0_n_n_0_1_140_wf : GatherDims.WF S100000x40 S740000x1 S740000x40 [1] [0] [] [0] [] 1 ![1, 40]
  scatter_S100000x40_S740000x1_S740000x40_1_0_0_1_wf : ScatterDims.WF S100000x40 S740000x1 S740000x40 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S740000x1_S740000x40_1_0_n_n_0_1_140 : GatherDims S100000x40 S740000x1 S740000x40 where
  offsetDims := [1]
  collapsedSliceDims := [0]
  operandBatchingDims := []
  startIndicesBatchingDims := []
  startIndexMap := [0]
  indexVectorDim := 1
  sliceSizes := ![1, 40]
  wf := gather_S100000x40_S740000x1_S740000x40_1_0_n_n_0_1_140_wf
def scatter_S100000x40_S740000x1_S740000x40_1_0_0_1 : ScatterDims S100000x40 S740000x1 S740000x40 where
  updateWindowDims := [1]
  insertedWindowDims := [0]
  scatterDimsToOperandDims := [0]
  indexVectorDim := 1
  wf := scatter_S100000x40_S740000x1_S740000x40_1_0_0_1_wf

class Facts : Prop extends Facts₀ where

variable [Facts]
-- ==== Proof.RunResult.lean ====
/-
  The idealized kernel's run with its result named.

  The program is fifteen segments: stretches of host operations and eight pipelined regions.  The contents of the
  TensorCore's buffers at each segment boundary form a fold from the launch memory (a host stretch applies its
  operations; a region leaves its arrays at what its write-backs produce and every other buffer as entered).  The
  launch rule for such a program gives every unscoped buffer at the last boundary's contents in the final state;
  here that conclusion is kept for the result buffer as well as for the ten arguments, so the result array after
  the run is the last boundary's contents at the result buffer.
-/
import proofs.«113504_j24661702214227_1_alg».proof.Proof.Gen.KernelIdeal.Frame

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; in the final state the result buffer
    holds the last segment boundary's contents, and the ten argument arrays are as launched. -/
theorem run_result : θ_run defs (onTc (τ := τ) (main (F := F))) ⟨m, fun _ => 0, ρ⟩ (fun r => ∀ c : Dev nD,
      r.2.mem ((c.tc : Thread nD τ).loc main_v93) = W15 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v93 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.Net

end
-- ==== Proof.ChainPrep.lean ====
/-
  The edge data the four layers share, at the first region's entry.

  Before the first matmul region the program computes, from the edge array alone, the source indices (the first
  row of the edge array followed by 0..N-1: every node is also its own neighbour), the destination indices (the
  second row followed by 0..N-1) and the per-edge weight d[src]·d[dst], where d is the inverse square root of the
  in-degree counted over the destination indices (0 where the degree is not positive).  These are the same
  operations, in the same order, as the first stretch of the reference program: reading the kernel program's
  three buffers after its three host stretches gives literally the reference's stage terms of the edge array.

  The second half carries buffers across segments: a host stretch leaves every buffer it does not write, a
  pipelined region leaves every buffer that is not one of its arrays, and leaves an input array as it found it.
-/
import proofs.«113504_j24661702214227_1_alg».proof.Proof.Gen.KernelIdeal.Frame
import proofs.«113504_j24661702214227_1_alg».proof.Proof.RefRead

set_option maxRecDepth 16384

noncomputable section

namespace Cert.KernelIdeal.Net

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- No operation of the named host stretch writes the buffer in question: its operations' result buffers are
    literal references, each different from it. -/
local macro "keep_host" ops:ident : term =>
  `(List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

/-! ## The three shared leaves at the first region's entry -/

/-- The source indices. -/
theorem src_3 (c : Dev nD) :
    W3 m ρ c (Proc.devRef .tc main_v3) = Cert.ReferenceIdeal.ReadP.val_main_v3 (F := Ideal) (m ((c : Thread nD τ).loc main_arg1)) :=
  calc W3 m ρ c (Proc.devRef .tc main_v3)
    _ = W2 m ρ c (Proc.devRef .tc main_v3) := StableHlo.after_of_forall_not_mem (b := Proc.devRef .tc main_v3) _ _ (keep_host hostOps0_2)
    _ = W1 m ρ c (Proc.devRef .tc main_v3) := StableHlo.after_of_forall_not_mem (b := Proc.devRef .tc main_v3) _ _ (keep_host hostOps0_1)
    _ = _ := by
      show StableHlo.after hostOps0 (W0 m ρ c) (Proc.devRef .tc main_v3) = _
      after_results
      rfl

/-- The destination indices. -/
theorem dst_3 (c : Dev nD) :
    W3 m ρ c (Proc.devRef .tc main_v6) = Cert.ReferenceIdeal.ReadP.val_main_v6 (F := Ideal) (m ((c : Thread nD τ).loc main_arg1)) :=
  calc W3 m ρ c (Proc.devRef .tc main_v6)
    _ = W2 m ρ c (Proc.devRef .tc main_v6) := StableHlo.after_of_forall_not_mem (b := Proc.devRef .tc main_v6) _ _ (keep_host hostOps0_2)
    _ = W1 m ρ c (Proc.devRef .tc main_v6) := StableHlo.after_of_forall_not_mem (b := Proc.devRef .tc main_v6) _ _ (keep_host hostOps0_1)
    _ = _ := by
      show StableHlo.after hostOps0 (W0 m ρ c) (Proc.devRef .tc main_v6) = _
      after_results
      rfl

/-- After the first stretch: is the in-degree positive. -/
theorem degpos_1 (c : Dev nD) :
    W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results
  rfl

/-- After the first stretch: the inverse square root of the in-degree. -/
theorem degrsqrt_1 (c : Dev nD) :
    W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  after_results
  rfl

/-- After the first stretch: the zero the selection falls back to. -/
theorem zero_1 (c : Dev nD) :
    W1 m ρ c (Proc.devRef .tc main_cst_2) = Cert.ReferenceIdeal.ReadP.val_main_cst_2 (F := Ideal) := by
  show StableHlo.after hostOps0 (W0 m ρ c) (Proc.devRef .tc main_cst_2) = _
  after_results
  rfl

/-! ### Typed references of a called function

A called function's operations name their buffers through typed references, whose contents are transported along the
equation "the buffer's type is the value's type".  For a literal buffer that equation holds by computation, so the
transport is the identity; stated once per buffer on a variable, it is rewritten away before any larger comparison. -/

section Casts
variable {T : BufTy}
/-- A typed reference's two transports are inverse to one another. -/
theorem ofBuf_toBuf (x : StableHlo.TRef sig T) (v : T.Contents (Elt Ideal)) : x.ofBuf (x.toBuf v) = v := by
  obtain ⟨r, h, h2, h3⟩ := x
  subst h
  rfl
end Casts

theorem toBuf_v14 (h1 h2 h3) (v : (⟨S100000, .f32⟩ : BufTy).Contents (Elt Ideal)) :
    (StableHlo.TRef.of main_v14 h1 h2 h3 : StableHlo.TRef sig ⟨S100000, .f32⟩).toBuf v = v := rfl
theorem ofBuf_v12 (h1 h2 h3) (w : (⟨S100000, .i1⟩ : BufTy).Contents (Elt Ideal)) :
    (StableHlo.TRef.of main_v12 h1 h2 h3 : StableHlo.TRef sig ⟨S100000, .i1⟩).ofBuf w = w := rfl
theorem ofBuf_v13 (h1 h2 h3) (w : (⟨S100000, .f32⟩ : BufTy).Contents (Elt Ideal)) :
    (StableHlo.TRef.of main_v13 h1 h2 h3 : StableHlo.TRef sig ⟨S100000, .f32⟩).ofBuf w = w := rfl
theorem ofBuf_cst2 (h1 h2 h3) (w : (⟨S_, .f32⟩ : BufTy).Contents (Elt Ideal)) :
    (StableHlo.TRef.of main_cst_2 h1 h2 h3 : StableHlo.TRef sig ⟨S_, .f32⟩).ofBuf w = w := rfl

/-- The second stretch from ANY contents holding the degree test, the inverse root and the zero: the inverse root
    where the degree is positive, zero elsewhere. -/
theorem dinv_of (V : Valuation τ sig (Elt Ideal)) (x1 : (⟨Cert.ReferenceIdeal.S2x640000, .i32⟩ : BufTy).Contents (Elt Ideal))
    (h12 : V (Proc.devRef .tc main_v12) = Cert.ReferenceIdeal.ReadP.val_main_v12 (F := Ideal) x1)
    (h13 : V (Proc.devRef .tc main_v13) = Cert.ReferenceIdeal.ReadP.val_main_v13 (F := Ideal) x1)
    (hz : V (Proc.devRef .tc main_cst_2) = Cert.ReferenceIdeal.ReadP.val_main_cst_2 (F := Ideal)) :
    StableHlo.after hostOps0_1 V (Proc.devRef .tc main_v14) = Cert.ReferenceIdeal.ReadP.val_main_v14 (F := Ideal) x1 := by
  after_results
  rw [h12, h13, hz]
  rw [toBuf_v14, ofBuf_v12, ofBuf_v13, ofBuf_toBuf, ofBuf_toBuf, ofBuf_cst2]
  rfl

theorem dinv_2 (c : Dev nD) :
    W2 m ρ c (Proc.devRef .tc main_v14) = Cert.ReferenceIdeal.ReadP.val_main_v14 (F := Ideal) (m ((c : Thread nD τ).loc main_arg1)) :=
  dinv_of (W1 m ρ c) _ (degpos_1 m ρ c) (degrsqrt_1 m ρ c) (zero_1 m ρ c)

theorem src_2 (c : Dev nD) :
    W2 m ρ c (Proc.devRef .tc main_v3) = Cert.ReferenceIdeal.ReadP.val_main_v3 (F := Ideal) (m ((c : Thread nD τ).loc main_arg1)) :=
  calc W2 m ρ c (Proc.devRef .tc main_v3)
    _ = W1 m ρ c (Proc.devRef .tc main_v3) := StableHlo.after_of_forall_not_mem (b := Proc.devRef .tc main_v3) _ _ (keep_host hostOps0_1)
    _ = _ := by
      show StableHlo.after hostOps0 (W0 m ρ c) (Proc.devRef .tc main_v3) = _
      after_results
      rfl

theorem dst_2 (c : Dev nD) :
    W2 m ρ c (Proc.devRef .tc main_v6) = Cert.ReferenceIdeal.ReadP.val_main_v6 (F := Ideal) (m ((c : Thread nD τ).loc main_arg1)) :=
  calc W2 m ρ c (Proc.devRef .tc main_v6)
    _ = W1 m ρ c (Proc.devRef .tc main_v6) := StableHlo.after_of_forall_not_mem (b := Proc.devRef .tc main_v6) _ _ (keep_host hostOps0_1)
    _ = _ := by
      show StableHlo.after hostOps0 (W0 m ρ c) (Proc.devRef .tc main_v6) = _
      after_results
      rfl

/-- The third stretch from ANY contents holding the selected inverse degree and the two index vectors: the inverse
    degree gathered at the source and at the destination indices, multiplied. -/
theorem nrm_of (V : Valuation τ sig (Elt Ideal)) (x1 : (⟨Cert.ReferenceIdeal.S2x640000, .i32⟩ : BufTy).Contents (Elt Ideal))
    (h14 : V (Proc.devRef .tc main_v14) = Cert.ReferenceIdeal.ReadP.val_main_v14 (F := Ideal) x1)
    (h3 : V (Proc.devRef .tc main_v3) = Cert.ReferenceIdeal.ReadP.val_main_v3 (F := Ideal) x1)
    (h6 : V (Proc.devRef .tc main_v6) = Cert.ReferenceIdeal.ReadP.val_main_v6 (F := Ideal) x1) :
    StableHlo.after hostOps0_2 V (Proc.devRef .tc main_v29) = Cert.ReferenceIdeal.ReadP.val_main_v29 (F := Ideal) x1 := by
  after_results_simp
  rw [h14, h3, h6]
  rfl

/-- The per-edge weight at the first region's entry. -/
theorem nrm_3 (c : Dev nD) :
    W3 m ρ c (Proc.devRef .tc main_v29) = Cert.ReferenceIdeal.ReadP.val_main_v29 (F := Ideal) (m ((c : Thread nD τ).loc main_arg1)) :=
  nrm_of (W2 m ρ c) _ (dinv_2 m ρ c) (src_2 m ρ c) (dst_2 m ρ c)

/-! ## Carries -/

theorem src_carry_4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem dst_carry_4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem nrm_carry_4 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem src_carry_7 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (keep_host hostOps1)
    _ = W3 m ρ c (Proc.devRef .tc main_v3) := W4_of_ne m ρ c main_v3 (by decide)

theorem dst_carry_7 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (keep_host hostOps1)
    _ = W3 m ρ c (Proc.devRef .tc main_v6) := W4_of_ne m ρ c main_v6 (by decide)

theorem nrm_carry_7 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := StableHlo.after_of_forall_not_mem (b := Proc.devRef .tc main_v29) _ _ (keep_host hostOps1)
    _ = W3 m ρ c (Proc.devRef .tc main_v29) := W4_of_ne m ρ c main_v29 (by decide)

theorem src_carry_10 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := StableHlo.after_of_forall_not_mem (b := Proc.devRef .tc main_v3) _ _ (keep_host hostOps3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (keep_host hostOps1)
    _ = W3 m ρ c (Proc.devRef .tc main_v3) := W4_of_ne m ρ c main_v3 (by decide)

theorem dst_carry_10 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := StableHlo.after_of_forall_not_mem (b := Proc.devRef .tc main_v6) _ _ (keep_host hostOps3)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (keep_host hostOps1)
    _ = W3 m ρ c (Proc.devRef .tc main_v6) := W4_of_ne m ρ c main_v6 (by decide)

theorem nrm_carry_10 (c : Dev nD) : W10 m ρ c (Proc.devRef .tc main_v29) = W3 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := StableHlo.after_of_forall_not_mem (b := Proc.devRef .tc main_v29) _ _ (keep_host hostOps3)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := StableHlo.after_of_forall_not_mem (b := Proc.devRef .tc main_v29) _ _ (keep_host hostOps1)
    _ = W3 m ρ c (Proc.devRef .tc main_v29) := W4_of_ne m ρ c main_v29 (by decide)

theorem src_carry_13 (c : Dev nD) : W13 m ρ c (Proc.devRef .tc main_v3) = W3 m ρ c (Proc.devRef .tc main_v3) :=
  calc W13 m ρ c (Proc.devRef .tc main_v3)
    _ = W12 m ρ c (Proc.devRef .tc main_v3) := W13_of_ne m ρ c main_v3 (by decide)
    _ = W11 m ρ c (Proc.devRef .tc main_v3) := W12_of_ne m ρ c main_v3 (by decide)
    _ = W10 m ρ c (Proc.devRef .tc main_v3) := StableHlo.after_of_forall_not_mem (b := Proc.devRef .tc main_v3) _ _ (keep_host hostOps5)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := StableHlo.after_of_forall_not_mem (b := Proc.devRef .tc main_v3) _ _ (keep_host hostOps3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (keep_host hostOps1)
    _ = W3 m ρ c (Proc.devRef .tc main_v3) := W4_of_ne m ρ c main_v3 (by decide)

theorem dst_carry_13 (c : Dev nD) : W13 m ρ c (Proc.devRef .tc main_v6) = W3 m ρ c (Proc.devRef .tc main_v6) :=
  calc W13 m ρ c (Proc.devRef .tc main_v6)
    _ = W12 m ρ c (Proc.devRef .tc main_v6) := W13_of_ne m ρ c main_v6 (by decide)
    _ = W11 m ρ c (Proc.devRef .tc main_v6) := W12_of_ne m ρ c main_v6 (by decide)
    _ = W10 m ρ c (Proc.devRef .tc main_v6) := StableHlo.after_of_forall_not_mem (b := Proc.devRef .tc main_v6) _ _ (keep_host hostOps5)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := StableHlo.after_of_forall_not_mem (b := Proc.devRef .tc main_v6) _ _ (keep_host hostOps3)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (keep_host hostOps1)
    _ = W3 m ρ c (Proc.devRef .tc main_v6) := W4_of_ne m ρ c main_v6 (by decide)

theorem nrm_carry_13 (c : Dev nD) : W13 m ρ c (Proc.devRef .tc main_v29) = W3 m ρ c (Proc.devRef .tc main_v29) :=
  calc W13 m ρ c (Proc.devRef .tc main_v29)
    _ = W12 m ρ c (Proc.devRef .tc main_v29) := W13_of_ne m ρ c main_v29 (by decide)
    _ = W11 m ρ c (Proc.devRef .tc main_v29) := W12_of_ne m ρ c main_v29 (by decide)
    _ = W10 m ρ c (Proc.devRef .tc main_v29) := StableHlo.after_of_forall_not_mem (b := Proc.devRef .tc main_v29) _ _ (keep_host hostOps5)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := StableHlo.after_of_forall_not_mem (b := Proc.devRef .tc main_v29) _ _ (keep_host hostOps3)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := StableHlo.after_of_forall_not_mem (b := Proc.devRef .tc main_v29) _ _ (keep_host hostOps1)
    _ = W3 m ρ c (Proc.devRef .tc main_v29) := W4_of_ne m ρ c main_v29 (by decide)

theorem arg0_carry_3 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (keep_host hostOps0_2)
    _ = W1 m ρ c (Proc.devRef .tc main_arg0) := StableHlo.after_of_forall_not_mem (b := Proc.devRef .tc main_arg0) _ _ (keep_host hostOps0_1)
    _ = W0 m ρ c (Proc.devRef .tc main_arg0) := StableHlo.after_of_forall_not_mem (b := Proc.devRef .tc main_arg0) _ _ (keep_host hostOps0)

theorem arg2_carry_3 (c : Dev nD) : W3 m ρ c (Proc.devRef .tc main_arg2) = W0 m ρ c (Proc.devRef .tc main_arg2) :=
  calc W3 m ρ c (Proc.devRef .tc main_arg2)
    _ = W2 m ρ c (Proc.devRef .tc main_arg2) := StableHlo.after_of_forall_not_mem (b := Proc.devRef .tc main_arg2) _ _ (keep_host hostOps0_2)
    _ = W1 m ρ c (Proc.devRef .tc main_arg2) := StableHlo.after_of_forall_not_mem (b := Proc.devRef .tc main_arg2) _ _ (keep_host hostOps0_1)
    _ = W0 m ρ c (Proc.devRef .tc main_arg2) := StableHlo.after_of_forall_not_mem (b := Proc.devRef .tc main_arg2) _ _ (keep_host hostOps0)

theorem arg3_carry_4 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (keep_host hostOps0_2)
    _ = W1 m ρ c (Proc.devRef .tc main_arg3) := StableHlo.after_of_forall_not_mem (b := Proc.devRef .tc main_arg3) _ _ (keep_host hostOps0_1)
    _ = W0 m ρ c (Proc.devRef .tc main_arg3) := StableHlo.after_of_forall_not_mem (b := Proc.devRef .tc main_arg3) _ _ (keep_host hostOps0)

theorem arg4_carry_6 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (keep_host hostOps1)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (keep_host hostOps0_2)
    _ = W1 m ρ c (Proc.devRef .tc main_arg4) := StableHlo.after_of_forall_not_mem (b := Proc.devRef .tc main_arg4) _ _ (keep_host hostOps0_1)
    _ = W0 m ρ c (Proc.devRef .tc main_arg4) := StableHlo.after_of_forall_not_mem (b := Proc.devRef .tc main_arg4) _ _ (keep_host hostOps0)

theorem arg5_carry_7 (c : Dev nD) : W7 m ρ c (Proc.devRef .tc main_arg5) = W0 m ρ c (Proc.devRef .tc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (keep_host hostOps1)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (keep_host hostOps0_2)
    _ = W1 m ρ c (Proc.devRef .tc main_arg5) := StableHlo.after_of_forall_not_mem (b := Proc.devRef .tc main_arg5) _ _ (keep_host hostOps0_1)
    _ = W0 m ρ c (Proc.devRef .tc main_arg5) := StableHlo.after_of_forall_not_mem (b := Proc.devRef .tc main_arg5) _ _ (keep_host hostOps0)

theorem arg6_carry_9 (c : Dev nD) : W9 m ρ c (Proc.devRef .tc main_arg6) = W0 m ρ c (Proc.devRef .tc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_forall_not_mem (b := Proc.devRef .tc main_arg6) _ _ (keep_host hostOps3)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (keep_host hostOps1)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (keep_host hostOps0_2)
    _ = W1 m ρ c (Proc.devRef .tc main_arg6) := StableHlo.after_of_forall_not_mem (b := Proc.devRef .tc main_arg6) _ _ (keep_host hostOps0_1)
    _ = W0 m ρ c (Proc.devRef .tc main_arg6) := StableHlo.after_of_forall_not_mem (b := Proc.devRef .tc main_arg6) _ _ (keep_host hostOps0)

theorem arg7_carry_10 (c : Dev nD) : W10 m ρ c (Proc.devRef .tc main_arg7) = W0 m ρ c (Proc.devRef .tc main_arg7) :=
  calc W10 m ρ c (Proc.devRef .tc main_arg7)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (keep_host hostOps3)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (keep_host hostOps1)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (keep_host hostOps0_2)
    _ = W1 m ρ c (Proc.devRef .tc main_arg7) := StableHlo.after_of_forall_not_mem (b := Proc.devRef .tc main_arg7) _ _ (keep_host hostOps0_1)
    _ = W0 m ρ c (Proc.devRef .tc main_arg7) := StableHlo.after_of_forall_not_mem (b := Proc.devRef .tc main_arg7) _ _ (keep_host hostOps0)

theorem arg8_carry_12 (c : Dev nD) : W12 m ρ c (Proc.devRef .tc main_arg8) = W0 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (keep_host hostOps5)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (keep_host hostOps3)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (keep_host hostOps1)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (keep_host hostOps0_2)
    _ = W1 m ρ c (Proc.devRef .tc main_arg8) := StableHlo.after_of_forall_not_mem (b := Proc.devRef .tc main_arg8) _ _ (keep_host hostOps0_1)
    _ = W0 m ρ c (Proc.devRef .tc main_arg8) := StableHlo.after_of_forall_not_mem (b := Proc.devRef .tc main_arg8) _ _ (keep_host hostOps0)

theorem arg9_carry_13 (c : Dev nD) : W13 m ρ c (Proc.devRef .tc main_arg9) = W0 m ρ c (Proc.devRef .tc main_arg9) :=
  calc W13 m ρ c (Proc.devRef .tc main_arg9)
    _ = W12 m ρ c (Proc.devRef .tc main_arg9) := W13_of_ne m ρ c main_arg9 (by decide)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (keep_host hostOps5)
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (keep_host hostOps3)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (keep_host hostOps1)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (keep_host hostOps0_2)
    _ = W1 m ρ c (Proc.devRef .tc main_arg9) := StableHlo.after_of_forall_not_mem (b := Proc.devRef .tc main_arg9) _ _ (keep_host hostOps0_1)
    _ = W0 m ρ c (Proc.devRef .tc main_arg9) := StableHlo.after_of_forall_not_mem (b := Proc.devRef .tc main_arg9) _ _ (keep_host hostOps0)

end Cert.KernelIdeal.Net

end
-- ==== Proof.ChainHost.lean ====
/-
  A host stretch between two regions, read from ANY buffer contents.

  After a product region the program gathers the product's rows at the source indices, scales each by its edge
  weight and adds it into the row of its destination node; in the same stretch it reshapes the layer's bias vector to
  a one-row matrix.  These are the reference's own operations in the reference's order.  So, whatever the buffers
  hold: if the source indices, destination indices, edge weights and the product hold the reference's stages of the
  arguments, the aggregate holds the reference's next stage; and if the bias buffer holds a vector, the one-row
  buffer holds it reshaped, which is the reference's broadcast of it to one row.
-/
import proofs.«113504_j24661702214227_1_alg».proof.Proof.ChainPrep

set_option maxRecDepth 16384

noncomputable section

namespace Cert.KernelIdeal.Net

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-! ## A host stretch between regions, from ANY contents

The stretch after a product region gathers the product's rows at the source indices, scales them by the edge weight
and adds them into the rows at the destination indices; it also reshapes the layer's bias to one row.  Whatever the
buffers hold, if the three shared leaves and the product hold the reference's stages, so does the aggregate. -/

theorem agg_of_1 (V : Valuation τ sig (Elt Ideal)) {x0 : (⟨Cert.ReferenceIdeal.S100000x128, .f32⟩ : BufTy).Contents (Elt Ideal)} {x1 : (⟨Cert.ReferenceIdeal.S2x640000, .i32⟩ : BufTy).Contents (Elt Ideal)} {x2 : (⟨Cert.ReferenceIdeal.S128x128, .f32⟩ : BufTy).Contents (Elt Ideal)}
    (hs : V (Proc.devRef .tc main_v3) = Cert.ReferenceIdeal.ReadP.val_main_v3 (F := Ideal) x1) (hd : V (Proc.devRef .tc main_v6) = Cert.ReferenceIdeal.ReadP.val_main_v6 (F := Ideal) x1)
    (hn : V (Proc.devRef .tc main_v29) = Cert.ReferenceIdeal.ReadP.val_main_v29 (F := Ideal) x1)
    (hl : V (Proc.devRef .tc main_v30) = Cert.ReferenceIdeal.ReadP.val_main_v30 (F := Ideal) x0 x2) :
    StableHlo.after hostOps1 V (Proc.devRef .tc main_v43) = Cert.ReferenceIdeal.ReadP.val_main_v43 (F := Ideal) x0 x1 x2 := by
  after_results_simp
  rw [hs, hd, hn, hl]
  rfl

theorem agg_of_2 (V : Valuation τ sig (Elt Ideal)) {x0 : (⟨Cert.ReferenceIdeal.S100000x128, .f32⟩ : BufTy).Contents (Elt Ideal)} {x1 : (⟨Cert.ReferenceIdeal.S2x640000, .i32⟩ : BufTy).Contents (Elt Ideal)} {x2 : (⟨Cert.ReferenceIdeal.S128x128, .f32⟩ : BufTy).Contents (Elt Ideal)} {x3 : (⟨Cert.ReferenceIdeal.S128, .f32⟩ : BufTy).Contents (Elt Ideal)} {x4 : (⟨Cert.ReferenceIdeal.S128x128, .f32⟩ : BufTy).Contents (Elt Ideal)}
    (hs : V (Proc.devRef .tc main_v3) = Cert.ReferenceIdeal.ReadP.val_main_v3 (F := Ideal) x1) (hd : V (Proc.devRef .tc main_v6) = Cert.ReferenceIdeal.ReadP.val_main_v6 (F := Ideal) x1)
    (hn : V (Proc.devRef .tc main_v29) = Cert.ReferenceIdeal.ReadP.val_main_v29 (F := Ideal) x1)
    (hl : V (Proc.devRef .tc main_v46) = Cert.ReferenceIdeal.ReadP.val_main_v48 (F := Ideal) x0 x1 x2 x3 x4) :
    StableHlo.after hostOps3 V (Proc.devRef .tc main_v59) = Cert.ReferenceIdeal.ReadP.val_main_v61 (F := Ideal) x0 x1 x2 x3 x4 := by
  after_results_simp
  rw [hs, hd, hn, hl]
  rfl

theorem agg_of_3 (V : Valuation τ sig (Elt Ideal)) {x0 : (⟨Cert.ReferenceIdeal.S100000x128, .f32⟩ : BufTy).Contents (Elt Ideal)} {x1 : (⟨Cert.ReferenceIdeal.S2x640000, .i32⟩ : BufTy).Contents (Elt Ideal)} {x2 : (⟨Cert.ReferenceIdeal.S128x128, .f32⟩ : BufTy).Contents (Elt Ideal)} {x3 : (⟨Cert.ReferenceIdeal.S128, .f32⟩ : BufTy).Contents (Elt Ideal)} {x4 : (⟨Cert.ReferenceIdeal.S128x128, .f32⟩ : BufTy).Contents (Elt Ideal)} {x5 : (⟨Cert.ReferenceIdeal.S128, .f32⟩ : BufTy).Contents (Elt Ideal)} {x6 : (⟨Cert.ReferenceIdeal.S128x128, .f32⟩ : BufTy).Contents (Elt Ideal)}
    (hs : V (Proc.devRef .tc main_v3) = Cert.ReferenceIdeal.ReadP.val_main_v3 (F := Ideal) x1) (hd : V (Proc.devRef .tc main_v6) = Cert.ReferenceIdeal.ReadP.val_main_v6 (F := Ideal) x1)
    (hn : V (Proc.devRef .tc main_v29) = Cert.ReferenceIdeal.ReadP.val_main_v29 (F := Ideal) x1)
    (hl : V (Proc.devRef .tc main_v62) = Cert.ReferenceIdeal.ReadP.val_main_v66 (F := Ideal) x0 x1 x2 x3 x4 x5 x6) :
    StableHlo.after hostOps5 V (Proc.devRef .tc main_v75) = Cert.ReferenceIdeal.ReadP.val_main_v79 (F := Ideal) x0 x1 x2 x3 x4 x5 x6 := by
  after_results_simp
  rw [hs, hd, hn, hl]
  rfl

theorem agg_of_4 (V : Valuation τ sig (Elt Ideal)) {x0 : (⟨Cert.ReferenceIdeal.S100000x128, .f32⟩ : BufTy).Contents (Elt Ideal)} {x1 : (⟨Cert.ReferenceIdeal.S2x640000, .i32⟩ : BufTy).Contents (Elt Ideal)} {x2 : (⟨Cert.ReferenceIdeal.S128x128, .f32⟩ : BufTy).Contents (Elt Ideal)} {x3 : (⟨Cert.ReferenceIdeal.S128, .f32⟩ : BufTy).Contents (Elt Ideal)} {x4 : (⟨Cert.ReferenceIdeal.S128x128, .f32⟩ : BufTy).Contents (Elt Ideal)} {x5 : (⟨Cert.ReferenceIdeal.S128, .f32⟩ : BufTy).Contents (Elt Ideal)} {x6 : (⟨Cert.ReferenceIdeal.S128x128, .f32⟩ : BufTy).Contents (Elt Ideal)} {x7 : (⟨Cert.ReferenceIdeal.S128, .f32⟩ : BufTy).Contents (Elt Ideal)} {x8 : (⟨Cert.ReferenceIdeal.S128x40, .f32⟩ : BufTy).Contents (Elt Ideal)}
    (hs : V (Proc.devRef .tc main_v3) = Cert.ReferenceIdeal.ReadP.val_main_v3 (F := Ideal) x1) (hd : V (Proc.devRef .tc main_v6) = Cert.ReferenceIdeal.ReadP.val_main_v6 (F := Ideal) x1)
    (hn : V (Proc.devRef .tc main_v29) = Cert.ReferenceIdeal.ReadP.val_main_v29 (F := Ideal) x1)
    (hl : V (Proc.devRef .tc main_v78) = Cert.ReferenceIdeal.ReadP.val_main_v84 (F := Ideal) x0 x1 x2 x3 x4 x5 x6 x7 x8) :
    StableHlo.after hostOps7 V (Proc.devRef .tc main_v91) = Cert.ReferenceIdeal.ReadP.val_main_v97 (F := Ideal) x0 x1 x2 x3 x4 x5 x6 x7 x8 := by
  after_results_simp
  rw [hs, hd, hn, hl]
  rfl

/-- Layer 1: the bias as one row, from any contents holding the bias vector. -/
theorem row_of_1
    (hrow : ∀ (b : FVec Ideal S128 .f32) (hc : S128.ShapeCasts S1x128) (hb : Cert.ReferenceIdeal.S128.BroadcastsInDim Cert.ReferenceIdeal.S1x128 ![1]),
      shapeCast S1x128 b hc = broadcastInDim Cert.ReferenceIdeal.S1x128 ![1] hb b)
    (V : Valuation τ sig (Elt Ideal)) {x3 : (⟨Cert.ReferenceIdeal.S128, .f32⟩ : BufTy).Contents (Elt Ideal)}
    (hb : V (Proc.devRef .tc main_arg3) = x3) :
    StableHlo.after hostOps1 V (Proc.devRef .tc main_v44) = Cert.ReferenceIdeal.ReadP.val_main_v44 (F := Ideal) x3 := by
  after_results
  rw [hb]
  exact hrow _ _ _

/-- Layer 2: the bias as one row, from any contents holding the bias vector. -/
theorem row_of_2
    (hrow : ∀ (b : FVec Ideal S128 .f32) (hc : S128.ShapeCasts S1x128) (hb : Cert.ReferenceIdeal.S128.BroadcastsInDim Cert.ReferenceIdeal.S1x128 ![1]),
      shapeCast S1x128 b hc = broadcastInDim Cert.ReferenceIdeal.S1x128 ![1] hb b)
    (V : Valuation τ sig (Elt Ideal)) {x5 : (⟨Cert.ReferenceIdeal.S128, .f32⟩ : BufTy).Contents (Elt Ideal)}
    (hb : V (Proc.devRef .tc main_arg5) = x5) :
    StableHlo.after hostOps3 V (Proc.devRef .tc main_v60) = Cert.ReferenceIdeal.ReadP.val_main_v62 (F := Ideal) x5 := by
  after_results
  rw [hb]
  exact hrow _ _ _

/-- Layer 3: the bias as one row, from any contents holding the bias vector. -/
theorem row_of_3
    (hrow : ∀ (b : FVec Ideal S128 .f32) (hc : S128.ShapeCasts S1x128) (hb : Cert.ReferenceIdeal.S128.BroadcastsInDim Cert.ReferenceIdeal.S1x128 ![1]),
      shapeCast S1x128 b hc = broadcastInDim Cert.ReferenceIdeal.S1x128 ![1] hb b)
    (V : Valuation τ sig (Elt Ideal)) {x7 : (⟨Cert.ReferenceIdeal.S128, .f32⟩ : BufTy).Contents (Elt Ideal)}
    (hb : V (Proc.devRef .tc main_arg7) = x7) :
    StableHlo.after hostOps5 V (Proc.devRef .tc main_v76) = Cert.ReferenceIdeal.ReadP.val_main_v80 (F := Ideal) x7 := by
  after_results
  rw [hb]
  exact hrow _ _ _

/-- Layer 4: the bias as one row, from any contents holding the bias vector. -/
theorem row_of_4
    (hrow : ∀ (b : FVec Ideal S40 .f32) (hc : S40.ShapeCasts S1x40) (hb : Cert.ReferenceIdeal.S40.BroadcastsInDim Cert.ReferenceIdeal.S1x40 ![1]),
      shapeCast S1x40 b hc = broadcastInDim Cert.ReferenceIdeal.S1x40 ![1] hb b)
    (V : Valuation τ sig (Elt Ideal)) {x9 : (⟨Cert.ReferenceIdeal.S40, .f32⟩ : BufTy).Contents (Elt Ideal)}
    (hb : V (Proc.devRef .tc main_arg9) = x9) :
    StableHlo.after hostOps7 V (Proc.devRef .tc main_v92) = Cert.ReferenceIdeal.ReadP.val_main_v98 (F := Ideal) x9 := by
  after_results
  rw [hb]
  exact hrow _ _ _

end Cert.KernelIdeal.Net

end
-- ==== Proof.Shapes.lean ====
/-
  The array shapes of the network, named once for every module of this proof: node features [100000, 128], the
  last layer's [100000, 40], the weight matrices [128, 128] and [128, 40], and a bias as a one-row matrix
  [1, 128] / [1, 40] or a vector [128] / [40].  Each is the same literal shape the printed programs name in their
  own namespaces.
-/
import Idealize.ShloMosaic.PureOps.Ideal
import Idealize.ShloMosaic.Lib.ValueIdx

namespace Cert.Net

open Idealize.ShloMosaic

abbrev SX : Shape := ⟨2, ![100000, 128]⟩
abbrev SY : Shape := ⟨2, ![100000, 40]⟩
abbrev SW : Shape := ⟨2, ![128, 128]⟩
abbrev SW4 : Shape := ⟨2, ![128, 40]⟩
abbrev SB : Shape := ⟨2, ![1, 128]⟩
abbrev SB4 : Shape := ⟨2, ![1, 40]⟩
abbrev SV : Shape := ⟨1, ![128]⟩
abbrev SV4 : Shape := ⟨1, ![40]⟩

end Cert.Net
-- ==== Proof.Chain.lean ====
/-
  The kernel program's result, layer by layer, as the reference's stages.

  The statement is parametric in four array functions: a product of node features with a weight matrix (128 or 40
  columns), a bias-add followed by a maximum with zero, and a bias-add followed by a row-wise log-softmax.  Suppose
  each pipelined region leaves in its output array that function of its two input arrays (whatever the buffers
  hold when the region is entered), and each corresponding group of reference operations is that function of its
  operands.  Then, walking the fifteen segments in order, every buffer the next segment reads holds the matching
  stage of the reference program, as a function of the ten arguments: the host stretches between regions (gather
  the rows at the source indices, scale by the edge weight, add into the rows at the destination indices, and a
  bias reshaped to one row) are literally the reference's operations applied to equal operands, and a region's
  output is the reference's stage because both are the same function of equal operands.  The last region's output
  is the program's result.
-/
import proofs.«113504_j24661702214227_1_alg».proof.Proof.ChainHost
import proofs.«113504_j24661702214227_1_alg».proof.Proof.Shapes

set_option maxRecDepth 16384
set_option maxHeartbeats 1000000

noncomputable section

namespace Cert.KernelIdeal.Net

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-! ## Names for the ten launch arrays -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)

/-! ## The shared leaves at every later host stretch -/
theorem src_4 (c : Dev nD) : W4 m ρ c (Proc.devRef .tc main_v3) = Cert.ReferenceIdeal.ReadP.val_main_v3 (F := Ideal) (a1 m c) := (src_carry_4 m ρ c).trans (src_3 m ρ c)
theorem dst_4 (c : Dev nD) : W4 m ρ c (Proc.devRef .tc main_v6) = Cert.ReferenceIdeal.ReadP.val_main_v6 (F := Ideal) (a1 m c) := (dst_carry_4 m ρ c).trans (dst_3 m ρ c)
theorem nrm_4 (c : Dev nD) : W4 m ρ c (Proc.devRef .tc main_v29) = Cert.ReferenceIdeal.ReadP.val_main_v29 (F := Ideal) (a1 m c) := (nrm_carry_4 m ρ c).trans (nrm_3 m ρ c)
theorem src_7 (c : Dev nD) : W7 m ρ c (Proc.devRef .tc main_v3) = Cert.ReferenceIdeal.ReadP.val_main_v3 (F := Ideal) (a1 m c) := (src_carry_7 m ρ c).trans (src_3 m ρ c)
theorem dst_7 (c : Dev nD) : W7 m ρ c (Proc.devRef .tc main_v6) = Cert.ReferenceIdeal.ReadP.val_main_v6 (F := Ideal) (a1 m c) := (dst_carry_7 m ρ c).trans (dst_3 m ρ c)
theorem nrm_7 (c : Dev nD) : W7 m ρ c (Proc.devRef .tc main_v29) = Cert.ReferenceIdeal.ReadP.val_main_v29 (F := Ideal) (a1 m c) := (nrm_carry_7 m ρ c).trans (nrm_3 m ρ c)
theorem src_10 (c : Dev nD) : W10 m ρ c (Proc.devRef .tc main_v3) = Cert.ReferenceIdeal.ReadP.val_main_v3 (F := Ideal) (a1 m c) := (src_carry_10 m ρ c).trans (src_3 m ρ c)
theorem dst_10 (c : Dev nD) : W10 m ρ c (Proc.devRef .tc main_v6) = Cert.ReferenceIdeal.ReadP.val_main_v6 (F := Ideal) (a1 m c) := (dst_carry_10 m ρ c).trans (dst_3 m ρ c)
theorem nrm_10 (c : Dev nD) : W10 m ρ c (Proc.devRef .tc main_v29) = Cert.ReferenceIdeal.ReadP.val_main_v29 (F := Ideal) (a1 m c) := (nrm_carry_10 m ρ c).trans (nrm_3 m ρ c)
theorem src_13 (c : Dev nD) : W13 m ρ c (Proc.devRef .tc main_v3) = Cert.ReferenceIdeal.ReadP.val_main_v3 (F := Ideal) (a1 m c) := (src_carry_13 m ρ c).trans (src_3 m ρ c)
theorem dst_13 (c : Dev nD) : W13 m ρ c (Proc.devRef .tc main_v6) = Cert.ReferenceIdeal.ReadP.val_main_v6 (F := Ideal) (a1 m c) := (dst_carry_13 m ρ c).trans (dst_3 m ρ c)
theorem nrm_13 (c : Dev nD) : W13 m ρ c (Proc.devRef .tc main_v29) = Cert.ReferenceIdeal.ReadP.val_main_v29 (F := Ideal) (a1 m c) := (nrm_carry_13 m ρ c).trans (nrm_3 m ρ c)

section Layers

variable
  (lin128 : (Cert.Net.SX.Idx → EReal) → (Cert.Net.SW.Idx → EReal) → Cert.Net.SX.Idx → EReal)
  (lin40 : (Cert.Net.SX.Idx → EReal) → (Cert.Net.SW4.Idx → EReal) → Cert.Net.SY.Idx → EReal)
  (biasRelu : (Cert.Net.SX.Idx → EReal) → (Cert.Net.SB.Idx → EReal) → Cert.Net.SX.Idx → EReal)
  (lsm : (Cert.Net.SY.Idx → EReal) → (Cert.Net.SB4.Idx → EReal) → Cert.Net.SY.Idx → EReal)
  -- what each region leaves, whatever it finds
  (hK0 : ∀ (V : (c : Dev nD) → (b : Ref sig .tc) → Buf (Elt Ideal) ((c : Thread nD τ).loc b)) (c : Dev nD), (dat0 (F := Ideal) V c).arrAt 2 cfg0.N = lin128 (V c main_arg0) (V c main_arg2))
  (hK1 : ∀ (V : (c : Dev nD) → (b : Ref sig .tc) → Buf (Elt Ideal) ((c : Thread nD τ).loc b)) (c : Dev nD), (dat1 (F := Ideal) V c).arrAt 2 cfg1.N = biasRelu (V c main_v43) (V c main_v44))
  (hK2 : ∀ (V : (c : Dev nD) → (b : Ref sig .tc) → Buf (Elt Ideal) ((c : Thread nD τ).loc b)) (c : Dev nD), (dat2 (F := Ideal) V c).arrAt 2 cfg2.N = lin128 (V c main_v45) (V c main_arg4))
  (hK3 : ∀ (V : (c : Dev nD) → (b : Ref sig .tc) → Buf (Elt Ideal) ((c : Thread nD τ).loc b)) (c : Dev nD), (dat3 (F := Ideal) V c).arrAt 2 cfg3.N = biasRelu (V c main_v59) (V c main_v60))
  (hK4 : ∀ (V : (c : Dev nD) → (b : Ref sig .tc) → Buf (Elt Ideal) ((c : Thread nD τ).loc b)) (c : Dev nD), (dat4 (F := Ideal) V c).arrAt 2 cfg4.N = lin128 (V c main_v61) (V c main_arg6))
  (hK5 : ∀ (V : (c : Dev nD) → (b : Ref sig .tc) → Buf (Elt Ideal) ((c : Thread nD τ).loc b)) (c : Dev nD), (dat5 (F := Ideal) V c).arrAt 2 cfg5.N = biasRelu (V c main_v75) (V c main_v76))
  (hK6 : ∀ (V : (c : Dev nD) → (b : Ref sig .tc) → Buf (Elt Ideal) ((c : Thread nD τ).loc b)) (c : Dev nD), (dat6 (F := Ideal) V c).arrAt 2 cfg6.N = lin40 (V c main_v77) (V c main_arg8))
  (hK7 : ∀ (V : (c : Dev nD) → (b : Ref sig .tc) → Buf (Elt Ideal) ((c : Thread nD τ).loc b)) (c : Dev nD), (dat7 (F := Ideal) V c).arrAt 2 cfg7.N = lsm (V c main_v91) (V c main_v92))
  -- what the reference's operations compute
  (hR128 : ∀ (X : FVec Ideal Cert.ReferenceIdeal.S100000x128 .f32) (Wt : FVec Ideal Cert.ReferenceIdeal.S128x128 .f32),
    Host.dotGeneral Cert.ReferenceIdeal.dot_S100000x128_S128x128_S100000x128_1_0_0_1_n_n none X Wt = lin128 X Wt)
  (hR40 : ∀ (X : FVec Ideal Cert.ReferenceIdeal.S100000x128 .f32) (Wt : FVec Ideal Cert.ReferenceIdeal.S128x40 .f32),
    Host.dotGeneral Cert.ReferenceIdeal.dot_S100000x128_S128x40_S100000x40_1_0_0_1_n_n none X Wt = lin40 X Wt)
  (hRbias : ∀ (X : FVec Ideal Cert.ReferenceIdeal.S100000x128 .f32) (b : FVec Ideal Cert.ReferenceIdeal.S128 .f32)
      (h01 : Cert.ReferenceIdeal.S1x128.BroadcastsInDim Cert.ReferenceIdeal.S100000x128 ![0, 1]) (h1 : Cert.ReferenceIdeal.S128.BroadcastsInDim Cert.ReferenceIdeal.S1x128 ![1]) (h0 : Cert.ReferenceIdeal.S_.BroadcastsInDim Cert.ReferenceIdeal.S100000x128 ![]),
    maximumf (addf X (broadcastInDim Cert.ReferenceIdeal.S100000x128 ![0, 1] h01 (broadcastInDim Cert.ReferenceIdeal.S1x128 ![1] h1 b)))
        (broadcastInDim Cert.ReferenceIdeal.S100000x128 ![] h0 (constant (F := Ideal) Cert.ReferenceIdeal.S_ .f32 0x00000000#32))
      = biasRelu X (broadcastInDim Cert.ReferenceIdeal.S1x128 ![1] h1 b))
  (hRlsm : ∀ x0 x1 x2 x3 x4 x5 x6 x7 x8 x9, Cert.ReferenceIdeal.ReadP.val_main_v101 (F := Ideal) x0 x1 x2 x3 x4 x5 x6 x7 x8 x9
      = lsm (Cert.ReferenceIdeal.ReadP.val_main_v97 (F := Ideal) x0 x1 x2 x3 x4 x5 x6 x7 x8) (broadcastInDim Cert.ReferenceIdeal.S1x40 ![1] Cert.ReferenceIdeal.Gen.bcast_S40_S1x40_1 x9))
  -- a bias as one row: the kernel program reshapes, the reference broadcasts
  (hrow128 : ∀ (b : FVec Ideal S128 .f32) (hc : S128.ShapeCasts S1x128) (hb : Cert.ReferenceIdeal.S128.BroadcastsInDim Cert.ReferenceIdeal.S1x128 ![1]),
    shapeCast S1x128 b hc = broadcastInDim Cert.ReferenceIdeal.S1x128 ![1] hb b)
  (hrow40 : ∀ (b : FVec Ideal S40 .f32) (hc : S40.ShapeCasts S1x40) (hb : Cert.ReferenceIdeal.S40.BroadcastsInDim Cert.ReferenceIdeal.S1x40 ![1]),
    shapeCast S1x40 b hc = broadcastInDim Cert.ReferenceIdeal.S1x40 ![1] hb b)

include hK0 hK1 hK2 hK3 hK4 hK5 hK6 hK7 hR128 hR40 hRbias hRlsm hrow128 hrow40

/-- Layer 1: the product with the weight matrix. -/
theorem lin1 (c : Dev nD) : W4 m ρ c (Proc.devRef .tc main_v30) = Cert.ReferenceIdeal.ReadP.val_main_v30 (F := Ideal) (a0 m c) (a2 m c) :=
  calc W4 m ρ c (Proc.devRef .tc main_v30)
    _ = (dat0 (V3 m ρ) c).arrAt 2 cfg0.N := W4_arr m ρ c 2
    _ = lin128 (V3 m ρ c main_arg0) (V3 m ρ c main_arg2) := hK0 (V3 m ρ) c
    _ = lin128 (a0 m c) (a2 m c) := congrArg₂ lin128 (arg0_carry_3 m ρ c) (arg2_carry_3 m ρ c)
    _ = _ := (hR128 _ _).symm

/-- Layer 1: the aggregate over the edges — the reference's operations on equal operands. -/
theorem agg1 (c : Dev nD) : W5 m ρ c (Proc.devRef .tc main_v43) = Cert.ReferenceIdeal.ReadP.val_main_v43 (F := Ideal) (a0 m c) (a1 m c) (a2 m c) :=
  agg_of_1 (W4 m ρ c) (src_4 m ρ c) (dst_4 m ρ c) (nrm_4 m ρ c) (lin1 m ρ lin128 lin40 biasRelu lsm hK0 hK1 hK2 hK3 hK4 hK5 hK6 hK7 hR128 hR40 hRbias hRlsm hrow128 hrow40 c)

/-- Layer 1: the bias as one row. -/
theorem row1 (c : Dev nD) : W5 m ρ c (Proc.devRef .tc main_v44) = Cert.ReferenceIdeal.ReadP.val_main_v44 (F := Ideal) (a3 m c) :=
  row_of_1 hrow128 (W4 m ρ c) (arg3_carry_4 m ρ c)

/-- Layer 1: bias and maximum with zero. -/
theorem act1 (c : Dev nD) : W6 m ρ c (Proc.devRef .tc main_v45) = Cert.ReferenceIdeal.ReadP.val_main_v47 (F := Ideal) (a0 m c) (a1 m c) (a2 m c) (a3 m c) :=
  calc W6 m ρ c (Proc.devRef .tc main_v45)
    _ = (dat1 (V5 m ρ) c).arrAt 2 cfg1.N := W6_arr m ρ c 2
    _ = biasRelu (V5 m ρ c main_v43) (V5 m ρ c main_v44) := hK1 (V5 m ρ) c
    _ = biasRelu (Cert.ReferenceIdeal.ReadP.val_main_v43 (F := Ideal) (a0 m c) (a1 m c) (a2 m c)) (Cert.ReferenceIdeal.ReadP.val_main_v44 (F := Ideal) (a3 m c)) := congrArg₂ biasRelu (agg1 m ρ lin128 lin40 biasRelu lsm hK0 hK1 hK2 hK3 hK4 hK5 hK6 hK7 hR128 hR40 hRbias hRlsm hrow128 hrow40 c) (row1 m ρ lin128 lin40 biasRelu lsm hK0 hK1 hK2 hK3 hK4 hK5 hK6 hK7 hR128 hR40 hRbias hRlsm hrow128 hrow40 c)
    _ = _ := (hRbias (Cert.ReferenceIdeal.ReadP.val_main_v43 (F := Ideal) (a0 m c) (a1 m c) (a2 m c)) (a3 m c) _ _ _).symm

/-- Layer 2: the product with the weight matrix. -/
theorem lin2 (c : Dev nD) : W7 m ρ c (Proc.devRef .tc main_v46) = Cert.ReferenceIdeal.ReadP.val_main_v48 (F := Ideal) (a0 m c) (a1 m c) (a2 m c) (a3 m c) (a4 m c) :=
  calc W7 m ρ c (Proc.devRef .tc main_v46)
    _ = (dat2 (V6 m ρ) c).arrAt 2 cfg2.N := W7_arr m ρ c 2
    _ = lin128 (V6 m ρ c main_v45) (V6 m ρ c main_arg4) := hK2 (V6 m ρ) c
    _ = lin128 (Cert.ReferenceIdeal.ReadP.val_main_v47 (F := Ideal) (a0 m c) (a1 m c) (a2 m c) (a3 m c)) (a4 m c) := congrArg₂ lin128 (act1 m ρ lin128 lin40 biasRelu lsm hK0 hK1 hK2 hK3 hK4 hK5 hK6 hK7 hR128 hR40 hRbias hRlsm hrow128 hrow40 c) (arg4_carry_6 m ρ c)
    _ = _ := (hR128 _ _).symm

/-- Layer 2: the aggregate over the edges — the reference's operations on equal operands. -/
theorem agg2 (c : Dev nD) : W8 m ρ c (Proc.devRef .tc main_v59) = Cert.ReferenceIdeal.ReadP.val_main_v61 (F := Ideal) (a0 m c) (a1 m c) (a2 m c) (a3 m c) (a4 m c) :=
  agg_of_2 (W7 m ρ c) (src_7 m ρ c) (dst_7 m ρ c) (nrm_7 m ρ c) (lin2 m ρ lin128 lin40 biasRelu lsm hK0 hK1 hK2 hK3 hK4 hK5 hK6 hK7 hR128 hR40 hRbias hRlsm hrow128 hrow40 c)

/-- Layer 2: the bias as one row. -/
theorem row2 (c : Dev nD) : W8 m ρ c (Proc.devRef .tc main_v60) = Cert.ReferenceIdeal.ReadP.val_main_v62 (F := Ideal) (a5 m c) :=
  row_of_2 hrow128 (W7 m ρ c) (arg5_carry_7 m ρ c)

/-- Layer 2: bias and maximum with zero. -/
theorem act2 (c : Dev nD) : W9 m ρ c (Proc.devRef .tc main_v61) = Cert.ReferenceIdeal.ReadP.val_main_v65 (F := Ideal) (a0 m c) (a1 m c) (a2 m c) (a3 m c) (a4 m c) (a5 m c) :=
  calc W9 m ρ c (Proc.devRef .tc main_v61)
    _ = (dat3 (V8 m ρ) c).arrAt 2 cfg3.N := W9_arr m ρ c 2
    _ = biasRelu (V8 m ρ c main_v59) (V8 m ρ c main_v60) := hK3 (V8 m ρ) c
    _ = biasRelu (Cert.ReferenceIdeal.ReadP.val_main_v61 (F := Ideal) (a0 m c) (a1 m c) (a2 m c) (a3 m c) (a4 m c)) (Cert.ReferenceIdeal.ReadP.val_main_v62 (F := Ideal) (a5 m c)) := congrArg₂ biasRelu (agg2 m ρ lin128 lin40 biasRelu lsm hK0 hK1 hK2 hK3 hK4 hK5 hK6 hK7 hR128 hR40 hRbias hRlsm hrow128 hrow40 c) (row2 m ρ lin128 lin40 biasRelu lsm hK0 hK1 hK2 hK3 hK4 hK5 hK6 hK7 hR128 hR40 hRbias hRlsm hrow128 hrow40 c)
    _ = _ := (hRbias (Cert.ReferenceIdeal.ReadP.val_main_v61 (F := Ideal) (a0 m c) (a1 m c) (a2 m c) (a3 m c) (a4 m c)) (a5 m c) _ _ _).symm

/-- Layer 3: the product with the weight matrix. -/
theorem lin3 (c : Dev nD) : W10 m ρ c (Proc.devRef .tc main_v62) = Cert.ReferenceIdeal.ReadP.val_main_v66 (F := Ideal) (a0 m c) (a1 m c) (a2 m c) (a3 m c) (a4 m c) (a5 m c) (a6 m c) :=
  calc W10 m ρ c (Proc.devRef .tc main_v62)
    _ = (dat4 (V9 m ρ) c).arrAt 2 cfg4.N := W10_arr m ρ c 2
    _ = lin128 (V9 m ρ c main_v61) (V9 m ρ c main_arg6) := hK4 (V9 m ρ) c
    _ = lin128 (Cert.ReferenceIdeal.ReadP.val_main_v65 (F := Ideal) (a0 m c) (a1 m c) (a2 m c) (a3 m c) (a4 m c) (a5 m c)) (a6 m c) := congrArg₂ lin128 (act2 m ρ lin128 lin40 biasRelu lsm hK0 hK1 hK2 hK3 hK4 hK5 hK6 hK7 hR128 hR40 hRbias hRlsm hrow128 hrow40 c) (arg6_carry_9 m ρ c)
    _ = _ := (hR128 _ _).symm

/-- Layer 3: the aggregate over the edges — the reference's operations on equal operands. -/
theorem agg3 (c : Dev nD) : W11 m ρ c (Proc.devRef .tc main_v75) = Cert.ReferenceIdeal.ReadP.val_main_v79 (F := Ideal) (a0 m c) (a1 m c) (a2 m c) (a3 m c) (a4 m c) (a5 m c) (a6 m c) :=
  agg_of_3 (W10 m ρ c) (src_10 m ρ c) (dst_10 m ρ c) (nrm_10 m ρ c) (lin3 m ρ lin128 lin40 biasRelu lsm hK0 hK1 hK2 hK3 hK4 hK5 hK6 hK7 hR128 hR40 hRbias hRlsm hrow128 hrow40 c)

/-- Layer 3: the bias as one row. -/
theorem row3 (c : Dev nD) : W11 m ρ c (Proc.devRef .tc main_v76) = Cert.ReferenceIdeal.ReadP.val_main_v80 (F := Ideal) (a7 m c) :=
  row_of_3 hrow128 (W10 m ρ c) (arg7_carry_10 m ρ c)

/-- Layer 3: bias and maximum with zero. -/
theorem act3 (c : Dev nD) : W12 m ρ c (Proc.devRef .tc main_v77) = Cert.ReferenceIdeal.ReadP.val_main_v83 (F := Ideal) (a0 m c) (a1 m c) (a2 m c) (a3 m c) (a4 m c) (a5 m c) (a6 m c) (a7 m c) :=
  calc W12 m ρ c (Proc.devRef .tc main_v77)
    _ = (dat5 (V11 m ρ) c).arrAt 2 cfg5.N := W12_arr m ρ c 2
    _ = biasRelu (V11 m ρ c main_v75) (V11 m ρ c main_v76) := hK5 (V11 m ρ) c
    _ = biasRelu (Cert.ReferenceIdeal.ReadP.val_main_v79 (F := Ideal) (a0 m c) (a1 m c) (a2 m c) (a3 m c) (a4 m c) (a5 m c) (a6 m c)) (Cert.ReferenceIdeal.ReadP.val_main_v80 (F := Ideal) (a7 m c)) := congrArg₂ biasRelu (agg3 m ρ lin128 lin40 biasRelu lsm hK0 hK1 hK2 hK3 hK4 hK5 hK6 hK7 hR128 hR40 hRbias hRlsm hrow128 hrow40 c) (row3 m ρ lin128 lin40 biasRelu lsm hK0 hK1 hK2 hK3 hK4 hK5 hK6 hK7 hR128 hR40 hRbias hRlsm hrow128 hrow40 c)
    _ = _ := (hRbias (Cert.ReferenceIdeal.ReadP.val_main_v79 (F := Ideal) (a0 m c) (a1 m c) (a2 m c) (a3 m c) (a4 m c) (a5 m c) (a6 m c)) (a7 m c) _ _ _).symm

/-- Layer 4: the product with the weight matrix. -/
theorem lin4 (c : Dev nD) : W13 m ρ c (Proc.devRef .tc main_v78) = Cert.ReferenceIdeal.ReadP.val_main_v84 (F := Ideal) (a0 m c) (a1 m c) (a2 m c) (a3 m c) (a4 m c) (a5 m c) (a6 m c) (a7 m c) (a8 m c) :=
  calc W13 m ρ c (Proc.devRef .tc main_v78)
    _ = (dat6 (V12 m ρ) c).arrAt 2 cfg6.N := W13_arr m ρ c 2
    _ = lin40 (V12 m ρ c main_v77) (V12 m ρ c main_arg8) := hK6 (V12 m ρ) c
    _ = lin40 (Cert.ReferenceIdeal.ReadP.val_main_v83 (F := Ideal) (a0 m c) (a1 m c) (a2 m c) (a3 m c) (a4 m c) (a5 m c) (a6 m c) (a7 m c)) (a8 m c) := congrArg₂ lin40 (act3 m ρ lin128 lin40 biasRelu lsm hK0 hK1 hK2 hK3 hK4 hK5 hK6 hK7 hR128 hR40 hRbias hRlsm hrow128 hrow40 c) (arg8_carry_12 m ρ c)
    _ = _ := (hR40 _ _).symm

/-- Layer 4: the aggregate over the edges — the reference's operations on equal operands. -/
theorem agg4 (c : Dev nD) : W14 m ρ c (Proc.devRef .tc main_v91) = Cert.ReferenceIdeal.ReadP.val_main_v97 (F := Ideal) (a0 m c) (a1 m c) (a2 m c) (a3 m c) (a4 m c) (a5 m c) (a6 m c) (a7 m c) (a8 m c) :=
  agg_of_4 (W13 m ρ c) (src_13 m ρ c) (dst_13 m ρ c) (nrm_13 m ρ c) (lin4 m ρ lin128 lin40 biasRelu lsm hK0 hK1 hK2 hK3 hK4 hK5 hK6 hK7 hR128 hR40 hRbias hRlsm hrow128 hrow40 c)

/-- Layer 4: the bias as one row. -/
theorem row4 (c : Dev nD) : W14 m ρ c (Proc.devRef .tc main_v92) = Cert.ReferenceIdeal.ReadP.val_main_v98 (F := Ideal) (a9 m c) :=
  row_of_4 hrow40 (W13 m ρ c) (arg9_carry_13 m ρ c)

/-- THE RESULT: the last region's output, bias and row-wise log-softmax, is the reference's last stage of the
    ten arguments. -/
theorem result_eq (c : Dev nD) : W15 m ρ c (Proc.devRef .tc main_v93) = Cert.ReferenceIdeal.ReadP.val_main_v101 (F := Ideal) (a0 m c) (a1 m c) (a2 m c) (a3 m c) (a4 m c) (a5 m c) (a6 m c) (a7 m c) (a8 m c) (a9 m c) :=
  calc W15 m ρ c (Proc.devRef .tc main_v93)
    _ = (dat7 (V14 m ρ) c).arrAt 2 cfg7.N := W15_arr m ρ c 2
    _ = lsm (V14 m ρ c main_v91) (V14 m ρ c main_v92) := hK7 (V14 m ρ) c
    _ = lsm (Cert.ReferenceIdeal.ReadP.val_main_v97 (F := Ideal) (a0 m c) (a1 m c) (a2 m c) (a3 m c) (a4 m c) (a5 m c) (a6 m c) (a7 m c) (a8 m c)) (Cert.ReferenceIdeal.ReadP.val_main_v98 (F := Ideal) (a9 m c)) := congrArg₂ lsm (agg4 m ρ lin128 lin40 biasRelu lsm hK0 hK1 hK2 hK3 hK4 hK5 hK6 hK7 hR128 hR40 hRbias hRlsm hrow128 hrow40 c) (row4 m ρ lin128 lin40 biasRelu lsm hK0 hK1 hK2 hK3 hK4 hK5 hK6 hK7 hR128 hR40 hRbias hRlsm hrow128 hrow40 c)
    _ = _ := (hRlsm _ _ _ _ _ _ _ _ _ _).symm

end Layers

end Cert.KernelIdeal.Net

end
-- ==== Proof.RefChunks.lean ====
/-
  The reference program's 144 operations, restated as sixteen consecutive groups: three for the edge data (index
  vectors and in-degree; the selection of the inverse degree; the edge weight), then for each of the four layers the
  product with the weight matrix, the gather / scale / scatter-add over the edges, and the bias with its
  activation, and last the row-wise log-softmax.  The groups are the program's own operations in the program's
  order; their concatenation is the whole list.  Reading the run group by group keeps each reading small.
-/
import proofs.«113504_j24661702214227_1_alg».proof.Proof.RefRun

noncomputable section

namespace Cert.ReferenceIdeal.Net

open Cert.ReferenceIdeal Cert.ReferenceIdeal.Gen Idealize.ShloMosaic Idealize.ShloMosaic.TcCoe Idealize.SL.Sem Idealize.ShloMosaic.StableHlo

variable {F : FTy → Type} [FloatOps F]

/-- The source and destination index vectors, the in-degree, its positivity test and its inverse square root. -/
abbrev opsP0 : List (HloOp τ sig (Elt F)) :=
  [ nullary main_v0 (iotaInDim S100000 32 0),
    unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    reshape main_v1 main_v2 rfl shapeCasts_S1x640000_S640000,
    binary main_v2 main_v0 main_v3 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    reshape main_v4 main_v5 rfl shapeCasts_S1x640000_S640000,
    binary main_v5 main_v0 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst (constant S_ .f32 0x3F800000#32),
    unary main_cst main_v7 (broadcastInDim S740000 ![] bcast_S_S740000 : (⟨S_, .f32⟩ : BufTy).Contents (Elt F) → (⟨S740000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S740000x1 ![0] bcast_S740000_S740000x1_0 : (⟨S740000, .i32⟩ : BufTy).Contents (Elt F) → (⟨S740000x1, .i32⟩ : BufTy).Contents (Elt F)),
    ternary main_v8 main_v9 main_v7 main_v10 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The called selection: the inverse root where the degree is positive, zero elsewhere. -/
abbrev opsP1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The inverse degree gathered at the source and at the destination indices, and their product, the edge weight. -/
abbrev opsP2 : List (HloOp τ sig (Elt F)) :=
  [ nullary main_c (constantI S_ 32 0#32),
    unary main_c main_v15 (broadcastInDim S740000 ![] bcast_S_S740000 : (⟨S_, .i32⟩ : BufTy).Contents (Elt F) → (⟨S740000, .i32⟩ : BufTy).Contents (Elt F)),
    binary main_v3 main_v15 main_v16 (cmpi .slt : (⟨S740000, .i32⟩ : BufTy).Contents (Elt F) → (⟨S740000, .i32⟩ : BufTy).Contents (Elt F) → (⟨S740000, .i1⟩ : BufTy).Contents (Elt F)),
    nullary main_c_3 (constantI S_ 32 100000#32),
    unary main_c_3 main_v17 (broadcastInDim S740000 ![] bcast_S_S740000 : (⟨S_, .i32⟩ : BufTy).Contents (Elt F) → (⟨S740000, .i32⟩ : BufTy).Contents (Elt F)),
    binary main_v3 main_v17 main_v18 (addi : (⟨S740000, .i32⟩ : BufTy).Contents (Elt F) → (⟨S740000, .i32⟩ : BufTy).Contents (Elt F) → (⟨S740000, .i32⟩ : BufTy).Contents (Elt F)),
    ternary main_v16 main_v18 main_v3 main_v19 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v19 main_v20 (broadcastInDim S740000x1 ![0] bcast_S740000_S740000x1_0 : (⟨S740000, .i32⟩ : BufTy).Contents (Elt F) → (⟨S740000x1, .i32⟩ : BufTy).Contents (Elt F)),
    binary main_v14 main_v20 main_v21 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_4 (constantI S_ 32 0#32),
    unary main_c_4 main_v22 (broadcastInDim S740000 ![] bcast_S_S740000 : (⟨S_, .i32⟩ : BufTy).Contents (Elt F) → (⟨S740000, .i32⟩ : BufTy).Contents (Elt F)),
    binary main_v6 main_v22 main_v23 (cmpi .slt : (⟨S740000, .i32⟩ : BufTy).Contents (Elt F) → (⟨S740000, .i32⟩ : BufTy).Contents (Elt F) → (⟨S740000, .i1⟩ : BufTy).Contents (Elt F)),
    nullary main_c_5 (constantI S_ 32 100000#32),
    unary main_c_5 main_v24 (broadcastInDim S740000 ![] bcast_S_S740000 : (⟨S_, .i32⟩ : BufTy).Contents (Elt F) → (⟨S740000, .i32⟩ : BufTy).Contents (Elt F)),
    binary main_v6 main_v24 main_v25 (addi : (⟨S740000, .i32⟩ : BufTy).Contents (Elt F) → (⟨S740000, .i32⟩ : BufTy).Contents (Elt F) → (⟨S740000, .i32⟩ : BufTy).Contents (Elt F)),
    ternary main_v23 main_v25 main_v6 main_v26 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v26 main_v27 (broadcastInDim S740000x1 ![0] bcast_S740000_S740000x1_0 : (⟨S740000, .i32⟩ : BufTy).Contents (Elt F) → (⟨S740000x1, .i32⟩ : BufTy).Contents (Elt F)),
    binary main_v14 main_v27 main_v28 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v21 main_v28 main_v29 (mulf : (⟨S740000, .f32⟩ : BufTy).Contents (Elt F) → (⟨S740000, .f32⟩ : BufTy).Contents (Elt F) → (⟨S740000, .f32⟩ : BufTy).Contents (Elt F)) ]

/-- The product of the node features with layer 1's weight matrix. -/
abbrev opsD1 : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Layer 1: rows gathered at the source indices, scaled by the edge weight, added into the rows at the destination indices. -/
abbrev opsA1 : List (HloOp τ sig (Elt F)) :=
  [ nullary main_c_6 (constantI S_ 32 0#32),
    unary main_c_6 main_v31 (broadcastInDim S740000 ![] bcast_S_S740000 : (⟨S_, .i32⟩ : BufTy).Contents (Elt F) → (⟨S740000, .i32⟩ : BufTy).Contents (Elt F)),
    binary main_v3 main_v31 main_v32 (cmpi .slt : (⟨S740000, .i32⟩ : BufTy).Contents (Elt F) → (⟨S740000, .i32⟩ : BufTy).Contents (Elt F) → (⟨S740000, .i1⟩ : BufTy).Contents (Elt F)),
    nullary main_c_7 (constantI S_ 32 100000#32),
    unary main_c_7 main_v33 (broadcastInDim S740000 ![] bcast_S_S740000 : (⟨S_, .i32⟩ : BufTy).Contents (Elt F) → (⟨S740000, .i32⟩ : BufTy).Contents (Elt F)),
    binary main_v3 main_v33 main_v34 (addi : (⟨S740000, .i32⟩ : BufTy).Contents (Elt F) → (⟨S740000, .i32⟩ : BufTy).Contents (Elt F) → (⟨S740000, .i32⟩ : BufTy).Contents (Elt F)),
    ternary main_v32 main_v34 main_v3 main_v35 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v35 main_v36 (broadcastInDim S740000x1 ![0] bcast_S740000_S740000x1_0 : (⟨S740000, .i32⟩ : BufTy).Contents (Elt F) → (⟨S740000x1, .i32⟩ : BufTy).Contents (Elt F)),
    binary main_v30 main_v36 main_v37 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v29 main_v38 (broadcastInDim S740000x1 ![0] bcast_S740000_S740000x1_0 : (⟨S740000, .f32⟩ : BufTy).Contents (Elt F) → (⟨S740000x1, .f32⟩ : BufTy).Contents (Elt F)),
    unary main_v38 main_v39 (broadcastInDim S740000x128 ![0, 1] bcast_S740000x1_S740000x128_0_1 : (⟨S740000x1, .f32⟩ : BufTy).Contents (Elt F) → (⟨S740000x128, .f32⟩ : BufTy).Contents (Elt F)),
    binary main_v37 main_v39 main_v40 (mulf : (⟨S740000x128, .f32⟩ : BufTy).Contents (Elt F) → (⟨S740000x128, .f32⟩ : BufTy).Contents (Elt F) → (⟨S740000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S740000x1 ![0] bcast_S740000_S740000x1_0 : (⟨S740000, .i32⟩ : BufTy).Contents (Elt F) → (⟨S740000x1, .i32⟩ : BufTy).Contents (Elt F)),
    ternary main_v41 main_v42 main_v40 main_v43 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)) ]

/-- Layer 1: the bias broadcast over the rows, added, and the maximum with zero. -/
abbrev opsB1 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- The product of the node features with layer 2's weight matrix. -/
abbrev opsD2 : List (HloOp τ sig (Elt F)) :=
  [ binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Layer 2: rows gathered at the source indices, scaled by the edge weight, added into the rows at the destination indices. -/
abbrev opsA2 : List (HloOp τ sig (Elt F)) :=
  [ nullary main_c_9 (constantI S_ 32 0#32),
    unary main_c_9 main_v49 (broadcastInDim S740000 ![] bcast_S_S740000 : (⟨S_, .i32⟩ : BufTy).Contents (Elt F) → (⟨S740000, .i32⟩ : BufTy).Contents (Elt F)),
    binary main_v3 main_v49 main_v50 (cmpi .slt : (⟨S740000, .i32⟩ : BufTy).Contents (Elt F) → (⟨S740000, .i32⟩ : BufTy).Contents (Elt F) → (⟨S740000, .i1⟩ : BufTy).Contents (Elt F)),
    nullary main_c_10 (constantI S_ 32 100000#32),
    unary main_c_10 main_v51 (broadcastInDim S740000 ![] bcast_S_S740000 : (⟨S_, .i32⟩ : BufTy).Contents (Elt F) → (⟨S740000, .i32⟩ : BufTy).Contents (Elt F)),
    binary main_v3 main_v51 main_v52 (addi : (⟨S740000, .i32⟩ : BufTy).Contents (Elt F) → (⟨S740000, .i32⟩ : BufTy).Contents (Elt F) → (⟨S740000, .i32⟩ : BufTy).Contents (Elt F)),
    ternary main_v50 main_v52 main_v3 main_v53 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v53 main_v54 (broadcastInDim S740000x1 ![0] bcast_S740000_S740000x1_0 : (⟨S740000, .i32⟩ : BufTy).Contents (Elt F) → (⟨S740000x1, .i32⟩ : BufTy).Contents (Elt F)),
    binary main_v48 main_v54 main_v55 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v29 main_v56 (broadcastInDim S740000x1 ![0] bcast_S740000_S740000x1_0 : (⟨S740000, .f32⟩ : BufTy).Contents (Elt F) → (⟨S740000x1, .f32⟩ : BufTy).Contents (Elt F)),
    unary main_v56 main_v57 (broadcastInDim S740000x128 ![0, 1] bcast_S740000x1_S740000x128_0_1 : (⟨S740000x1, .f32⟩ : BufTy).Contents (Elt F) → (⟨S740000x128, .f32⟩ : BufTy).Contents (Elt F)),
    binary main_v55 main_v57 main_v58 (mulf : (⟨S740000x128, .f32⟩ : BufTy).Contents (Elt F) → (⟨S740000x128, .f32⟩ : BufTy).Contents (Elt F) → (⟨S740000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S740000x1 ![0] bcast_S740000_S740000x1_0 : (⟨S740000, .i32⟩ : BufTy).Contents (Elt F) → (⟨S740000x1, .i32⟩ : BufTy).Contents (Elt F)),
    ternary main_v59 main_v60 main_v58 main_v61 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)) ]

/-- Layer 2: the bias broadcast over the rows, added, and the maximum with zero. -/
abbrev opsB2 : List (HloOp τ sig (Elt F)) :=
  [ unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf ]

/-- The product of the node features with layer 3's weight matrix. -/
abbrev opsD3 : List (HloOp τ sig (Elt F)) :=
  [ binary main_v65 main_arg6 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Layer 3: rows gathered at the source indices, scaled by the edge weight, added into the rows at the destination indices. -/
abbrev opsA3 : List (HloOp τ sig (Elt F)) :=
  [ nullary main_c_12 (constantI S_ 32 0#32),
    unary main_c_12 main_v67 (broadcastInDim S740000 ![] bcast_S_S740000 : (⟨S_, .i32⟩ : BufTy).Contents (Elt F) → (⟨S740000, .i32⟩ : BufTy).Contents (Elt F)),
    binary main_v3 main_v67 main_v68 (cmpi .slt : (⟨S740000, .i32⟩ : BufTy).Contents (Elt F) → (⟨S740000, .i32⟩ : BufTy).Contents (Elt F) → (⟨S740000, .i1⟩ : BufTy).Contents (Elt F)),
    nullary main_c_13 (constantI S_ 32 100000#32),
    unary main_c_13 main_v69 (broadcastInDim S740000 ![] bcast_S_S740000 : (⟨S_, .i32⟩ : BufTy).Contents (Elt F) → (⟨S740000, .i32⟩ : BufTy).Contents (Elt F)),
    binary main_v3 main_v69 main_v70 (addi : (⟨S740000, .i32⟩ : BufTy).Contents (Elt F) → (⟨S740000, .i32⟩ : BufTy).Contents (Elt F) → (⟨S740000, .i32⟩ : BufTy).Contents (Elt F)),
    ternary main_v68 main_v70 main_v3 main_v71 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v71 main_v72 (broadcastInDim S740000x1 ![0] bcast_S740000_S740000x1_0 : (⟨S740000, .i32⟩ : BufTy).Contents (Elt F) → (⟨S740000x1, .i32⟩ : BufTy).Contents (Elt F)),
    binary main_v66 main_v72 main_v73 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v29 main_v74 (broadcastInDim S740000x1 ![0] bcast_S740000_S740000x1_0 : (⟨S740000, .f32⟩ : BufTy).Contents (Elt F) → (⟨S740000x1, .f32⟩ : BufTy).Contents (Elt F)),
    unary main_v74 main_v75 (broadcastInDim S740000x128 ![0, 1] bcast_S740000x1_S740000x128_0_1 : (⟨S740000x1, .f32⟩ : BufTy).Contents (Elt F) → (⟨S740000x128, .f32⟩ : BufTy).Contents (Elt F)),
    binary main_v73 main_v75 main_v76 (mulf : (⟨S740000x128, .f32⟩ : BufTy).Contents (Elt F) → (⟨S740000x128, .f32⟩ : BufTy).Contents (Elt F) → (⟨S740000x128, .f32⟩ : BufTy).Contents (Elt F)),
    nullary main_cst_14 (constant S_ .f32 0x00000000#32),
    unary main_cst_14 main_v77 (broadcastInDim S100000x128 ![] bcast_S_S100000x128 : (⟨S_, .f32⟩ : BufTy).Contents (Elt F) → (⟨S100000x128, .f32⟩ : BufTy).Contents (Elt F)),
    unary main_v6 main_v78 (broadcastInDim S740000x1 ![0] bcast_S740000_S740000x1_0 : (⟨S740000, .i32⟩ : BufTy).Contents (Elt F) → (⟨S740000x1, .i32⟩ : BufTy).Contents (Elt F)),
    ternary main_v77 main_v78 main_v76 main_v79 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)) ]

/-- Layer 3: the bias broadcast over the rows, added, and the maximum with zero. -/
abbrev opsB3 : List (HloOp τ sig (Elt F)) :=
  [ unary main_arg7 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v82) (TRef.of (T := ⟨S100000x128, .f32⟩) main_call3_v0) (TRef.of (T := ⟨S100000x128, .f32⟩) main_v83) maximumf ]

/-- The product of the node features with layer 4's weight matrix. -/
abbrev opsD4 : List (HloOp τ sig (Elt F)) :=
  [ binary main_v83 main_arg8 main_v84 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) ]

/-- Layer 4: rows gathered at the source indices, scaled by the edge weight, added into the rows at the destination indices. -/
abbrev opsA4 : List (HloOp τ sig (Elt F)) :=
  [ nullary main_c_15 (constantI S_ 32 0#32),
    unary main_c_15 main_v85 (broadcastInDim S740000 ![] bcast_S_S740000 : (⟨S_, .i32⟩ : BufTy).Contents (Elt F) → (⟨S740000, .i32⟩ : BufTy).Contents (Elt F)),
    binary main_v3 main_v85 main_v86 (cmpi .slt : (⟨S740000, .i32⟩ : BufTy).Contents (Elt F) → (⟨S740000, .i32⟩ : BufTy).Contents (Elt F) → (⟨S740000, .i1⟩ : BufTy).Contents (Elt F)),
    nullary main_c_16 (constantI S_ 32 100000#32),
    unary main_c_16 main_v87 (broadcastInDim S740000 ![] bcast_S_S740000 : (⟨S_, .i32⟩ : BufTy).Contents (Elt F) → (⟨S740000, .i32⟩ : BufTy).Contents (Elt F)),
    binary main_v3 main_v87 main_v88 (addi : (⟨S740000, .i32⟩ : BufTy).Contents (Elt F) → (⟨S740000, .i32⟩ : BufTy).Contents (Elt F) → (⟨S740000, .i32⟩ : BufTy).Contents (Elt F)),
    ternary main_v86 main_v88 main_v3 main_v89 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v89 main_v90 (broadcastInDim S740000x1 ![0] bcast_S740000_S740000x1_0 : (⟨S740000, .i32⟩ : BufTy).Contents (Elt F) → (⟨S740000x1, .i32⟩ : BufTy).Contents (Elt F)),
    binary main_v84 main_v90 main_v91 ((fun x i => Host.gather gather_S100000x40_S740000x1_S740000x40_1_0_n_n_0_1_140 x i) : (⟨S100000x40, .f32⟩ : BufTy).Contents (Elt F) → (⟨S740000x1, .i32⟩ : BufTy).Contents (Elt F) → (⟨S740000x40, .f32⟩ : BufTy).Contents (Elt F)),
    unary main_v29 main_v92 (broadcastInDim S740000x1 ![0] bcast_S740000_S740000x1_0 : (⟨S740000, .f32⟩ : BufTy).Contents (Elt F) → (⟨S740000x1, .f32⟩ : BufTy).Contents (Elt F)),
    unary main_v92 main_v93 (broadcastInDim S740000x40 ![0, 1] bcast_S740000x1_S740000x40_0_1 : (⟨S740000x1, .f32⟩ : BufTy).Contents (Elt F) → (⟨S740000x40, .f32⟩ : BufTy).Contents (Elt F)),
    binary main_v91 main_v93 main_v94 (mulf : (⟨S740000x40, .f32⟩ : BufTy).Contents (Elt F) → (⟨S740000x40, .f32⟩ : BufTy).Contents (Elt F) → (⟨S740000x40, .f32⟩ : BufTy).Contents (Elt F)),
    nullary main_cst_17 (constant S_ .f32 0x00000000#32),
    unary main_cst_17 main_v95 (broadcastInDim S100000x40 ![] bcast_S_S100000x40 : (⟨S_, .f32⟩ : BufTy).Contents (Elt F) → (⟨S100000x40, .f32⟩ : BufTy).Contents (Elt F)),
    unary main_v6 main_v96 (broadcastInDim S740000x1 ![0] bcast_S740000_S740000x1_0 : (⟨S740000, .i32⟩ : BufTy).Contents (Elt F) → (⟨S740000x1, .i32⟩ : BufTy).Contents (Elt F)),
    ternary main_v95 main_v96 main_v94 main_v97 ((fun x i u => Host.scatterAdd scatter_S100000x40_S740000x1_S740000x40_1_0_0_1 x i u) : (⟨S100000x40, .f32⟩ : BufTy).Contents (Elt F) → (⟨S740000x1, .i32⟩ : BufTy).Contents (Elt F) → (⟨S740000x40, .f32⟩ : BufTy).Contents (Elt F) → (⟨S100000x40, .f32⟩ : BufTy).Contents (Elt F)) ]

/-- Layer 4: the bias broadcast over the rows and added. -/
abbrev opsB4 : List (HloOp τ sig (Elt F)) :=
  [ unary main_arg9 main_v98 (broadcastInDim S1x40 ![1] bcast_S40_S1x40_1 : (⟨S40, .f32⟩ : BufTy).Contents (Elt F) → (⟨S1x40, .f32⟩ : BufTy).Contents (Elt F)),
    unary main_v98 main_v99 (broadcastInDim S100000x40 ![0, 1] bcast_S1x40_S100000x40_0_1 : (⟨S1x40, .f32⟩ : BufTy).Contents (Elt F) → (⟨S100000x40, .f32⟩ : BufTy).Contents (Elt F)),
    binary main_v97 main_v99 main_v100 (addf : (⟨S100000x40, .f32⟩ : BufTy).Contents (Elt F) → (⟨S100000x40, .f32⟩ : BufTy).Contents (Elt F) → (⟨S100000x40, .f32⟩ : BufTy).Contents (Elt F)) ]

/-- The row-wise log-softmax. -/
abbrev opsS : List (HloOp τ sig (Elt F)) :=
  [ TRef.nullary (TRef.of (T := ⟨S_, .f32⟩) main_call4_cst) (constant S_ .f32 0xFF800000#32),
    TRef.binary (TRef.of (T := ⟨S100000x40, .f32⟩) main_v100) (TRef.of (T := ⟨S_, .f32⟩) main_call4_cst) (TRef.of (T := ⟨S100000, .f32⟩) main_call4_v0) (fun x v => Host.reduce FloatOps.maximumf x v reducesTo_S100000x40_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x40, .f32⟩) main_call4_v4) (broadcastInDim S100000x40 ![0, 1] bcast_S100000x1_S100000x40_0_1),
    TRef.binary (TRef.of (T := ⟨S100000x40, .f32⟩) main_v100) (TRef.of (T := ⟨S100000x40, .f32⟩) main_call4_v4) (TRef.of (T := ⟨S100000x40, .f32⟩) main_call4_v5) subf,
    TRef.unary (TRef.of (T := ⟨S100000x40, .f32⟩) main_call4_v5) (TRef.of (T := ⟨S100000x40, .f32⟩) main_call4_v6) Host.exp,
    TRef.nullary (TRef.of (T := ⟨S_, .f32⟩) main_call4_cst_1) (constant S_ .f32 0x00000000#32),
    TRef.binary (TRef.of (T := ⟨S100000x40, .f32⟩) main_call4_v6) (TRef.of (T := ⟨S_, .f32⟩) main_call4_cst_1) (TRef.of (T := ⟨S100000, .f32⟩) main_call4_v7) (fun x v => Host.reduceAdd x v reducesTo_S100000x40_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x40, .f32⟩) main_call4_v10) (broadcastInDim S100000x40 ![0, 1] bcast_S100000x1_S100000x40_0_1),
    TRef.binary (TRef.of (T := ⟨S100000x40, .f32⟩) main_call4_v5) (TRef.of (T := ⟨S100000x40, .f32⟩) main_call4_v10) (TRef.of (T := ⟨S100000x40, .f32⟩) main_v101) subf ]

/-- Running a concatenation is running its two halves one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 8192 in
set_option maxHeartbeats 4000000 in
/-- The sixteen groups, in order, are the program's list of operations. -/
theorem ops_eq : (Cert.ReferenceIdeal.ValueP.ops : List (HloOp τ sig (Elt F)))
    = opsP0 ++ (opsP1 ++ (opsP2 ++ (opsD1 ++ (opsA1 ++ (opsB1 ++ (opsD2 ++ (opsA2 ++ (opsB2 ++ (opsD3 ++ (opsA3 ++ (opsB3 ++ (opsD4 ++ (opsA4 ++ (opsB4 ++ (opsS))))))))))))))) := rfl

end Cert.ReferenceIdeal.Net

end
-- ==== Proof.RefStageA.lean ====
/-
  The reference program read back group by group, first part: the edge data, and the first layer.

  The reference is a straight line of array operations, each writing one buffer from the buffers written before
  it.  For a group of consecutive operations and ANY contents of the buffers before the group, the buffer the
  group ends in holds the group's operations composed, applied to the contents of the buffers the group reads
  from outside itself.  Each theorem below says this for one group and one of its result buffers, with the
  outside buffers' contents given as hypotheses, and names the composed term by the stage function that is, by
  definition, the same operations applied to the same arguments.  Nothing is computed: every step replaces a
  buffer by the operation that wrote it.

  A group that is the body of a called function refers to its buffers through typed references; reading or
  writing a buffer through a typed reference of the buffer's own type is the identity, which the small lemmas
  at the top record so that the composed term is the plain one.
-/
import proofs.«113504_j24661702214227_1_alg».proof.Proof.RefChunks
import proofs.«113504_j24661702214227_1_alg».proof.Proof.RefRead

set_option maxRecDepth 16384

noncomputable section

namespace Cert.ReferenceIdeal.Net

open Cert.ReferenceIdeal Cert.ReferenceIdeal.Gen Idealize.ShloMosaic Idealize.ShloMosaic.TcCoe Idealize.SL.Sem Idealize.ShloMosaic.StableHlo

/-! ## Reading and writing through a typed reference of the buffer's own type is the identity -/

section Casts
variable {T : BufTy}
/-- Written through a typed reference and read back through the same one. -/
private theorem ofBuf_toBuf (x : StableHlo.TRef sig T) (v : T.Contents (Elt Ideal)) : x.ofBuf (x.toBuf v) = v := by
  obtain ⟨r, h, h2, h3⟩ := x; subst h; rfl
end Casts

private theorem toBuf_v14 (h1 h2 h3) (v : (⟨S100000, .f32⟩ : BufTy).Contents (Elt Ideal)) :
    (StableHlo.TRef.of main_v14 h1 h2 h3 : StableHlo.TRef sig ⟨S100000, .f32⟩).toBuf v = v := rfl
private theorem ofBuf_v12 (h1 h2 h3) (w : (⟨S100000, .i1⟩ : BufTy).Contents (Elt Ideal)) :
    (StableHlo.TRef.of main_v12 h1 h2 h3 : StableHlo.TRef sig ⟨S100000, .i1⟩).ofBuf w = w := rfl
private theorem ofBuf_v13 (h1 h2 h3) (w : (⟨S100000, .f32⟩ : BufTy).Contents (Elt Ideal)) :
    (StableHlo.TRef.of main_v13 h1 h2 h3 : StableHlo.TRef sig ⟨S100000, .f32⟩).ofBuf w = w := rfl
private theorem ofBuf_cst_2 (h1 h2 h3) (w : (⟨S_, .f32⟩ : BufTy).Contents (Elt Ideal)) :
    (StableHlo.TRef.of main_cst_2 h1 h2 h3 : StableHlo.TRef sig ⟨S_, .f32⟩).ofBuf w = w := rfl
private theorem toBuf_v47 (h1 h2 h3) (v : (⟨S100000x128, .f32⟩ : BufTy).Contents (Elt Ideal)) :
    (StableHlo.TRef.of main_v47 h1 h2 h3 : StableHlo.TRef sig ⟨S100000x128, .f32⟩).toBuf v = v := rfl
private theorem ofBuf_v46 (h1 h2 h3) (w : (⟨S100000x128, .f32⟩ : BufTy).Contents (Elt Ideal)) :
    (StableHlo.TRef.of main_v46 h1 h2 h3 : StableHlo.TRef sig ⟨S100000x128, .f32⟩).ofBuf w = w := rfl

/-! ## The edge data -/

/-- The source index vector: the first row of the edge list followed by 0 … 99999. -/
theorem readP0_v3 (V : Valuation τ sig (Elt Ideal)) {x1 : (⟨S2x640000, .i32⟩ : BufTy).Contents (Elt Ideal)}
    (h_arg1 : V (Proc.devRef .tc main_arg1) = x1) :
    after opsP0 V (Proc.devRef .tc main_v3) = ReadP.val_main_v3 (F := Ideal) x1 := by
  after_results
  rw [h_arg1]
  rfl

/-- The destination index vector: the second row of the edge list followed by 0 … 99999. -/
theorem readP0_v6 (V : Valuation τ sig (Elt Ideal)) {x1 : (⟨S2x640000, .i32⟩ : BufTy).Contents (Elt Ideal)}
    (h_arg1 : V (Proc.devRef .tc main_arg1) = x1) :
    after opsP0 V (Proc.devRef .tc main_v6) = ReadP.val_main_v6 (F := Ideal) x1 := by
  after_results
  rw [h_arg1]
  rfl

/-- Whether a node's in-degree (ones added at the destination indices) is positive. -/
theorem readP0_v12 (V : Valuation τ sig (Elt Ideal)) {x1 : (⟨S2x640000, .i32⟩ : BufTy).Contents (Elt Ideal)}
    (h_arg1 : V (Proc.devRef .tc main_arg1) = x1) :
    after opsP0 V (Proc.devRef .tc main_v12) = ReadP.val_main_v12 (F := Ideal) x1 := by
  after_results
  rw [h_arg1]
  rfl

/-- The inverse square root of the in-degree. -/
theorem readP0_v13 (V : Valuation τ sig (Elt Ideal)) {x1 : (⟨S2x640000, .i32⟩ : BufTy).Contents (Elt Ideal)}
    (h_arg1 : V (Proc.devRef .tc main_arg1) = x1) :
    after opsP0 V (Proc.devRef .tc main_v13) = ReadP.val_main_v13 (F := Ideal) x1 := by
  after_results
  rw [h_arg1]
  rfl

/-- The zero the selection falls back to. -/
theorem readP0_cst_2 (V : Valuation τ sig (Elt Ideal)) {x1 : (⟨S2x640000, .i32⟩ : BufTy).Contents (Elt Ideal)}
    (h_arg1 : V (Proc.devRef .tc main_arg1) = x1) :
    after opsP0 V (Proc.devRef .tc main_cst_2) = ReadP.val_main_cst_2 (F := Ideal) := by
  after_results
  rfl

/-- The called selection: the inverse root where the in-degree is positive, zero elsewhere. -/
theorem readP1_v14 (V : Valuation τ sig (Elt Ideal)) {x1 : (⟨S2x640000, .i32⟩ : BufTy).Contents (Elt Ideal)}
    (h_v12 : V (Proc.devRef .tc main_v12) = ReadP.val_main_v12 (F := Ideal) x1)
    (h_v13 : V (Proc.devRef .tc main_v13) = ReadP.val_main_v13 (F := Ideal) x1)
    (h_cst_2 : V (Proc.devRef .tc main_cst_2) = ReadP.val_main_cst_2 (F := Ideal)) :
    after opsP1 V (Proc.devRef .tc main_v14) = ReadP.val_main_v14 (F := Ideal) x1 := by
  after_results
  rw [h_v12, h_v13, h_cst_2]
  rw [toBuf_v14, ofBuf_v12, ofBuf_v13, ofBuf_toBuf, ofBuf_toBuf, ofBuf_cst_2]
  rfl

/-- The edge weight: the selected inverse root gathered at the source and at the destination index, multiplied. -/
theorem readP2_v29 (V : Valuation τ sig (Elt Ideal)) {x1 : (⟨S2x640000, .i32⟩ : BufTy).Contents (Elt Ideal)}
    (h_v14 : V (Proc.devRef .tc main_v14) = ReadP.val_main_v14 (F := Ideal) x1)
    (h_v3 : V (Proc.devRef .tc main_v3) = ReadP.val_main_v3 (F := Ideal) x1)
    (h_v6 : V (Proc.devRef .tc main_v6) = ReadP.val_main_v6 (F := Ideal) x1) :
    after opsP2 V (Proc.devRef .tc main_v29) = ReadP.val_main_v29 (F := Ideal) x1 := by
  after_results_simp
  rw [h_v14, h_v3, h_v6]
  rfl

/-! ## The first layer -/

/-- Layer 1's product: one operation on two argument arrays. -/
theorem readD1_v30 (V : Valuation τ sig (Elt Ideal)) {x0 : (⟨S100000x128, .f32⟩ : BufTy).Contents (Elt Ideal)} {x2 : (⟨S128x128, .f32⟩ : BufTy).Contents (Elt Ideal)}
    (h_arg0 : V (Proc.devRef .tc main_arg0) = x0)
    (h_arg2 : V (Proc.devRef .tc main_arg2) = x2) :
    after opsD1 V (Proc.devRef .tc main_v30) = ReadP.val_main_v30 (F := Ideal) x0 x2 := by
  after_results
  rw [h_arg0, h_arg2]
  rfl

/-- Layer 1's aggregation: rows of the product gathered at the source indices, scaled by the edge weight, added
    into zero at the destination indices. -/
theorem readA1_v43 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_v29 : V (Proc.devRef .tc main_v29) = ReadP.val_main_v29 (F := Ideal) x1)
    (h_v30 : V (Proc.devRef .tc main_v30) = ReadP.val_main_v30 (F := Ideal) x0 x2) :
    after opsA1 V (Proc.devRef .tc main_v43) = ReadP.val_main_v43 (F := Ideal) x0 x1 x2 := by
  after_results_simp
  rw [h_v3, h_v6, h_v29, h_v30]
  rfl

/-- Layer 1's bias and activation: the bias row added to every row, then the maximum with zero (a called function). -/
theorem readB1_v47 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)}
    (h_v43 : V (Proc.devRef .tc main_v43) = ReadP.val_main_v43 (F := Ideal) x0 x1 x2)
    (h_arg3 : V (Proc.devRef .tc main_arg3) = x3) :
    after opsB1 V (Proc.devRef .tc main_v47) = ReadP.val_main_v47 (F := Ideal) x0 x1 x2 x3 := by
  after_results
  rw [h_v43, h_arg3]
  rw [toBuf_v47, ofBuf_v46, ofBuf_toBuf, ofBuf_toBuf]
  rfl

end Cert.ReferenceIdeal.Net

end
-- ==== Proof.RefStageB.lean ====
/-
  The reference's run, read back group by group: layers 2, 3 and 4 and the closing log-softmax.

  The reference program is a straight line of array operations.  Cut into consecutive groups, each group reads a
  few buffers written before it and leaves one result buffer that later groups read.  For each group below the
  statement is: whatever the buffers hold when the group starts (an arbitrary valuation V), if the buffers the group
  reads hold the stage functions of the earlier operations, then after the group its result buffer holds the next
  stage function — the group's operations composed, applied to those inputs.  Nothing is computed: each operation
  writes its function's value of its operands into its own buffer and leaves every other buffer alone, so following
  the result buffer back through the group's operations gives exactly the composed term.

  Per layer there are three groups: the product with the weight matrix (one contraction); the gather of rows at the
  source indices, their scaling by the edge weight and the scatter-add into the rows at the destination indices;
  and the bias broadcast over the rows and added (followed, in layers 2 and 3, by the maximum with zero).  The last
  group is the row-wise log-softmax.  Operations of a called function address their buffers through references that
  carry the array type; moving contents to a buffer's own type and back is the identity, which the small lemmas at
  the top record so that the casts can be removed before the two sides are compared.
-/
import proofs.«113504_j24661702214227_1_alg».proof.Proof.RefChunks
import proofs.«113504_j24661702214227_1_alg».proof.Proof.RefRead

set_option maxRecDepth 16384

noncomputable section

namespace Cert.ReferenceIdeal.Net

open Cert.ReferenceIdeal Cert.ReferenceIdeal.Gen Idealize.ShloMosaic Idealize.ShloMosaic.TcCoe Idealize.SL.Sem Idealize.ShloMosaic.StableHlo

section Casts
variable {T : BufTy}
/-- Contents moved to a typed reference's buffer type and back are unchanged. -/
private theorem ofBuf_toBuf (x : StableHlo.TRef sig T) (v : T.Contents (Elt Ideal)) : x.ofBuf (x.toBuf v) = v := by
  obtain ⟨r, h, h2, h3⟩ := x; subst h; rfl
end Casts

/-! ## Contents at a buffer's own type: the identity at each buffer a called function reads or writes -/

private theorem toBuf_v65 (h1 h2 h3) (v : (⟨S100000x128, .f32⟩ : BufTy).Contents (Elt Ideal)) :
    (StableHlo.TRef.of main_v65 h1 h2 h3 : StableHlo.TRef sig ⟨S100000x128, .f32⟩).toBuf v = v := rfl
private theorem ofBuf_v64 (h1 h2 h3) (w : (⟨S100000x128, .f32⟩ : BufTy).Contents (Elt Ideal)) :
    (StableHlo.TRef.of main_v64 h1 h2 h3 : StableHlo.TRef sig ⟨S100000x128, .f32⟩).ofBuf w = w := rfl
private theorem toBuf_v83 (h1 h2 h3) (v : (⟨S100000x128, .f32⟩ : BufTy).Contents (Elt Ideal)) :
    (StableHlo.TRef.of main_v83 h1 h2 h3 : StableHlo.TRef sig ⟨S100000x128, .f32⟩).toBuf v = v := rfl
private theorem ofBuf_v82 (h1 h2 h3) (w : (⟨S100000x128, .f32⟩ : BufTy).Contents (Elt Ideal)) :
    (StableHlo.TRef.of main_v82 h1 h2 h3 : StableHlo.TRef sig ⟨S100000x128, .f32⟩).ofBuf w = w := rfl
private theorem toBuf_v101 (h1 h2 h3) (v : (⟨S100000x40, .f32⟩ : BufTy).Contents (Elt Ideal)) :
    (StableHlo.TRef.of main_v101 h1 h2 h3 : StableHlo.TRef sig ⟨S100000x40, .f32⟩).toBuf v = v := rfl
private theorem ofBuf_v100 (h1 h2 h3) (w : (⟨S100000x40, .f32⟩ : BufTy).Contents (Elt Ideal)) :
    (StableHlo.TRef.of main_v100 h1 h2 h3 : StableHlo.TRef sig ⟨S100000x40, .f32⟩).ofBuf w = w := rfl

/-! ## Layer 2 -/

/-- Layer 2's product with its weight matrix, read back: one operation, a contraction of the features' second axis
    with the weight matrix's first. -/
theorem readD2_v48 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)}
    (h_v47 : V (Proc.devRef .tc main_v47) = ReadP.val_main_v47 (F := Ideal) x0 x1 x2 x3)
    (h_arg4 : V (Proc.devRef .tc main_arg4) = x4) :
    after opsD2 V (Proc.devRef .tc main_v48) = ReadP.val_main_v48 (F := Ideal) x0 x1 x2 x3 x4 := by
  after_results
  rw [h_v47, h_arg4]
  rfl

/-- Layer 2's gather at the source indices, scaling by the edge weight and scatter-add at the destination indices,
    read back as one composed term of the group's four input buffers. -/
theorem readA2_v61 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_v29 : V (Proc.devRef .tc main_v29) = ReadP.val_main_v29 (F := Ideal) x1)
    (h_v48 : V (Proc.devRef .tc main_v48) = ReadP.val_main_v48 (F := Ideal) x0 x1 x2 x3 x4) :
    after opsA2 V (Proc.devRef .tc main_v61) = ReadP.val_main_v61 (F := Ideal) x0 x1 x2 x3 x4 := by
  after_results_simp
  rw [h_v3, h_v6, h_v29, h_v48]
  rfl

/-- Layer 2's bias made a one-row matrix, broadcast over the rows and added, then the called maximum with the
    zero constant, read back. -/
theorem readB2_v65 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)}
    (h_v61 : V (Proc.devRef .tc main_v61) = ReadP.val_main_v61 (F := Ideal) x0 x1 x2 x3 x4)
    (h_arg5 : V (Proc.devRef .tc main_arg5) = x5) :
    after opsB2 V (Proc.devRef .tc main_v65) = ReadP.val_main_v65 (F := Ideal) x0 x1 x2 x3 x4 x5 := by
  after_results
  rw [h_v61, h_arg5]
  repeat rw [ofBuf_toBuf]
  rw [toBuf_v65, ofBuf_v64]
  rfl

/-! ## Layer 3 -/

/-- Layer 3's product with its weight matrix, read back: one operation, a contraction of the features' second axis
    with the weight matrix's first. -/
theorem readD3_v66 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)}
    (h_v65 : V (Proc.devRef .tc main_v65) = ReadP.val_main_v65 (F := Ideal) x0 x1 x2 x3 x4 x5)
    (h_arg6 : V (Proc.devRef .tc main_arg6) = x6) :
    after opsD3 V (Proc.devRef .tc main_v66) = ReadP.val_main_v66 (F := Ideal) x0 x1 x2 x3 x4 x5 x6 := by
  after_results
  rw [h_v65, h_arg6]
  rfl

/-- Layer 3's gather at the source indices, scaling by the edge weight and scatter-add at the destination indices,
    read back as one composed term of the group's four input buffers. -/
theorem readA3_v79 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_v29 : V (Proc.devRef .tc main_v29) = ReadP.val_main_v29 (F := Ideal) x1)
    (h_v66 : V (Proc.devRef .tc main_v66) = ReadP.val_main_v66 (F := Ideal) x0 x1 x2 x3 x4 x5 x6) :
    after opsA3 V (Proc.devRef .tc main_v79) = ReadP.val_main_v79 (F := Ideal) x0 x1 x2 x3 x4 x5 x6 := by
  after_results_simp
  rw [h_v3, h_v6, h_v29, h_v66]
  rfl

/-- Layer 3's bias made a one-row matrix, broadcast over the rows and added, then the called maximum with the
    zero constant, read back. -/
theorem readB3_v83 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)}
    (h_v79 : V (Proc.devRef .tc main_v79) = ReadP.val_main_v79 (F := Ideal) x0 x1 x2 x3 x4 x5 x6)
    (h_arg7 : V (Proc.devRef .tc main_arg7) = x7) :
    after opsB3 V (Proc.devRef .tc main_v83) = ReadP.val_main_v83 (F := Ideal) x0 x1 x2 x3 x4 x5 x6 x7 := by
  after_results
  rw [h_v79, h_arg7]
  repeat rw [ofBuf_toBuf]
  rw [toBuf_v83, ofBuf_v82]
  rfl

/-! ## Layer 4 -/

/-- Layer 4's product with its weight matrix, read back: one operation, a contraction of the features' second axis
    with the weight matrix's first. -/
theorem readD4_v84 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)}
    (h_v83 : V (Proc.devRef .tc main_v83) = ReadP.val_main_v83 (F := Ideal) x0 x1 x2 x3 x4 x5 x6 x7)
    (h_arg8 : V (Proc.devRef .tc main_arg8) = x8) :
    after opsD4 V (Proc.devRef .tc main_v84) = ReadP.val_main_v84 (F := Ideal) x0 x1 x2 x3 x4 x5 x6 x7 x8 := by
  after_results
  rw [h_v83, h_arg8]
  rfl

/-- Layer 4's gather at the source indices, scaling by the edge weight and scatter-add at the destination indices,
    read back as one composed term of the group's four input buffers. -/
theorem readA4_v97 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_v29 : V (Proc.devRef .tc main_v29) = ReadP.val_main_v29 (F := Ideal) x1)
    (h_v84 : V (Proc.devRef .tc main_v84) = ReadP.val_main_v84 (F := Ideal) x0 x1 x2 x3 x4 x5 x6 x7 x8) :
    after opsA4 V (Proc.devRef .tc main_v97) = ReadP.val_main_v97 (F := Ideal) x0 x1 x2 x3 x4 x5 x6 x7 x8 := by
  after_results_simp
  rw [h_v3, h_v6, h_v29, h_v84]
  rfl

/-- Layer 4's bias made a one-row matrix, broadcast over the rows and added, read back. -/
theorem readB4_v100 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v97 : V (Proc.devRef .tc main_v97) = ReadP.val_main_v97 (F := Ideal) x0 x1 x2 x3 x4 x5 x6 x7 x8)
    (h_arg9 : V (Proc.devRef .tc main_arg9) = x9) :
    after opsB4 V (Proc.devRef .tc main_v100) = ReadP.val_main_v100 (F := Ideal) x0 x1 x2 x3 x4 x5 x6 x7 x8 x9 := by
  after_results
  rw [h_v97, h_arg9]
  rfl

/-! ## The log-softmax -/

/-- The row-wise log-softmax, read back: per row the maximum, the shifted entries, the logarithm of the sum of
    their exponentials, and the difference. -/
theorem readS_v101 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v100 : V (Proc.devRef .tc main_v100) = ReadP.val_main_v100 (F := Ideal) x0 x1 x2 x3 x4 x5 x6 x7 x8 x9) :
    after opsS V (Proc.devRef .tc main_v101) = ReadP.val_main_v101 (F := Ideal) x0 x1 x2 x3 x4 x5 x6 x7 x8 x9 := by
  after_results_simp
  rw [h_v100]
  repeat rw [ofBuf_toBuf]
  rw [toBuf_v101, ofBuf_v100]
  rfl

end Cert.ReferenceIdeal.Net

end
-- ==== Proof.RefStaged.lean ====
/-
  The reference program's run, read back group by group.

  The run of a straight-line host program leaves every buffer at the fold of the operations' results over the launch
  contents.  That fold is taken apart along the sixteen groups of the program's operations: from contents that hold,
  for every buffer the remaining groups still read, the matching stage of the arguments, one group is run — its
  result buffer then holds the next stage (the group's reading lemma), and every other buffer that is still needed
  is untouched, because no operation of the group writes it — and the rest follows from the same statement one group
  later.  At the first group the contents are the launch contents and every hypothesis is about an argument itself;
  after the last group the result buffer holds the last stage of the ten arguments.
-/
import proofs.«113504_j24661702214227_1_alg».proof.Proof.RefChunks
import proofs.«113504_j24661702214227_1_alg».proof.Proof.RefRead
import proofs.«113504_j24661702214227_1_alg».proof.Proof.RefStageA
import proofs.«113504_j24661702214227_1_alg».proof.Proof.RefStageB

set_option maxRecDepth 16384

noncomputable section

namespace Cert.ReferenceIdeal.Net

open Cert.ReferenceIdeal Cert.ReferenceIdeal.Gen Idealize.ShloMosaic Idealize.ShloMosaic.TcCoe Idealize.SL.Sem Idealize.ShloMosaic.StableHlo

/-- No operation of the named group writes the buffer in question: its operations' result buffers are literal
    references, each different from it. -/
local macro "keep_group" ops:ident : term =>
  `(List.forall_iff_forall_mem.mp (by
      simp only [$ops:ident, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

/-- From contents holding what the groups from `opsS` on still read, the result buffer ends at the last stage. -/
theorem tail_S (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v100 : V (Proc.devRef .tc main_v100) = ReadP.val_main_v100 (F := Ideal) x0 x1 x2 x3 x4 x5 x6 x7 x8 x9) :
    after (opsS) V (Proc.devRef .tc main_v101) = ReadP.val_main_v101 (F := Ideal) x0 x1 x2 x3 x4 x5 x6 x7 x8 x9 := readS_v101 V h_v100

/-- From contents holding what the groups from `opsB4` on still read, the result buffer ends at the last stage. -/
theorem tail_B4 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v97 : V (Proc.devRef .tc main_v97) = ReadP.val_main_v97 (F := Ideal) x0 x1 x2 x3 x4 x5 x6 x7 x8)
    (h_arg9 : V (Proc.devRef .tc main_arg9) = x9) :
    after (opsB4 ++ (opsS)) V (Proc.devRef .tc main_v101) = ReadP.val_main_v101 (F := Ideal) x0 x1 x2 x3 x4 x5 x6 x7 x8 x9 := by
  rw [after_append]
  exact tail_S (after opsB4 V)
    (readB4_v100 V h_v97 h_arg9)

/-- From contents holding what the groups from `opsA4` on still read, the result buffer ends at the last stage. -/
theorem tail_A4 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_v29 : V (Proc.devRef .tc main_v29) = ReadP.val_main_v29 (F := Ideal) x1)
    (h_v84 : V (Proc.devRef .tc main_v84) = ReadP.val_main_v84 (F := Ideal) x0 x1 x2 x3 x4 x5 x6 x7 x8)
    (h_arg9 : V (Proc.devRef .tc main_arg9) = x9) :
    after (opsA4 ++ (opsB4 ++ (opsS))) V (Proc.devRef .tc main_v101) = ReadP.val_main_v101 (F := Ideal) x0 x1 x2 x3 x4 x5 x6 x7 x8 x9 := by
  rw [after_append]
  exact tail_B4 (after opsA4 V)
    (readA4_v97 V h_v3 h_v6 h_v29 h_v84)
    ((after_of_forall_not_mem (b := Proc.devRef .tc main_arg9) _ _ (keep_group opsA4)).trans h_arg9)

/-- From contents holding what the groups from `opsD4` on still read, the result buffer ends at the last stage. -/
theorem tail_D4 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_v29 : V (Proc.devRef .tc main_v29) = ReadP.val_main_v29 (F := Ideal) x1)
    (h_v83 : V (Proc.devRef .tc main_v83) = ReadP.val_main_v83 (F := Ideal) x0 x1 x2 x3 x4 x5 x6 x7)
    (h_arg8 : V (Proc.devRef .tc main_arg8) = x8)
    (h_arg9 : V (Proc.devRef .tc main_arg9) = x9) :
    after (opsD4 ++ (opsA4 ++ (opsB4 ++ (opsS)))) V (Proc.devRef .tc main_v101) = ReadP.val_main_v101 (F := Ideal) x0 x1 x2 x3 x4 x5 x6 x7 x8 x9 := by
  rw [after_append]
  exact tail_A4 (after opsD4 V)
    ((after_of_forall_not_mem (b := Proc.devRef .tc main_v3) _ _ (keep_group opsD4)).trans h_v3)
    ((after_of_forall_not_mem (b := Proc.devRef .tc main_v6) _ _ (keep_group opsD4)).trans h_v6)
    ((after_of_forall_not_mem (b := Proc.devRef .tc main_v29) _ _ (keep_group opsD4)).trans h_v29)
    (readD4_v84 V h_v83 h_arg8)
    ((after_of_forall_not_mem (b := Proc.devRef .tc main_arg9) _ _ (keep_group opsD4)).trans h_arg9)

/-- From contents holding what the groups from `opsB3` on still read, the result buffer ends at the last stage. -/
theorem tail_B3 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_v29 : V (Proc.devRef .tc main_v29) = ReadP.val_main_v29 (F := Ideal) x1)
    (h_v79 : V (Proc.devRef .tc main_v79) = ReadP.val_main_v79 (F := Ideal) x0 x1 x2 x3 x4 x5 x6)
    (h_arg7 : V (Proc.devRef .tc main_arg7) = x7)
    (h_arg8 : V (Proc.devRef .tc main_arg8) = x8)
    (h_arg9 : V (Proc.devRef .tc main_arg9) = x9) :
    after (opsB3 ++ (opsD4 ++ (opsA4 ++ (opsB4 ++ (opsS))))) V (Proc.devRef .tc main_v101) = ReadP.val_main_v101 (F := Ideal) x0 x1 x2 x3 x4 x5 x6 x7 x8 x9 := by
  rw [after_append]
  exact tail_D4 (after opsB3 V)
    ((after_of_forall_not_mem (b := Proc.devRef .tc main_v3) _ _ (keep_group opsB3)).trans h_v3)
    ((after_of_forall_not_mem (b := Proc.devRef .tc main_v6) _ _ (keep_group opsB3)).trans h_v6)
    ((after_of_forall_not_mem (b := Proc.devRef .tc main_v29) _ _ (keep_group opsB3)).trans h_v29)
    (readB3_v83 V h_v79 h_arg7)
    ((after_of_forall_not_mem (b := Proc.devRef .tc main_arg8) _ _ (keep_group opsB3)).trans h_arg8)
    ((after_of_forall_not_mem (b := Proc.devRef .tc main_arg9) _ _ (keep_group opsB3)).trans h_arg9)

/-- From contents holding what the groups from `opsA3` on still read, the result buffer ends at the last stage. -/
theorem tail_A3 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_v29 : V (Proc.devRef .tc main_v29) = ReadP.val_main_v29 (F := Ideal) x1)
    (h_v66 : V (Proc.devRef .tc main_v66) = ReadP.val_main_v66 (F := Ideal) x0 x1 x2 x3 x4 x5 x6)
    (h_arg7 : V (Proc.devRef .tc main_arg7) = x7)
    (h_arg8 : V (Proc.devRef .tc main_arg8) = x8)
    (h_arg9 : V (Proc.devRef .tc main_arg9) = x9) :
    after (opsA3 ++ (opsB3 ++ (opsD4 ++ (opsA4 ++ (opsB4 ++ (opsS)))))) V (Proc.devRef .tc main_v101) = ReadP.val_main_v101 (F := Ideal) x0 x1 x2 x3 x4 x5 x6 x7 x8 x9 := by
  rw [after_append]
  exact tail_B3 (after opsA3 V)
    ((after_of_forall_not_mem (b := Proc.devRef .tc main_v3) _ _ (keep_group opsA3)).trans h_v3)
    ((after_of_forall_not_mem (b := Proc.devRef .tc main_v6) _ _ (keep_group opsA3)).trans h_v6)
    ((after_of_forall_not_mem (b := Proc.devRef .tc main_v29) _ _ (keep_group opsA3)).trans h_v29)
    (readA3_v79 V h_v3 h_v6 h_v29 h_v66)
    ((after_of_forall_not_mem (b := Proc.devRef .tc main_arg7) _ _ (keep_group opsA3)).trans h_arg7)
    ((after_of_forall_not_mem (b := Proc.devRef .tc main_arg8) _ _ (keep_group opsA3)).trans h_arg8)
    ((after_of_forall_not_mem (b := Proc.devRef .tc main_arg9) _ _ (keep_group opsA3)).trans h_arg9)

/-- From contents holding what the groups from `opsD3` on still read, the result buffer ends at the last stage. -/
theorem tail_D3 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_v29 : V (Proc.devRef .tc main_v29) = ReadP.val_main_v29 (F := Ideal) x1)
    (h_v65 : V (Proc.devRef .tc main_v65) = ReadP.val_main_v65 (F := Ideal) x0 x1 x2 x3 x4 x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9) :
    after (opsD3 ++ (opsA3 ++ (opsB3 ++ (opsD4 ++ (opsA4 ++ (opsB4 ++ (opsS))))))) V (Proc.devRef .tc main_v101) = ReadP.val_main_v101 (F := Ideal) x0 x1 x2 x3 x4 x5 x6 x7 x8 x9 := by
  rw [after_append]
  exact tail_A3 (after opsD3 V)
    ((after_of_forall_not_mem (b := Proc.devRef .tc main_v3) _ _ (keep_group opsD3)).trans h_v3)
    ((after_of_forall_not_mem (b := Proc.devRef .tc main_v6) _ _ (keep_group opsD3)).trans h_v6)
    ((after_of_forall_not_mem (b := Proc.devRef .tc main_v29) _ _ (keep_group opsD3)).trans h_v29)
    (readD3_v66 V h_v65 h_arg6)
    ((after_of_forall_not_mem (b := Proc.devRef .tc main_arg7) _ _ (keep_group opsD3)).trans h_arg7)
    ((after_of_forall_not_mem (b := Proc.devRef .tc main_arg8) _ _ (keep_group opsD3)).trans h_arg8)
    ((after_of_forall_not_mem (b := Proc.devRef .tc main_arg9) _ _ (keep_group opsD3)).trans h_arg9)

/-- From contents holding what the groups from `opsB2` on still read, the result buffer ends at the last stage. -/
theorem tail_B2 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_v29 : V (Proc.devRef .tc main_v29) = ReadP.val_main_v29 (F := Ideal) x1)
    (h_v61 : V (Proc.devRef .tc main_v61) = ReadP.val_main_v61 (F := Ideal) x0 x1 x2 x3 x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9) :
    after (opsB2 ++ (opsD3 ++ (opsA3 ++ (opsB3 ++ (opsD4 ++ (opsA4 ++ (opsB4 ++ (opsS)))))))) V (Proc.devRef .tc main_v101) = ReadP.val_main_v101 (F := Ideal) x0 x1 x2 x3 x4 x5 x6 x7 x8 x9 := by
  rw [after_append]
  exact tail_D3 (after opsB2 V)
    ((after_of_forall_not_mem (b := Proc.devRef .tc main_v3) _ _ (keep_group opsB2)).trans h_v3)
    ((after_of_forall_not_mem (b := Proc.devRef .tc main_v6) _ _ (keep_group opsB2)).trans h_v6)
    ((after_of_forall_not_mem (b := Proc.devRef .tc main_v29) _ _ (keep_group opsB2)).trans h_v29)
    (readB2_v65 V h_v61 h_arg5)
    ((after_of_forall_not_mem (b := Proc.devRef .tc main_arg6) _ _ (keep_group opsB2)).trans h_arg6)
    ((after_of_forall_not_mem (b := Proc.devRef .tc main_arg7) _ _ (keep_group opsB2)).trans h_arg7)
    ((after_of_forall_not_mem (b := Proc.devRef .tc main_arg8) _ _ (keep_group opsB2)).trans h_arg8)
    ((after_of_forall_not_mem (b := Proc.devRef .tc main_arg9) _ _ (keep_group opsB2)).trans h_arg9)

/-- From contents holding what the groups from `opsA2` on still read, the result buffer ends at the last stage. -/
theorem tail_A2 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_v29 : V (Proc.devRef .tc main_v29) = ReadP.val_main_v29 (F := Ideal) x1)
    (h_v48 : V (Proc.devRef .tc main_v48) = ReadP.val_main_v48 (F := Ideal) x0 x1 x2 x3 x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9) :
    after (opsA2 ++ (opsB2 ++ (opsD3 ++ (opsA3 ++ (opsB3 ++ (opsD4 ++ (opsA4 ++ (opsB4 ++ (opsS))))))))) V (Proc.devRef .tc main_v101) = ReadP.val_main_v101 (F := Ideal) x0 x1 x2 x3 x4 x5 x6 x7 x8 x9 := by
  rw [after_append]
  exact tail_B2 (after opsA2 V)
    ((after_of_forall_not_mem (b := Proc.devRef .tc main_v3) _ _ (keep_group opsA2)).trans h_v3)
    ((after_of_forall_not_mem (b := Proc.devRef .tc main_v6) _ _ (keep_group opsA2)).trans h_v6)
    ((after_of_forall_not_mem (b := Proc.devRef .tc main_v29) _ _ (keep_group opsA2)).trans h_v29)
    (readA2_v61 V h_v3 h_v6 h_v29 h_v48)
    ((after_of_forall_not_mem (b := Proc.devRef .tc main_arg5) _ _ (keep_group opsA2)).trans h_arg5)
    ((after_of_forall_not_mem (b := Proc.devRef .tc main_arg6) _ _ (keep_group opsA2)).trans h_arg6)
    ((after_of_forall_not_mem (b := Proc.devRef .tc main_arg7) _ _ (keep_group opsA2)).trans h_arg7)
    ((after_of_forall_not_mem (b := Proc.devRef .tc main_arg8) _ _ (keep_group opsA2)).trans h_arg8)
    ((after_of_forall_not_mem (b := Proc.devRef .tc main_arg9) _ _ (keep_group opsA2)).trans h_arg9)

/-- From contents holding what the groups from `opsD2` on still read, the result buffer ends at the last stage. -/
theorem tail_D2 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_v29 : V (Proc.devRef .tc main_v29) = ReadP.val_main_v29 (F := Ideal) x1)
    (h_v47 : V (Proc.devRef .tc main_v47) = ReadP.val_main_v47 (F := Ideal) x0 x1 x2 x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9) :
    after (opsD2 ++ (opsA2 ++ (opsB2 ++ (opsD3 ++ (opsA3 ++ (opsB3 ++ (opsD4 ++ (opsA4 ++ (opsB4 ++ (opsS)))))))))) V (Proc.devRef .tc main_v101) = ReadP.val_main_v101 (F := Ideal) x0 x1 x2 x3 x4 x5 x6 x7 x8 x9 := by
  rw [after_append]
  exact tail_A2 (after opsD2 V)
    ((after_of_forall_not_mem (b := Proc.devRef .tc main_v3) _ _ (keep_group opsD2)).trans h_v3)
    ((after_of_forall_not_mem (b := Proc.devRef .tc main_v6) _ _ (keep_group opsD2)).trans h_v6)
    ((after_of_forall_not_mem (b := Proc.devRef .tc main_v29) _ _ (keep_group opsD2)).trans h_v29)
    (readD2_v48 V h_v47 h_arg4)
    ((after_of_forall_not_mem (b := Proc.devRef .tc main_arg5) _ _ (keep_group opsD2)).trans h_arg5)
    ((after_of_forall_not_mem (b := Proc.devRef .tc main_arg6) _ _ (keep_group opsD2)).trans h_arg6)
    ((after_of_forall_not_mem (b := Proc.devRef .tc main_arg7) _ _ (keep_group opsD2)).trans h_arg7)
    ((after_of_forall_not_mem (b := Proc.devRef .tc main_arg8) _ _ (keep_group opsD2)).trans h_arg8)
    ((after_of_forall_not_mem (b := Proc.devRef .tc main_arg9) _ _ (keep_group opsD2)).trans h_arg9)

/-- From contents holding what the groups from `opsB1` on still read, the result buffer ends at the last stage. -/
theorem tail_B1 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_v29 : V (Proc.devRef .tc main_v29) = ReadP.val_main_v29 (F := Ideal) x1)
    (h_v43 : V (Proc.devRef .tc main_v43) = ReadP.val_main_v43 (F := Ideal) x0 x1 x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9) :
    after (opsB1 ++ (opsD2 ++ (opsA2 ++ (opsB2 ++ (opsD3 ++ (opsA3 ++ (opsB3 ++ (opsD4 ++ (opsA4 ++ (opsB4 ++ (opsS))))))))))) V (Proc.devRef .tc main_v101) = ReadP.val_main_v101 (F := Ideal) x0 x1 x2 x3 x4 x5 x6 x7 x8 x9 := by
  rw [after_append]
  exact tail_D2 (after opsB1 V)
    ((after_of_forall_not_mem (b := Proc.devRef .tc main_v3) _ _ (keep_group opsB1)).trans h_v3)
    ((after_of_forall_not_mem (b := Proc.devRef .tc main_v6) _ _ (keep_group opsB1)).trans h_v6)
    ((after_of_forall_not_mem (b := Proc.devRef .tc main_v29) _ _ (keep_group opsB1)).trans h_v29)
    (readB1_v47 V h_v43 h_arg3)
    ((after_of_forall_not_mem (b := Proc.devRef .tc main_arg4) _ _ (keep_group opsB1)).trans h_arg4)
    ((after_of_forall_not_mem (b := Proc.devRef .tc main_arg5) _ _ (keep_group opsB1)).trans h_arg5)
    ((after_of_forall_not_mem (b := Proc.devRef .tc main_arg6) _ _ (keep_group opsB1)).trans h_arg6)
    ((after_of_forall_not_mem (b := Proc.devRef .tc main_arg7) _ _ (keep_group opsB1)).trans h_arg7)
    ((after_of_forall_not_mem (b := Proc.devRef .tc main_arg8) _ _ (keep_group opsB1)).trans h_arg8)
    ((after_of_forall_not_mem (b := Proc.devRef .tc main_arg9) _ _ (keep_group opsB1)).trans h_arg9)

/-- From contents holding what the groups from `opsA1` on still read, the result buffer ends at the last stage. -/
theorem tail_A1 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_v29 : V (Proc.devRef .tc main_v29) = ReadP.val_main_v29 (F := Ideal) x1)
    (h_v30 : V (Proc.devRef .tc main_v30) = ReadP.val_main_v30 (F := Ideal) x0 x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9) :
    after (opsA1 ++ (opsB1 ++ (opsD2 ++ (opsA2 ++ (opsB2 ++ (opsD3 ++ (opsA3 ++ (opsB3 ++ (opsD4 ++ (opsA4 ++ (opsB4 ++ (opsS)))))))))))) V (Proc.devRef .tc main_v101) = ReadP.val_main_v101 (F := Ideal) x0 x1 x2 x3 x4 x5 x6 x7 x8 x9 := by
  rw [after_append]
  exact tail_B1 (after opsA1 V)
    ((after_of_forall_not_mem (b := Proc.devRef .tc main_v3) _ _ (keep_group opsA1)).trans h_v3)
    ((after_of_forall_not_mem (b := Proc.devRef .tc main_v6) _ _ (keep_group opsA1)).trans h_v6)
    ((after_of_forall_not_mem (b := Proc.devRef .tc main_v29) _ _ (keep_group opsA1)).trans h_v29)
    (readA1_v43 V h_v3 h_v6 h_v29 h_v30)
    ((after_of_forall_not_mem (b := Proc.devRef .tc main_arg3) _ _ (keep_group opsA1)).trans h_arg3)
    ((after_of_forall_not_mem (b := Proc.devRef .tc main_arg4) _ _ (keep_group opsA1)).trans h_arg4)
    ((after_of_forall_not_mem (b := Proc.devRef .tc main_arg5) _ _ (keep_group opsA1)).trans h_arg5)
    ((after_of_forall_not_mem (b := Proc.devRef .tc main_arg6) _ _ (keep_group opsA1)).trans h_arg6)
    ((after_of_forall_not_mem (b := Proc.devRef .tc main_arg7) _ _ (keep_group opsA1)).trans h_arg7)
    ((after_of_forall_not_mem (b := Proc.devRef .tc main_arg8) _ _ (keep_group opsA1)).trans h_arg8)
    ((after_of_forall_not_mem (b := Proc.devRef .tc main_arg9) _ _ (keep_group opsA1)).trans h_arg9)

/-- From contents holding what the groups from `opsD1` on still read, the result buffer ends at the last stage. -/
theorem tail_D1 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v3 : V (Proc.devRef .tc main_v3) = ReadP.val_main_v3 (F := Ideal) x1)
    (h_v6 : V (Proc.devRef .tc main_v6) = ReadP.val_main_v6 (F := Ideal) x1)
    (h_arg0 : V (Proc.devRef .tc main_arg0) = x0)
    (h_arg2 : V (Proc.devRef .tc main_arg2) = x2)
    (h_v29 : V (Proc.devRef .tc main_v29) = ReadP.val_main_v29 (F := Ideal) x1)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9) :
    after (opsD1 ++ (opsA1 ++ (opsB1 ++ (opsD2 ++ (opsA2 ++ (opsB2 ++ (opsD3 ++ (opsA3 ++ (opsB3 ++ (opsD4 ++ (opsA4 ++ (opsB4 ++ (opsS))))))))))))) V (Proc.devRef .tc main_v101) = ReadP.val_main_v101 (F := Ideal) x0 x1 x2 x3 x4 x5 x6 x7 x8 x9 := by
  rw [after_append]
  exact tail_A1 (after opsD1 V)
    ((after_of_forall_not_mem (b := Proc.devRef .tc main_v3) _ _ (keep_group opsD1)).trans h_v3)
    ((after_of_forall_not_mem (b := Proc.devRef .tc main_v6) _ _ (keep_group opsD1)).trans h_v6)
    ((after_of_forall_not_mem (b := Proc.devRef .tc main_v29) _ _ (keep_group opsD1)).trans h_v29)
    (readD1_v30 V h_arg0 h_arg2)
    ((after_of_forall_not_mem (b := Proc.devRef .tc main_arg3) _ _ (keep_group opsD1)).trans h_arg3)
    ((after_of_forall_not_mem (b := Proc.devRef .tc main_arg4) _ _ (keep_group opsD1)).trans h_arg4)
    ((after_of_forall_not_mem (b := Proc.devRef .tc main_arg5) _ _ (keep_group opsD1)).trans h_arg5)
    ((after_of_forall_not_mem (b := Proc.devRef .tc main_arg6) _ _ (keep_group opsD1)).trans h_arg6)
    ((after_of_forall_not_mem (b := Proc.devRef .tc main_arg7) _ _ (keep_group opsD1)).trans h_arg7)
    ((after_of_forall_not_mem (b := Proc.devRef .tc main_arg8) _ _ (keep_group opsD1)).trans h_arg8)
    ((after_of_forall_not_mem (b := Proc.devRef .tc main_arg9) _ _ (keep_group opsD1)).trans h_arg9)

/-- From contents holding what the groups from `opsP2` on still read, the result buffer ends at the last stage. -/
theorem tail_P2 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v14 : V (Proc.devRef .tc main_v14) = ReadP.val_main_v14 (F := Ideal) x1)
    (h_v3 : V (Proc.devRef .tc main_v3) = ReadP.val_main_v3 (F := Ideal) x1)
    (h_v6 : V (Proc.devRef .tc main_v6) = ReadP.val_main_v6 (F := Ideal) x1)
    (h_arg0 : V (Proc.devRef .tc main_arg0) = x0)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9) :
    after (opsP2 ++ (opsD1 ++ (opsA1 ++ (opsB1 ++ (opsD2 ++ (opsA2 ++ (opsB2 ++ (opsD3 ++ (opsA3 ++ (opsB3 ++ (opsD4 ++ (opsA4 ++ (opsB4 ++ (opsS)))))))))))))) V (Proc.devRef .tc main_v101) = ReadP.val_main_v101 (F := Ideal) x0 x1 x2 x3 x4 x5 x6 x7 x8 x9 := by
  rw [after_append]
  exact tail_D1 (after opsP2 V)
    ((after_of_forall_not_mem (b := Proc.devRef .tc main_v3) _ _ (keep_group opsP2)).trans h_v3)
    ((after_of_forall_not_mem (b := Proc.devRef .tc main_v6) _ _ (keep_group opsP2)).trans h_v6)
    ((after_of_forall_not_mem (b := Proc.devRef .tc main_arg0) _ _ (keep_group opsP2)).trans h_arg0)
    ((after_of_forall_not_mem (b := Proc.devRef .tc main_arg2) _ _ (keep_group opsP2)).trans h_arg2)
    (readP2_v29 V h_v14 h_v3 h_v6)
    ((after_of_forall_not_mem (b := Proc.devRef .tc main_arg3) _ _ (keep_group opsP2)).trans h_arg3)
    ((after_of_forall_not_mem (b := Proc.devRef .tc main_arg4) _ _ (keep_group opsP2)).trans h_arg4)
    ((after_of_forall_not_mem (b := Proc.devRef .tc main_arg5) _ _ (keep_group opsP2)).trans h_arg5)
    ((after_of_forall_not_mem (b := Proc.devRef .tc main_arg6) _ _ (keep_group opsP2)).trans h_arg6)
    ((after_of_forall_not_mem (b := Proc.devRef .tc main_arg7) _ _ (keep_group opsP2)).trans h_arg7)
    ((after_of_forall_not_mem (b := Proc.devRef .tc main_arg8) _ _ (keep_group opsP2)).trans h_arg8)
    ((after_of_forall_not_mem (b := Proc.devRef .tc main_arg9) _ _ (keep_group opsP2)).trans h_arg9)

/-- From contents holding what the groups from `opsP1` on still read, the result buffer ends at the last stage. -/
theorem tail_P1 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_v12 : V (Proc.devRef .tc main_v12) = ReadP.val_main_v12 (F := Ideal) x1)
    (h_v13 : V (Proc.devRef .tc main_v13) = ReadP.val_main_v13 (F := Ideal) x1)
    (h_cst_2 : V (Proc.devRef .tc main_cst_2) = ReadP.val_main_cst_2 (F := Ideal))
    (h_v3 : V (Proc.devRef .tc main_v3) = ReadP.val_main_v3 (F := Ideal) x1)
    (h_v6 : V (Proc.devRef .tc main_v6) = ReadP.val_main_v6 (F := Ideal) x1)
    (h_arg0 : V (Proc.devRef .tc main_arg0) = x0)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9) :
    after (opsP1 ++ (opsP2 ++ (opsD1 ++ (opsA1 ++ (opsB1 ++ (opsD2 ++ (opsA2 ++ (opsB2 ++ (opsD3 ++ (opsA3 ++ (opsB3 ++ (opsD4 ++ (opsA4 ++ (opsB4 ++ (opsS))))))))))))))) V (Proc.devRef .tc main_v101) = ReadP.val_main_v101 (F := Ideal) x0 x1 x2 x3 x4 x5 x6 x7 x8 x9 := by
  rw [after_append]
  exact tail_P2 (after opsP1 V)
    (readP1_v14 V h_v12 h_v13 h_cst_2)
    ((after_of_forall_not_mem (b := Proc.devRef .tc main_v3) _ _ (keep_group opsP1)).trans h_v3)
    ((after_of_forall_not_mem (b := Proc.devRef .tc main_v6) _ _ (keep_group opsP1)).trans h_v6)
    ((after_of_forall_not_mem (b := Proc.devRef .tc main_arg0) _ _ (keep_group opsP1)).trans h_arg0)
    ((after_of_forall_not_mem (b := Proc.devRef .tc main_arg2) _ _ (keep_group opsP1)).trans h_arg2)
    ((after_of_forall_not_mem (b := Proc.devRef .tc main_arg3) _ _ (keep_group opsP1)).trans h_arg3)
    ((after_of_forall_not_mem (b := Proc.devRef .tc main_arg4) _ _ (keep_group opsP1)).trans h_arg4)
    ((after_of_forall_not_mem (b := Proc.devRef .tc main_arg5) _ _ (keep_group opsP1)).trans h_arg5)
    ((after_of_forall_not_mem (b := Proc.devRef .tc main_arg6) _ _ (keep_group opsP1)).trans h_arg6)
    ((after_of_forall_not_mem (b := Proc.devRef .tc main_arg7) _ _ (keep_group opsP1)).trans h_arg7)
    ((after_of_forall_not_mem (b := Proc.devRef .tc main_arg8) _ _ (keep_group opsP1)).trans h_arg8)
    ((after_of_forall_not_mem (b := Proc.devRef .tc main_arg9) _ _ (keep_group opsP1)).trans h_arg9)

/-- From contents holding what the groups from `opsP0` on still read, the result buffer ends at the last stage. -/
theorem tail_P0 (V : Valuation τ sig (Elt Ideal)) {x0 : (⟨S100000x128, .f32⟩ : BufTy).Contents (Elt Ideal)} {x1 : (⟨S2x640000, .i32⟩ : BufTy).Contents (Elt Ideal)} {x2 : (⟨S128x128, .f32⟩ : BufTy).Contents (Elt Ideal)} {x3 : (⟨S128, .f32⟩ : BufTy).Contents (Elt Ideal)} {x4 : (⟨S128x128, .f32⟩ : BufTy).Contents (Elt Ideal)} {x5 : (⟨S128, .f32⟩ : BufTy).Contents (Elt Ideal)} {x6 : (⟨S128x128, .f32⟩ : BufTy).Contents (Elt Ideal)} {x7 : (⟨S128, .f32⟩ : BufTy).Contents (Elt Ideal)} {x8 : (⟨S128x40, .f32⟩ : BufTy).Contents (Elt Ideal)} {x9 : (⟨S40, .f32⟩ : BufTy).Contents (Elt Ideal)}
    (h_arg1 : V (Proc.devRef .tc main_arg1) = x1)
    (h_arg0 : V (Proc.devRef .tc main_arg0) = x0)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7)
    (h_arg8 : V (Proc.devRef .tc main_arg8) = x8)
    (h_arg9 : V (Proc.devRef .tc main_arg9) = x9) :
    after (opsP0 ++ (opsP1 ++ (opsP2 ++ (opsD1 ++ (opsA1 ++ (opsB1 ++ (opsD2 ++ (opsA2 ++ (opsB2 ++ (opsD3 ++ (opsA3 ++ (opsB3 ++ (opsD4 ++ (opsA4 ++ (opsB4 ++ (opsS)))))))))))))))) V (Proc.devRef .tc main_v101) = ReadP.val_main_v101 (F := Ideal) x0 x1 x2 x3 x4 x5 x6 x7 x8 x9 := by
  rw [after_append]
  exact tail_P1 (after opsP0 V)
    (readP0_v12 V h_arg1)
    (readP0_v13 V h_arg1)
    (readP0_cst_2 V h_arg1)
    (readP0_v3 V h_arg1)
    (readP0_v6 V h_arg1)
    ((after_of_forall_not_mem (b := Proc.devRef .tc main_arg0) _ _ (keep_group opsP0)).trans h_arg0)
    ((after_of_forall_not_mem (b := Proc.devRef .tc main_arg2) _ _ (keep_group opsP0)).trans h_arg2)
    ((after_of_forall_not_mem (b := Proc.devRef .tc main_arg3) _ _ (keep_group opsP0)).trans h_arg3)
    ((after_of_forall_not_mem (b := Proc.devRef .tc main_arg4) _ _ (keep_group opsP0)).trans h_arg4)
    ((after_of_forall_not_mem (b := Proc.devRef .tc main_arg5) _ _ (keep_group opsP0)).trans h_arg5)
    ((after_of_forall_not_mem (b := Proc.devRef .tc main_arg6) _ _ (keep_group opsP0)).trans h_arg6)
    ((after_of_forall_not_mem (b := Proc.devRef .tc main_arg7) _ _ (keep_group opsP0)).trans h_arg7)
    ((after_of_forall_not_mem (b := Proc.devRef .tc main_arg8) _ _ (keep_group opsP0)).trans h_arg8)
    ((after_of_forall_not_mem (b := Proc.devRef .tc main_arg9) _ _ (keep_group opsP0)).trans h_arg9)

/-- The whole list from ANY contents: the result buffer ends at the last stage of the ten argument buffers'
    contents. -/
theorem staged (V : Valuation τ sig (Elt Ideal)) :
    after (Cert.ReferenceIdeal.ValueP.ops (F := Ideal)) V (Proc.devRef .tc main_v101)
      = ReadP.val_main_v101 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_eq]
  exact tail_P0 V rfl rfl rfl rfl rfl rfl rfl rfl rfl rfl

variable (m : (ℓ : Loc nD τ sig) → Buf (Elt Ideal) ℓ) (ρ : Dev nD → PrngReg)

set_option maxRecDepth 8192 in
set_option maxHeartbeats 57600000 in
/-- On every device, from any memory with zero counters: every weakly fair execution of the reference program
    terminates with its result at the last stage of the arguments' launch contents, the arguments unchanged. -/
theorem run :
    θ_run defs (onTc (τ := τ) (main (F := Ideal))) ⟨m, fun _ => 0, ρ⟩ fun r => ∀ c : Dev nD,
      r.2.mem ((c.tc : Thread nD τ).loc main_v101)
        = ReadP.val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v101).trans (staged (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.Net

end
-- ==== Proof.SpecLin.lean ====
/-
  The linear layer as a function of its two arrays.

  A layer multiplies the node-feature matrix X (100000 rows, 128 columns) by a weight matrix W (128 rows; 128
  columns in the first three layers, 40 in the last): entry (r, j) of the product is the sum over the 128 values
  of k of X (r, k) * W (k, j).  An entry of the product depends on ONE row of X and ONE column of W, so the
  product of a block of rows of X with the whole of W is the same block of rows of the product; the kernel-side
  modules use exactly this, and the reference computes the same sum in one step.

  The sums are over the literal index type Fin 128, and the coordinates of an index are re-packed as elements of
  the literal types Fin 100000, Fin 128 and Fin 40, so that both sides meet at the same spelling.
-/
import proofs.«113504_j24661702214227_1_alg».proof.Proof.Shapes

noncomputable section

namespace Cert.Net

open Idealize.ShloMosaic

/-- X · W for a [128, 128] weight matrix: entry (r, j) is the sum over k of X (r, k) * W (k, j). -/
def lin128 (X : SX.Idx → EReal) (Wt : SW.Idx → EReal) : SX.Idx → EReal :=
  fun i => ∑ k : Fin 128, X (ValueIdx.ix2 (⟨(i 0).val, (i 0).isLt⟩ : Fin 100000) k)
    * Wt (ValueIdx.ix2 k (⟨(i 1).val, (i 1).isLt⟩ : Fin 128))

/-- X · W for a [128, 40] weight matrix: entry (r, j) is the sum over k of X (r, k) * W (k, j). -/
def lin40 (X : SX.Idx → EReal) (Wt : SW4.Idx → EReal) : SY.Idx → EReal :=
  fun i => ∑ k : Fin 128, X (ValueIdx.ix2 (⟨(i 0).val, (i 0).isLt⟩ : Fin 100000) k)
    * Wt (ValueIdx.ix2 k (⟨(i 1).val, (i 1).isLt⟩ : Fin 40))

/-- The first product at explicit coordinates. -/
theorem lin128_ix2 (X : SX.Idx → EReal) (Wt : SW.Idx → EReal) (r : Fin 100000) (j : Fin 128) :
    lin128 X Wt (ValueIdx.ix2 r j) = ∑ k : Fin 128, X (ValueIdx.ix2 r k) * Wt (ValueIdx.ix2 k j) := rfl

/-- The second product at explicit coordinates. -/
theorem lin40_ix2 (X : SX.Idx → EReal) (Wt : SW4.Idx → EReal) (r : Fin 100000) (j : Fin 40) :
    lin40 X Wt (ValueIdx.ix2 r j) = ∑ k : Fin 128, X (ValueIdx.ix2 r k) * Wt (ValueIdx.ix2 k j) := rfl

end Cert.Net

end
-- ==== Proof.LinRegion0.lean ====
/-
  The first layer's matrix product, read off the pipeline that computes it.

  The pipeline runs over 20 grid points.  At point t its body is handed block t of the node features X — the
  5000 rows 5000 t … 5000 t + 4999, all 128 columns — and the WHOLE weight matrix W, multiplies them, and its
  result is written back as the same 5000 rows of the output array.  Entry (p, q) of the body's product is the
  sum over k of (block of X) (p, k) * W (k, q); the block's row p is row 5000 t + p of X, so this is entry
  (5000 t + p, q) of X · W: an output entry depends on one row of X, and that row lies in the one block the
  body sees.  The 20 row blocks tile the 100000 rows (row r lies in block r / 5000), so after the last point the
  output array is X · W everywhere.

  Reading the body's product at an index: the contraction of the body's multiplication has one axis of extent 128,
  so its sum over the contraction's index type is the sum over Fin 128; the left operand's index at contraction
  value k is (p, k) and the right operand's is (k, q).  The change of number format in front of the product is the
  identity at the ideal values, and the accumulator is the zero array.
-/
import proofs.«113504_j24661702214227_1_alg».proof.Proof.Gen.KernelIdeal.Frame
import proofs.«113504_j24661702214227_1_alg».proof.Proof.SpecLin
import Idealize.ShloMosaic.Lib.Pipeline.Value
import Idealize.ShloMosaic.Lib.ValueIdx
import Idealize.ShloMosaic.PureOps.Ideal.Laws

set_option maxRecDepth 16384

noncomputable section

namespace Cert.KernelIdeal.Net

open Idealize.ShloMosaic Idealize.ShloMosaic.TcCoe
open Idealize.SL.Sem
open Idealize.ShloMosaic.Pipeline (Dat Cfg Window)
open Cert.KernelIdeal Cert.KernelIdeal.Gen

/-! ## The body's product at an index -/

theorem offsets_zero0 : (![0, 0] : Fin 2 → Nat) = fun _ => 0 := funext fun a => by fin_cases a <;> rfl

/-- The left operand's index at output index `i` and contraction index `q`: row of `i`, … -/
theorem lhs0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column the contraction value; -/
theorem lhs0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's: row the contraction value, … -/
theorem rhs0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column of `i`. -/
theorem rhs0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a [5000, 128] block with a [128, 128] matrix into the zero accumulator, at entry (p, q): the sum
    over k of block (p, k) * matrix (k, q). -/
theorem matmul0_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ValueIdx.ix2 p q)
      = ∑ k : Fin 128, l (ValueIdx.ix2 p k) * r (ValueIdx.ix2 k q) := by
  refine (Ideal.matmul_constant_zero_apply dot_S5000x128_S128x128_S5000x128_1_0_0_1_n_n none l r (ValueIdx.ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs0_0 _ _).trans hk
    | ⟨1, _⟩ => exact rhs0_1 _ _)
  rw [el, er]

/-- The body's payload at entry (p, q): the change of format is the identity, the rest is the product. -/
theorem pay0_apply (x0 : Vec Ideal S5000x128 .f32) (x1 : Vec Ideal S128x128 .f32) (p : Fin 5000) (q : Fin 128) :
    k0_pay1 (F := Ideal) x0 x1 (ValueIdx.ix2 p q) = ∑ k : Fin 128, x0 (ValueIdx.ix2 p k) * x1 (ValueIdx.ix2 k q) := by
  unfold k0_pay1
  exact matmul0_apply _ _ p q

/-! ## From the blocks to the array -/

variable (V : (c : Dev nD) → (b : Ref sig .tc) → Buf (Elt Ideal) ((c : Thread nD τ).loc b))

/-- The printed index maps, decided over the 20 grid points: the row block of X and of the output at point `t` is
    block `t`, their column block and both block indices of W are 0. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Entry (p, k) of the block of X at point `t` is entry (5000 t + p, k) of X. -/
theorem blk0_0_apply (c : Dev nD) (t : Fin cfg0.N) (p : Fin 5000) (k : Fin 128) (h : t.val * 5000 + p.val < 100000) :
    iblk0 V c 0 t (ValueIdx.ix2 p k) = V c main_arg0 (ValueIdx.ix2 (⟨t.val * 5000 + p.val, h⟩ : Fin 100000) k) := by
  obtain ⟨e0, e1, -⟩ := idx_facts0 t
  show V c main_arg0 (((cfg0.win 0).blk t).view.emb (ValueIdx.ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The block of W at any point is W. -/
theorem blk0_1_apply (c : Dev nD) (t : Fin cfg0.N) (k : Fin 128) (q : Fin 128) :
    iblk0 V c 1 t (ValueIdx.ix2 k q) = V c main_arg2 (ValueIdx.ix2 k q) := by
  obtain ⟨-, -, e2, e3, -⟩ := idx_facts0 t
  show V c main_arg2 (((cfg0.win 1).blk t).view.emb (ValueIdx.ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- WHAT POINT `t` WRITES BACK is block `t` of X · W. -/
theorem flushed0_eq (c : Dev nD) (t : Fin cfg0.N) :
    (dat0 (F := Ideal) V c).flushed 2 t
      = ((cfg0.win 2).blk t).view.read (Elt Ideal) (Cert.Net.lin128 (V c main_arg0) (V c main_arg2)) := by
  show (cfg0.win 2).cut (grid0.coords t) ((dat0 V c).after 2 t) = _
  rw [after0_2]
  unfold out0_2
  rw [View.canon_unit_zero offsets_zero0]
  simp only [View.ld_unit_zero (S := S5000x128) offsets_zero0, View.ld_unit_zero (S := S128x128) offsets_zero0]
  funext j
  obtain ⟨p, q, rfl⟩ : ∃ (p : Fin 5000) (q : Fin 128), j = ValueIdx.ix2 p q := ⟨j 0, j 1, ValueIdx.eq_ix2 j⟩
  have ht : t.val < 20 := lt_of_lt_of_eq t.isLt N_0
  have hrow : t.val * 5000 + p.val < 100000 := by have := p.isLt; omega
  obtain ⟨-, -, -, -, e4, e5⟩ := idx_facts0 t
  have hi : ((cfg0.win 2).blk t).view.emb (ValueIdx.ix2 p q) = ValueIdx.ix2 (⟨t.val * 5000 + p.val, hrow⟩ : Fin 100000) q :=
    funext fun a => Fin.ext (by
      match a with
      | ⟨0, _⟩ => show win0_2.index t (0 : Fin 2) * 5000 + 1 * p.val = t.val * 5000 + p.val; omega
      | ⟨1, _⟩ => show win0_2.index t (1 : Fin 2) * 128 + 1 * q.val = q.val; omega)
  show k0_pay1 (iblk0 V c 0 t) (iblk0 V c 1 t) (ValueIdx.ix2 p q)
    = Cert.Net.lin128 (V c main_arg0) (V c main_arg2) (((cfg0.win 2).blk t).view.emb (ValueIdx.ix2 p q))
  rw [hi, Cert.Net.lin128_ix2]
  refine (pay0_apply _ _ p q).trans (Finset.sum_congr rfl fun k _ => ?_)
  rw [blk0_0_apply V c t p k hrow, blk0_1_apply V c t k q]

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The 20 row blocks tile the array: row r lies in block r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, e4, e5⟩ := idx_facts0 ⟨(i 0).val / 5000, hlt⟩
  have q0 : win0_2.index ⟨(i 0).val / 5000, hlt⟩ (0 : Fin 2) = (i 0).val / 5000 := e4
  refine ⟨⟨(i 0).val / 5000, hlt⟩, flush0_2 _, ?_⟩
  rw [mem_blk0]
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 128 ≤ (i 1).val ∧ (i 1).val < win0_2.index ⟨(i 0).val / 5000, hlt⟩ (1 : Fin 2) * 128 + 128; omega

/-- THE OUTPUT ARRAY after the last point is X · W. -/
theorem region0_eq (c : Dev nD) :
    (dat0 (F := Ideal) V c).arrAt 2 cfg0.N = Cert.Net.lin128 (V c main_arg0) (V c main_arg2) :=
  (dat0 (F := Ideal) V c).arrAt_eq_of_cover 2 _ (fun t _ => flushed0_eq V c t) cover0

end Cert.KernelIdeal.Net

end
-- ==== Proof.LinRegion2.lean ====
/-
  The second layer's matrix product, read off the pipeline that computes it.

  The pipeline runs over 20 grid points.  At point t its body is handed block t of the layer's input array H — the
  5000 rows 5000 t … 5000 t + 4999, all 128 columns — and the WHOLE weight matrix W (128 rows, 128 columns), multiplies them,
  and its result is written back as the same 5000 rows of the output array (128 columns).  Entry (p, q) of the
  body's product is the sum over k of (block of H) (p, k) * W (k, q); the block's row p is row 5000 t + p of H,
  so this is entry (5000 t + p, q) of H · W: an output entry depends on one row of H, and that row lies in the
  one block the body sees.  The 20 row blocks tile the 100000 rows (row r lies in block r / 5000), so after the
  last point the output array is H · W everywhere.

  Reading the body's product at an index: the contraction of the body's multiplication has one axis of extent 128,
  so its sum over the contraction's index type is the sum over Fin 128; the left operand's index at contraction
  value k is (p, k) and the right operand's is (k, q).  The change of number format in front of the product is the
  identity at the ideal values, so is the cast of the block to its own shape, and the accumulator is the zero array.
-/
import proofs.«113504_j24661702214227_1_alg».proof.Proof.Gen.KernelIdeal.Frame
import proofs.«113504_j24661702214227_1_alg».proof.Proof.SpecLin
import Idealize.ShloMosaic.Lib.Pipeline.Value
import Idealize.ShloMosaic.Lib.ValueIdx
import Idealize.ShloMosaic.PureOps.Ideal.Laws

set_option maxRecDepth 16384

noncomputable section

namespace Cert.KernelIdeal.Net

open Idealize.ShloMosaic Idealize.ShloMosaic.TcCoe
open Idealize.SL.Sem
open Idealize.ShloMosaic.Pipeline (Dat Cfg Window)
open Cert.KernelIdeal Cert.KernelIdeal.Gen

/-! ## The body's product at an index -/

theorem offsets_zero2 : (![0, 0] : Fin 2 → Nat) = fun _ => 0 := funext fun a => by fin_cases a <;> rfl

/-- The left operand's index at output index `i` and contraction index `q`: row of `i`, … -/
theorem lhs2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column the contraction value; -/
theorem lhs2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's: row the contraction value, … -/
theorem rhs2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column of `i`. -/
theorem rhs2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a [5000, 128] block with a [128, 128] matrix into the zero accumulator, at entry (p, q): the sum
    over k of block (p, k) * matrix (k, q). -/
theorem matmul2_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ValueIdx.ix2 p q)
      = ∑ k : Fin 128, l (ValueIdx.ix2 p k) * r (ValueIdx.ix2 k q) := by
  refine (Ideal.matmul_constant_zero_apply dot_S5000x128_S128x128_S5000x128_1_0_0_1_n_n none l r (ValueIdx.ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs2_0 _ _
    | ⟨1, _⟩ => exact (lhs2_1 _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs2_0 _ _).trans hk
    | ⟨1, _⟩ => exact rhs2_1 _ _)
  rw [el, er]

/-- The body's payload at entry (p, q): the cast to the same shape and the change of format are the identity, the rest is the product. -/
theorem pay2_apply (x0 : Vec Ideal S5000x128 .f32) (x1 : Vec Ideal S128x128 .f32) (p : Fin 5000) (q : Fin 128) :
    k2_pay1 (F := Ideal) x0 x1 (ValueIdx.ix2 p q) = ∑ k : Fin 128, x0 (ValueIdx.ix2 p k) * x1 (ValueIdx.ix2 k q) := by
  unfold k2_pay1
  refine (matmul2_apply _ _ p q).trans (Finset.sum_congr rfl fun k _ => ?_)
  show shapeCast S5000x128 x0 shapeCasts_S5000x128_S5000x128 (ValueIdx.ix2 p k) * x1 (ValueIdx.ix2 k q) = _
  rw [shapeCast_self]

/-! ## From the blocks to the array -/

variable (V : (c : Dev nD) → (b : Ref sig .tc) → Buf (Elt Ideal) ((c : Thread nD τ).loc b))

/-- The printed index maps, decided over the 20 grid points: the row block of H and of the output at point `t` is
    block `t`, their column block and both block indices of W are 0. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Entry (p, k) of the block of H at point `t` is entry (5000 t + p, k) of H. -/
theorem blk2_0_apply (c : Dev nD) (t : Fin cfg2.N) (p : Fin 5000) (k : Fin 128) (h : t.val * 5000 + p.val < 100000) :
    iblk2 V c 0 t (ValueIdx.ix2 p k) = V c main_v45 (ValueIdx.ix2 (⟨t.val * 5000 + p.val, h⟩ : Fin 100000) k) := by
  obtain ⟨e0, e1, -⟩ := idx_facts2 t
  show V c main_v45 (((cfg2.win 0).blk t).view.emb (ValueIdx.ix2 p k)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- The block of W at any point is W. -/
theorem blk2_1_apply (c : Dev nD) (t : Fin cfg2.N) (k : Fin 128) (q : Fin 128) :
    iblk2 V c 1 t (ValueIdx.ix2 k q) = V c main_arg4 (ValueIdx.ix2 k q) := by
  obtain ⟨-, -, e2, e3, -⟩ := idx_facts2 t
  show V c main_arg4 (((cfg2.win 1).blk t).view.emb (ValueIdx.ix2 k q)) = _
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- WHAT POINT `t` WRITES BACK is block `t` of H · W. -/
theorem flushed2_eq (c : Dev nD) (t : Fin cfg2.N) :
    (dat2 (F := Ideal) V c).flushed 2 t
      = ((cfg2.win 2).blk t).view.read (Elt Ideal) (Cert.Net.lin128 (V c main_v45) (V c main_arg4)) := by
  show (cfg2.win 2).cut (grid2.coords t) ((dat2 V c).after 2 t) = _
  rw [after2_2]
  unfold out2_2
  rw [View.canon_unit_zero offsets_zero2]
  simp only [View.ld_unit_zero (S := S5000x128) offsets_zero2, View.ld_unit_zero (S := S128x128) offsets_zero2]
  funext j
  obtain ⟨p, q, rfl⟩ : ∃ (p : Fin 5000) (q : Fin 128), j = ValueIdx.ix2 p q := ⟨j 0, j 1, ValueIdx.eq_ix2 j⟩
  have ht : t.val < 20 := lt_of_lt_of_eq t.isLt N_2
  have hrow : t.val * 5000 + p.val < 100000 := by have := p.isLt; omega
  obtain ⟨-, -, -, -, e4, e5⟩ := idx_facts2 t
  have hi : ((cfg2.win 2).blk t).view.emb (ValueIdx.ix2 p q) = ValueIdx.ix2 (⟨t.val * 5000 + p.val, hrow⟩ : Fin 100000) q :=
    funext fun a => Fin.ext (by
      match a with
      | ⟨0, _⟩ => show win2_2.index t (0 : Fin 2) * 5000 + 1 * p.val = t.val * 5000 + p.val; omega
      | ⟨1, _⟩ => show win2_2.index t (1 : Fin 2) * 128 + 1 * q.val = q.val; omega)
  show k2_pay1 (iblk2 V c 0 t) (iblk2 V c 1 t) (ValueIdx.ix2 p q)
    = Cert.Net.lin128 (V c main_v45) (V c main_arg4) (((cfg2.win 2).blk t).view.emb (ValueIdx.ix2 p q))
  rw [hi, Cert.Net.lin128_ix2]
  refine (pay2_apply _ _ p q).trans (Finset.sum_congr rfl fun k _ => ?_)
  rw [blk2_0_apply V c t p k hrow, blk2_1_apply V c t k q]

/-- An index of the output array is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- The 20 row blocks tile the array: row r lies in block r / 5000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨-, -, -, -, e4, e5⟩ := idx_facts2 ⟨(i 0).val / 5000, hlt⟩
  have q0 : win2_2.index ⟨(i 0).val / 5000, hlt⟩ (0 : Fin 2) = (i 0).val / 5000 := e4
  refine ⟨⟨(i 0).val / 5000, hlt⟩, flush2_2 _, ?_⟩
  rw [mem_blk2]
  intro a
  match a with
  | ⟨0, _⟩ => show win2_2.index ⟨(i 0).val / 5000, hlt⟩ (0 : Fin 2) * 5000 ≤ (i 0).val ∧ (i 0).val < win2_2.index ⟨(i 0).val / 5000, hlt⟩ (0 : Fin 2) * 5000 + 5000; omega
  | ⟨1, _⟩ => show win2_2.index ⟨(i 0).val / 5000, hlt⟩ (1 : Fin 2) * 128 ≤ (i 1).val ∧ (i 1).val < win2_2.index ⟨(i 0).val / 5000, hlt⟩ (1 : Fin 2) * 128 + 128; omega

/-- THE OUTPUT ARRAY after the last point is H · W. -/
theorem region2_eq (c : Dev nD) :
    (dat2 (F := Ideal) V c).arrAt 2 cfg2.N = Cert.Net.lin128 (V c main_v45) (V c main_arg4) :=
  (dat2 (F := Ideal) V c).arrAt_eq_of_cover 2 _ (fun t _ => flushed2_eq V c t) cover2

end Cert.KernelIdeal.Net

end
-- ==== Proof.LinRegion4.lean ====
/-
  The third layer's matrix product, read off the pipeline that computes it.

  The pipeline runs over 20 grid points.  At point t its body is handed block t of the layer's input array H — the
  5000 rows 5000 t … 5000 t + 4999, all 128 columns — and the WHOLE weight matrix W (128 rows, 128 columns), multiplies them,
  and its result is written back as the same 5000 rows of the output array (128 columns).  Entry (p, q) of the
  body's product is the sum over k of (block of H) (p, k) * W (k, q); the block's row p is row 5000 t + p of H,
  so this is entry (5000 t + p, q) of H · W: an output entry depends on one row of H, and that row lies in the
  one block the body sees.  The 20 row blocks tile the 100000 rows (row r lies in block r / 5000), so after the
  last point the output array is H · W everywhere.

  Reading the body's product at an index: the contraction of the body's multiplication has one axis of extent 128,
  so its sum over the contraction's index type is the sum over Fin 128; the left operand's index at contraction
  value k is (p, k) and the right operand's is (k, q).  The change of number format in front of the product is the
  identity at the ideal values, so is the cast of the block to its own shape, and the accumulator is the zero array.
-/
import proofs.«113504_j24661702214227_1_alg».proof.Proof.Gen.KernelIdeal.Frame
import proofs.«113504_j24661702214227_1_alg».proof.Proof.SpecLin
import Idealize.ShloMosaic.Lib.Pipeline.Value
import Idealize.ShloMosaic.Lib.ValueIdx
import Idealize.ShloMosaic.PureOps.Ideal.Laws

set_option maxRecDepth 16384

noncomputable section

namespace Cert.KernelIdeal.Net

open Idealize.ShloMosaic Idealize.ShloMosaic.TcCoe
open Idealize.SL.Sem
open Idealize.ShloMosaic.Pipeline (Dat Cfg Window)
open Cert.KernelIdeal Cert.KernelIdeal.Gen

/-! ## The body's product at an index -/

theorem offsets_zero4 : (![0, 0] : Fin 2 → Nat) = fun _ => 0 := funext fun a => by fin_cases a <;> rfl

/-- The left operand's index at output index `i` and contraction index `q`: row of `i`, … -/
theorem lhs4_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column the contraction value; -/
theorem lhs4_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's: row the contraction value, … -/
theorem rhs4_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column of `i`. -/
theorem rhs4_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a [5000, 128] block with a [128, 128] matrix into the zero accumulator, at entry (p, q): the sum
    over k of block (p, k) * matrix (k, q). -/
theorem matmul4_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ValueIdx.ix2 p q)
      = ∑ k : Fin 128, l (ValueIdx.ix2 p k) * r (ValueIdx.ix2 k q) := by
  refine (Ideal.matmul_constant_zero_apply dot_S5000x128_S128x128_S5000x128_1_0_0_1_n_n none l r (ValueIdx.ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs4_0 _ _
    | ⟨1, _⟩ => exact (lhs4_1 _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs4_0 _ _).trans hk
    | ⟨1, _⟩ => exact rhs4_1 _ _)
  rw [el, er]

/-- The body's payload at entry (p, q): the cast to the same shape and the change of format are the identity, the rest is the product. -/
theorem pay4_apply (x0 : Vec Ideal S5000x128 .f32) (x1 : Vec Ideal S128x128 .f32) (p : Fin 5000) (q : Fin 128) :
    k4_pay1 (F := Ideal) x0 x1 (ValueIdx.ix2 p q) = ∑ k : Fin 128, x0 (ValueIdx.ix2 p k) * x1 (ValueIdx.ix2 k q) := by
  unfold k4_pay1
  refine (matmul4_apply _ _ p q).trans (Finset.sum_congr rfl fun k _ => ?_)
  show shapeCast S5000x128 x0 shapeCasts_S5000x128_S5000x128 (ValueIdx.ix2 p k) * x1 (ValueIdx.ix2 k q) = _
  rw [shapeCast_self]

/-! ## From the blocks to the array -/

variable (V : (c : Dev nD) → (b : Ref sig .tc) → Buf (Elt Ideal) ((c : Thread nD τ).loc b))

/-- The printed index maps, decided over the 20 grid points: the row block of H and of the output at point `t` is
    block `t`, their column block and both block indices of W are 0. -/
theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- Entry (p, k) of the block of H at point `t` is entry (5000 t + p, k) of H. -/
theorem blk4_0_apply (c : Dev nD) (t : Fin cfg4.N) (p : Fin 5000) (k : Fin 128) (h : t.val * 5000 + p.val < 100000) :
    iblk4 V c 0 t (ValueIdx.ix2 p k) = V c main_v61 (ValueIdx.ix2 (⟨t.val * 5000 + p.val, h⟩ : Fin 100000) k) := by
  obtain ⟨e0, e1, -⟩ := idx_facts4 t
  show V c main_v61 (((cfg4.win 0).blk t).view.emb (ValueIdx.ix2 p k)) = _
  refine congrArg _ (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * k.val = k.val; omega

/-- The block of W at any point is W. -/
theorem blk4_1_apply (c : Dev nD) (t : Fin cfg4.N) (k : Fin 128) (q : Fin 128) :
    iblk4 V c 1 t (ValueIdx.ix2 k q) = V c main_arg6 (ValueIdx.ix2 k q) := by
  obtain ⟨-, -, e2, e3, -⟩ := idx_facts4 t
  show V c main_arg6 (((cfg4.win 1).blk t).view.emb (ValueIdx.ix2 k q)) = _
  refine congrArg _ (funext fun a => Fin.ext ?_)
  match a with
  | ⟨0, _⟩ => show win4_1.index t (0 : Fin 2) * 128 + 1 * k.val = k.val; omega
  | ⟨1, _⟩ => show win4_1.index t (1 : Fin 2) * 128 + 1 * q.val = q.val; omega

/-- WHAT POINT `t` WRITES BACK is block `t` of H · W. -/
theorem flushed4_eq (c : Dev nD) (t : Fin cfg4.N) :
    (dat4 (F := Ideal) V c).flushed 2 t
      = ((cfg4.win 2).blk t).view.read (Elt Ideal) (Cert.Net.lin128 (V c main_v61) (V c main_arg6)) := by
  show (cfg4.win 2).cut (grid4.coords t) ((dat4 V c).after 2 t) = _
  rw [after4_2]
  unfold out4_2
  rw [View.canon_unit_zero offsets_zero4]
  simp only [View.ld_unit_zero (S := S5000x128) offsets_zero4, View.ld_unit_zero (S := S128x128) offsets_zero4]
  funext j
  obtain ⟨p, q, rfl⟩ : ∃ (p : Fin 5000) (q : Fin 128), j = ValueIdx.ix2 p q := ⟨j 0, j 1, ValueIdx.eq_ix2 j⟩
  have ht : t.val < 20 := lt_of_lt_of_eq t.isLt N_4
  have hrow : t.val * 5000 + p.val < 100000 := by have := p.isLt; omega
  obtain ⟨-, -, -, -, e4, e5⟩ := idx_facts4 t
  have hi : ((cfg4.win 2).blk t).view.emb (ValueIdx.ix2 p q) = ValueIdx.ix2 (⟨t.val * 5000 + p.val, hrow⟩ : Fin 100000) q :=
    funext fun a => Fin.ext (by
      match a with
      | ⟨0, _⟩ => show win4_2.index t (0 : Fin 2) * 5000 + 1 * p.val = t.val * 5000 + p.val; omega
      | ⟨1, _⟩ => show win4_2.index t (1 : Fin 2) * 128 + 1 * q.val = q.val; omega)
  show k4_pay1 (iblk4 V c 0 t) (iblk4 V c 1 t) (ValueIdx.ix2 p q)
    = Cert.Net.lin128 (V c main_v61) (V c main_arg6) (((cfg4.win 2).blk t).view.emb (ValueIdx.ix2 p q))
  rw [hi, Cert.Net.lin128_ix2]
  refine (pay4_apply _ _ p q).trans (Finset.sum_congr rfl fun k _ => ?_)
  rw [blk4_0_apply V c t p k hrow, blk4_1_apply V c t k q]

/-- An index of the output array is in point `t`'s block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v62).slice (win4_2.rect t)).set ↔ _
  rw [View.set_slice_whole, Rect.mem_set_unit]
  exact Iff.rfl

/-- The 20 row blocks tile the array: row r lies in block r / 5000. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  have hlt : (i 0).val / 5000 < cfg4.N := by rw [hN]; omega
  obtain ⟨-, -, -, -, e4, e5⟩ := idx_facts4 ⟨(i 0).val / 5000, hlt⟩
  have q0 : win4_2.index ⟨(i 0).val / 5000, hlt⟩ (0 : Fin 2) = (i 0).val / 5000 := e4
  refine ⟨⟨(i 0).val / 5000, hlt⟩, flush4_2 _, ?_⟩
  rw [mem_blk4]
  intro a
  match a with
  | ⟨0, _⟩ => show win4_2.index ⟨(i 0).val / 5000, hlt⟩ (0 : Fin 2) * 5000 ≤ (i 0).val ∧ (i 0).val < win4_2.index ⟨(i 0).val / 5000, hlt⟩ (0 : Fin 2) * 5000 + 5000; omega
  | ⟨1, _⟩ => show win4_2.index ⟨(i 0).val / 5000, hlt⟩ (1 : Fin 2) * 128 ≤ (i 1).val ∧ (i 1).val < win4_2.index ⟨(i 0).val / 5000, hlt⟩ (1 : Fin 2) * 128 + 128; omega

/-- THE OUTPUT ARRAY after the last point is H · W. -/
theorem region4_eq (c : Dev nD) :
    (dat4 (F := Ideal) V c).arrAt 2 cfg4.N = Cert.Net.lin128 (V c main_v61) (V c main_arg6) :=
  (dat4 (F := Ideal) V c).arrAt_eq_of_cover 2 _ (fun t _ => flushed4_eq V c t) cover4

end Cert.KernelIdeal.Net

end
-- ==== Proof.LinRegion6.lean ====
/-
  The last layer's matrix product, read off the pipeline that computes it.

  The pipeline runs over 20 grid points.  At point t its body is handed block t of the layer's input array H — the
  5000 rows 5000 t … 5000 t + 4999, all 128 columns — and the WHOLE weight matrix W (128 rows, 40 columns), multiplies them,
  and its result is written back as the same 5000 rows of the output array (40 columns).  Entry (p, q) of the
  body's product is the sum over k of (block of H) (p, k) * W (k, q); the block's row p is row 5000 t + p of H,
  so this is entry (5000 t + p, q) of H · W: an output entry depends on one row of H, and that row lies in the
  one block the body sees.  The 20 row blocks tile the 100000 rows (row r lies in block r / 5000), so after the
  last point the output array is H · W everywhere.

  Reading the body's product at an index: the contraction of the body's multiplication has one axis of extent 128,
  so its sum over the contraction's index type is the sum over Fin 128; the left operand's index at contraction
  value k is (p, k) and the right operand's is (k, q).  The change of number format in front of the product is the
  identity at the ideal values, so is the cast of the block to its own shape, and the accumulator is the zero array.
-/
import proofs.«113504_j24661702214227_1_alg».proof.Proof.Gen.KernelIdeal.Frame
import proofs.«113504_j24661702214227_1_alg».proof.Proof.SpecLin
import Idealize.ShloMosaic.Lib.Pipeline.Value
import Idealize.ShloMosaic.Lib.ValueIdx
import Idealize.ShloMosaic.PureOps.Ideal.Laws

set_option maxRecDepth 16384

noncomputable section

namespace Cert.KernelIdeal.Net

open Idealize.ShloMosaic Idealize.ShloMosaic.TcCoe
open Idealize.SL.Sem
open Idealize.ShloMosaic.Pipeline (Dat Cfg Window)
open Cert.KernelIdeal Cert.KernelIdeal.Gen

/-! ## The body's product at an index -/

theorem offsets_zero6 : (![0, 0] : Fin 2 → Nat) = fun _ => 0 := funext fun a => by fin_cases a <;> rfl

/-- The left operand's index at output index `i` and contraction index `q`: row of `i`, … -/
theorem lhs6_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
/-- … column the contraction value; -/
theorem lhs6_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
/-- the right operand's: row the contraction value, … -/
theorem rhs6_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
/-- … column of `i`. -/
theorem rhs6_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The product of a [5000, 128] block with a [128, 40] matrix into the zero accumulator, at entry (p, q): the sum
    over k of block (p, k) * matrix (k, q). -/
theorem matmul6_apply (l : FVec Ideal S5000x128 .bf16) (r : FVec Ideal S128x40 .bf16) (p : Fin 5000) (q : Fin 40) :
    matmul dot_S5000x128_S128x40_S5000x40_1_0_0_1_n_n none l r (constant (F := Ideal) S5000x40 .f32 0x00000000#32) (ValueIdx.ix2 p q)
      = ∑ k : Fin 128, l (ValueIdx.ix2 p k) * r (ValueIdx.ix2 k q) := by
  refine (Ideal.matmul_constant_zero_apply dot_S5000x128_S128x40_S5000x40_1_0_0_1_n_n none l r (ValueIdx.ix2 p q)).trans ?_
  rw [← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx (ValueIdx.ix2 p q) ((ValueIdx.contrEquiv1 dot_S5000x128_S128x40_S5000x40_1_0_0_1_n_n 128 rfl rfl).symm k) = ValueIdx.ix2 p k := funext fun a => Fin.ext (by
    match a with
    | ⟨0, _⟩ => exact lhs6_0 _ _
    | ⟨1, _⟩ => exact (lhs6_1 _ _).trans hk)
  have er : dot_S5000x128_S128x40_S5000x40_1_0_0_1_n_n.rhsIdx (ValueIdx.ix2 p q) ((ValueIdx.contrEquiv1 dot_S5000x128_S128x40_S5000x40_1_0_0_1_n_n 128 rfl rfl).symm k) = ValueIdx.ix2 k q := funext fun a => Fin.ext (by
    match a with
    | ⟨0, _⟩ => exact (rhs6_0 _ _).trans hk
    | ⟨1, _⟩ => exact rhs6_1 _ _)
  rw [el, er]

/-- The body's payload at entry (p, q): the cast to the same shape and the change of format are the identity, the rest is the product. -/
theorem pay6_apply (x0 : Vec Ideal S5000x128 .f32) (x1 : Vec Ideal S128x40 .f32) (p : Fin 5000) (q : Fin 40) :
    k6_pay1 (F := Ideal) x0 x1 (ValueIdx.ix2 p q) = ∑ k : Fin 128, x0 (ValueIdx.ix2 p k) * x1 (ValueIdx.ix2 k q) := by
  unfold k6_pay1
  refine (matmul6_apply _ _ p q).trans (Finset.sum_congr rfl fun k _ => ?_)
  show shapeCast S5000x128 x0 shapeCasts_S5000x128_S5000x128 (ValueIdx.ix2 p k) * x1 (ValueIdx.ix2 k q) = _
  rw [shapeCast_self]

/-! ## From the blocks to the array -/

variable (V : (c : Dev nD) → (b : Ref sig .tc) → Buf (Elt Ideal) ((c : Thread nD τ).loc b))

/-- The printed index maps, decided over the 20 grid points: the row block of H and of the output at point `t` is
    block `t`, their column block and both block indices of W are 0. -/
theorem idx_facts6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- Entry (p, k) of the block of H at point `t` is entry (5000 t + p, k) of H. -/
theorem blk6_0_apply (c : Dev nD) (t : Fin cfg6.N) (p : Fin 5000) (k : Fin 128) (h : t.val * 5000 + p.val < 100000) :
    iblk6 V c 0 t (ValueIdx.ix2 p k) = V c main_v77 (ValueIdx.ix2 (⟨t.val * 5000 + p.val, h⟩ : Fin 100000) k) := by
  obtain ⟨e0, e1, -⟩ := idx_facts6 t
  show V c main_v77 (((cfg6.win 0).blk t).view.emb (ValueIdx.ix2 p k)) = _
  refine congrArg _ (funext fun a => Fin.ext ?_)
  match a with
  | ⟨0, _⟩ => show win6_0.index t (0 : Fin 2) * 5000 + 1 * p.val = t.val * 5000 + p.val; omega
  | ⟨1, _⟩ => show win6_0.index t (1 : Fin 2) * 128 + 1 * k.val = k.val; omega

/-- The block of W at any point is W. -/
theorem blk6_1_apply (c : Dev nD) (t : Fin cfg6.N) (k : Fin 128) (q : Fin 40) :
    iblk6 V c 1 t (ValueIdx.ix2 k q) = V c main_arg8 (ValueIdx.ix2 k q) := by
  obtain ⟨-, -, e2, e3, -⟩ := idx_facts6 t
  show V c main_arg8 (((cfg6.win 1).blk t).view.emb (ValueIdx.ix2 k q)) = _
  refine congrArg _ (funext fun a => Fin.ext ?_)
  match a with
  | ⟨0, _⟩ => show win6_1.index t (0 : Fin 2) * 128 + 1 * k.val = k.val; omega
  | ⟨1, _⟩ => show win6_1.index t (1 : Fin 2) * 40 + 1 * q.val = q.val; omega

/-- WHAT POINT `t` WRITES BACK is block `t` of H · W. -/
theorem flushed6_eq (c : Dev nD) (t : Fin cfg6.N) :
    (dat6 (F := Ideal) V c).flushed 2 t
      = ((cfg6.win 2).blk t).view.read (Elt Ideal) (Cert.Net.lin40 (V c main_v77) (V c main_arg8)) := by
  show (cfg6.win 2).cut (grid6.coords t) ((dat6 V c).after 2 t) = _
  rw [after6_2]
  unfold out6_2
  rw [View.canon_unit_zero offsets_zero6]
  simp only [View.ld_unit_zero (S := S5000x128) offsets_zero6, View.ld_unit_zero (S := S128x40) offsets_zero6]
  funext j
  obtain ⟨p, q, rfl⟩ : ∃ (p : Fin 5000) (q : Fin 40), j = ValueIdx.ix2 p q := ⟨j 0, j 1, ValueIdx.eq_ix2 j⟩
  have ht : t.val < 20 := lt_of_lt_of_eq t.isLt N_6
  have hrow : t.val * 5000 + p.val < 100000 := by have := p.isLt; omega
  obtain ⟨-, -, -, -, e4, e5⟩ := idx_facts6 t
  have hi : ((cfg6.win 2).blk t).view.emb (ValueIdx.ix2 p q) = ValueIdx.ix2 (⟨t.val * 5000 + p.val, hrow⟩ : Fin 100000) q :=
    funext fun a => Fin.ext (by
      match a with
      | ⟨0, _⟩ => show win6_2.index t (0 : Fin 2) * 5000 + 1 * p.val = t.val * 5000 + p.val; omega
      | ⟨1, _⟩ => show win6_2.index t (1 : Fin 2) * 40 + 1 * q.val = q.val; omega)
  show k6_pay1 (iblk6 V c 0 t) (iblk6 V c 1 t) (ValueIdx.ix2 p q)
    = Cert.Net.lin40 (V c main_v77) (V c main_arg8) (((cfg6.win 2).blk t).view.emb (ValueIdx.ix2 p q))
  rw [hi, Cert.Net.lin40_ix2]
  refine (pay6_apply _ _ p q).trans (Finset.sum_congr rfl fun k _ => ?_)
  rw [blk6_0_apply V c t p k hrow, blk6_1_apply V c t k q]

/-- An index of the output array is in point `t`'s block iff each coordinate is in the block's range on its axis. -/
theorem mem_blk6 (t : Fin cfg6.N) (i : S100000x40.Idx) :
    i ∈ ((cfg6.win 2).blk t).view.set ↔ ∀ a : Fin 2, win6_2.index t a * S5000x40.size a ≤ (i a).val ∧ (i a).val < win6_2.index t a * S5000x40.size a + S5000x40.size a := by
  show i ∈ ((View.whole main_v78).slice (win6_2.rect t)).set ↔ _
  rw [View.set_slice_whole, Rect.mem_set_unit]
  exact Iff.rfl

/-- The 20 row blocks tile the array: row r lies in block r / 5000. -/
theorem cover6 (i : S100000x40.Idx) :
    ∃ t : Fin cfg6.N, (cfg6.win 2).flush t = true ∧ i ∈ ((cfg6.win 2).blk t).view.set := by
  have hi0 : (i 0).val < 100000 := (i 0).isLt
  have hi1 : (i 1).val < 40 := (i 1).isLt
  have hN : cfg6.N = 20 := N_6
  have hlt : (i 0).val / 5000 < cfg6.N := by rw [hN]; omega
  obtain ⟨-, -, -, -, e4, e5⟩ := idx_facts6 ⟨(i 0).val / 5000, hlt⟩
  have q0 : win6_2.index ⟨(i 0).val / 5000, hlt⟩ (0 : Fin 2) = (i 0).val / 5000 := e4
  refine ⟨⟨(i 0).val / 5000, hlt⟩, flush6_2 _, ?_⟩
  rw [mem_blk6]
  intro a
  match a with
  | ⟨0, _⟩ => show win6_2.index ⟨(i 0).val / 5000, hlt⟩ (0 : Fin 2) * 5000 ≤ (i 0).val ∧ (i 0).val < win6_2.index ⟨(i 0).val / 5000, hlt⟩ (0 : Fin 2) * 5000 + 5000; omega
  | ⟨1, _⟩ => show win6_2.index ⟨(i 0).val / 5000, hlt⟩ (1 : Fin 2) * 40 ≤ (i 1).val ∧ (i 1).val < win6_2.index ⟨(i 0).val / 5000, hlt⟩ (1 : Fin 2) * 40 + 40; omega

/-- THE OUTPUT ARRAY after the last point is H · W. -/
theorem region6_eq (c : Dev nD) :
    (dat6 (F := Ideal) V c).arrAt 2 cfg6.N = Cert.Net.lin40 (V c main_v77) (V c main_arg8) :=
  (dat6 (F := Ideal) V c).arrAt_eq_of_cover 2 _ (fun t _ => flushed6_eq V c t) cover6

end Cert.KernelIdeal.Net

end
-- ==== Proof.LinRef.lean ====
/-
  The reference's matrix products are the linear layer of the specification.

  The reference multiplies the node-feature matrix (100000 rows, 128 columns) by a weight matrix (128 rows; 128 or 40
  columns) in one step.  At the ideal values entry (r, j) of that product is the sum, over the index type of the
  one contracted axis, of left operand times right operand at the indices the dimension numbers give; the
  contracted axis has extent 128, so the sum is over Fin 128, the left index at contraction value k is (r, k) and
  the right index is (k, j).  That is the specification's sum term by term, once the indices are written with the
  same constructor.
-/
import proofs.«113504_j24661702214227_1_alg».proof.Proof.RefRead
import proofs.«113504_j24661702214227_1_alg».proof.Proof.SpecLin

noncomputable section

namespace Cert.ReferenceIdeal.Net

open Idealize.ShloMosaic
open Cert.ReferenceIdeal

/-- The product with a [128, 128] weight matrix. -/
theorem dot128_eq (X : FVec Ideal S100000x128 .f32) (Wt : FVec Ideal S128x128 .f32) :
    Host.dotGeneral dot_S100000x128_S128x128_S100000x128_1_0_0_1_n_n none X Wt = Cert.Net.lin128 X Wt := by
  funext i
  refine (ReadP.val_main_v30_apply X Wt i).trans ?_
  show _ = ∑ k : Fin 128, X (ValueIdx.ix2 (⟨(i 0).val, (i 0).isLt⟩ : Fin 100000) k)
    * Wt (ValueIdx.ix2 k (⟨(i 1).val, (i 1).isLt⟩ : Fin 128))
  refine Finset.sum_congr rfl fun k _ => ?_
  have el : ReadP.lidx_main_v30 i k = ValueIdx.ix2 (⟨(i 0).val, (i 0).isLt⟩ : Fin 100000) k :=
    funext fun a => by match a with | ⟨0, _⟩ => rfl | ⟨1, _⟩ => rfl
  have er : ReadP.ridx_main_v30 i k = ValueIdx.ix2 k (⟨(i 1).val, (i 1).isLt⟩ : Fin 128) :=
    funext fun a => by match a with | ⟨0, _⟩ => rfl | ⟨1, _⟩ => rfl
  rw [el, er]

/-- The product with a [128, 40] weight matrix: the same reading, for the last layer's dimension numbers. -/
theorem dot40_eq (X : FVec Ideal S100000x128 .f32) (Wt : FVec Ideal S128x40 .f32) :
    Host.dotGeneral dot_S100000x128_S128x40_S100000x40_1_0_0_1_n_n none X Wt = Cert.Net.lin40 X Wt := by
  funext i
  simp only [Host.dotGeneral]
  rw [Ideal.dotGeneral_apply, ← Equiv.sum_comp (ValueIdx.contrEquiv1 dot_S100000x128_S128x40_S100000x40_1_0_0_1_n_n 128 rfl rfl).symm]
  show _ = ∑ k : Fin 128, X (ValueIdx.ix2 (⟨(i 0).val, (i 0).isLt⟩ : Fin 100000) k)
    * Wt (ValueIdx.ix2 k (⟨(i 1).val, (i 1).isLt⟩ : Fin 40))
  refine Finset.sum_congr rfl fun k _ => ?_
  have hk := ValueIdx.contrEquiv1_symm_val dot_S100000x128_S128x40_S100000x40_1_0_0_1_n_n 128 rfl rfl k
  have el : dot_S100000x128_S128x40_S100000x40_1_0_0_1_n_n.lhsIdx i ((ValueIdx.contrEquiv1 dot_S100000x128_S128x40_S100000x40_1_0_0_1_n_n 128 rfl rfl).symm k)
      = ValueIdx.ix2 (⟨(i 0).val, (i 0).isLt⟩ : Fin 100000) k := funext fun a => Fin.ext (by
    match a with
    | ⟨0, _⟩ => exact ReadP.lhs_main_v84_0 _ _
    | ⟨1, _⟩ => exact (ReadP.lhs_main_v84_1 _ _).trans hk)
  have er : dot_S100000x128_S128x40_S100000x40_1_0_0_1_n_n.rhsIdx i ((ValueIdx.contrEquiv1 dot_S100000x128_S128x40_S100000x40_1_0_0_1_n_n 128 rfl rfl).symm k)
      = ValueIdx.ix2 k (⟨(i 1).val, (i 1).isLt⟩ : Fin 40) := funext fun a => Fin.ext (by
    match a with
    | ⟨0, _⟩ => exact (ReadP.rhs_main_v84_0 _ _).trans hk
    | ⟨1, _⟩ => exact ReadP.rhs_main_v84_1 _ _)
  rw [el, er]

end Cert.ReferenceIdeal.Net

end
-- ==== Proof.SpecBias.lean ====
/-
  The bias-add + relu step of a layer, as one function of two arrays, index by index.

  X is the node-feature array [100000, 128]; B is the layer's bias held as a one-row matrix [1, 128].  Entry
  (r, j) of the result is  max (X (r, j) + B (0, j)) z,  where z is the extended real that the 32-bit zero word
  encodes.  The entry at (r, j) depends on exactly one entry of X, the one at the same place, and on exactly one
  entry of B, the one in its only row at the same column j; nothing else is read.  The zero word is kept as a word:
  it stands unchanged on both sides of every equation below and is never evaluated.
-/
import proofs.«113504_j24661702214227_1_alg».proof.Proof.Shapes

noncomputable section

namespace Cert.Net

open Idealize.ShloMosaic

/-- Bias-add then relu: entry (r, j) is max (X (r, j) + B (0, j)) z, z the value of the f32 zero word. -/
def biasRelu (X : SX.Idx → EReal) (B : SB.Idx → EReal) : SX.Idx → EReal :=
  fun i => max (X i + B (ValueIdx.ix2 (0 : Fin 1) (⟨(i 1).val, (i 1).isLt⟩ : Fin 128)))
    (Ideal.ofBits .f32 0x00000000#32)

/-- The same at an index given by its two coordinates: row r, column j. -/
theorem biasRelu_ix2 (X : SX.Idx → EReal) (B : SB.Idx → EReal) (r : Fin 100000) (j : Fin 128) :
    biasRelu X B (ValueIdx.ix2 r j)
      = max (X (ValueIdx.ix2 r j) + B (ValueIdx.ix2 (0 : Fin 1) j)) (Ideal.ofBits .f32 0x00000000#32) := rfl

end Cert.Net

end
-- ==== Proof.BiasRegion1.lean ====
/-
  The bias-add + relu region, blocks to array.

  The region walks 20 grid points.  At point t it sees rows 5000·t … 5000·t + 4999 of the feature array X
  (a [5000, 128] block), the whole one-row bias matrix B ([1, 128], the same block at every point), and it writes
  the [5000, 128] block of the output that sits on the same rows.  Inside a block, entry (p, q) of what is written is
  max (x (p, q) + b (0, q)) z  with x the X-block, b the bias row and z the value of the zero word: the identity
  casts change nothing, and the row broadcast [1, 128] → [5000, 128] reads the bias row at the column q.  Entry
  (p, q) of block t is entry (5000·t + p, q) of the array, so each written entry depends on the X-entry at the same
  place and on the bias entry of the same column, and on nothing else.  The 20 blocks tile the 100000 rows (row r
  lies in block r / 5000), so after the last point the output array is biasRelu X B everywhere.
-/
import proofs.«113504_j24661702214227_1_alg».proof.Proof.Gen.KernelIdeal.Frame
import proofs.«113504_j24661702214227_1_alg».proof.Proof.SpecBias
import Idealize.ShloMosaic.Lib.Pipeline.Value
import Idealize.ShloMosaic.Lib.ValueLayout

noncomputable section

namespace Cert.KernelIdeal.Net

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's loads and its one store start at the block's origin. -/
theorem origin1 : (![0, 0] : Fin 2 → Nat) = fun _ => 0 := funext fun a => by fin_cases a <;> rfl

/-- The payload at entry (p, q) of a block: the X-block's entry there plus the bias row's entry at column q,
    then the maximum with the zero word's value. -/
theorem pay1_apply (x0 : Vec Ideal S5000x128 .f32) (x1 : Vec Ideal S1x128 .f32) (p : Fin 5000) (q : Fin 128) :
    k1_pay1 x0 x1 (ix2 p q)
      = max (x0 (ix2 p q) + x1 (ix2 (0 : Fin 1) q)) (Ideal.ofBits .f32 0x00000000#32) := by
  unfold k1_pay1
  show max (shapeCast S5000x128 x0 shapeCasts_S5000x128_S5000x128 (ix2 p q)
      + broadcastTo S5000x128 (shapeCast S1x128 x1 shapeCasts_S1x128_S1x128) broadcasts_S1x128_S5000x128 (ix2 p q))
      (Ideal.ofBits .f32 0x00000000#32) = _
  rw [shapeCast_self, shapeCast_self, broadcastTo_1b_ab_apply]

/-- One written entry against the specification: when the X-block's entry (p, q) is the array's entry at i,
    the bias block is the bias array on its one row, and i's column is q. -/
theorem point1_eq (X : S100000x128.Idx → EReal) (B : S1x128.Idx → EReal)
    (x0 : Vec Ideal S5000x128 .f32) (x1 : Vec Ideal S1x128 .f32) (i : S100000x128.Idx) (p : Fin 5000) (q : Fin 128)
    (h0 : x0 (ix2 p q) = X i) (h1 : x1 (ix2 (0 : Fin 1) q) = B (ix2 (0 : Fin 1) q)) (hi : (i 1).val = q.val) :
    k1_pay1 x0 x1 (ix2 p q) = Cert.Net.biasRelu X B i := by
  rw [pay1_apply, h0, h1]
  have hq : (⟨(i 1).val, (i 1).isLt⟩ : Fin 128) = q := Fin.ext hi
  show _ = max (X i + B (ix2 (0 : Fin 1) (⟨(i 1).val, (i 1).isLt⟩ : Fin 128))) (Ideal.ofBits .f32 0x00000000#32)
  rw [hq]

/-- The printed index maps over the 20 grid points: the X-block and the output block sit at block row t, column
    block 0; the bias block is always block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of biasRelu of the two arrays as the region finds them. -/
theorem flushed1_eq (c : Dev nD) (t : Fin cfg1.N) :
    (dat1 (F := Ideal) V c).flushed 2 t
      = ((cfg1.win 2).blk t).view.read (Elt Ideal) (Cert.Net.biasRelu (V c main_v43) (V c main_v44)) := by
  show (cfg1.win 2).cut (grid1.coords t) ((dat1 V c).after 2 t) = _
  rw [after1_2]
  unfold out1_2
  rw [View.canon_unit_zero origin1]
  simp only [View.ld_unit_zero (S := S5000x128) origin1, View.ld_unit_zero (S := S1x128) origin1]
  obtain ⟨e0, e1, e2, e3, e4, e5⟩ := idx_facts1 t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = Cert.Net.biasRelu (V c main_v43) (V c main_v44) (((cfg1.win 2).blk t).view.emb (ix2 p q))
  refine point1_eq (V c main_v43) (V c main_v44) (iblk1 V c 0 t) (iblk1 V c 1 t)
    (((cfg1.win 2).blk t).view.emb (ix2 p q)) p q ?_ ?_ ?_
  · show V c main_v43 (((cfg1.win 0).blk t).view.emb (ix2 p q)) = V c main_v43 (((cfg1.win 2).blk t).view.emb (ix2 p q))
    refine congrArg (V c main_v43) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  · show V c main_v44 (((cfg1.win 1).blk t).view.emb (ix2 (0 : Fin 1) q)) = V c main_v44 (ix2 (0 : Fin 1) q)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · show win1_2.index t (1 : Fin 2) * 128 + 1 * q.val = q.val
    omega

/-- An index of the output array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Every index of the output array is in some point's block: row r is in block r / 5000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 5000 < grid1.N := by rw [N_1]; omega
  obtain ⟨t, ht⟩ : ∃ t : Fin cfg1.N, t.val = (i 0).val / 5000 := ⟨⟨(i 0).val / 5000, hlt⟩, rfl⟩
  obtain ⟨e0, e1, e2, e3, e4, e5⟩ := idx_facts1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The output array after the region's 20 points is biasRelu of the feature array and the bias row. -/
theorem region1_eq (c : Dev nD) :
    (dat1 (F := Ideal) V c).arrAt 2 cfg1.N = Cert.Net.biasRelu (V c main_v43) (V c main_v44) :=
  (dat1 (F := Ideal) V c).arrAt_eq_of_cover 2 (Cert.Net.biasRelu (V c main_v43) (V c main_v44))
    (fun t _ => flushed1_eq V c t) cover1

end Cert.KernelIdeal.Net

end
-- ==== Proof.BiasRegion3.lean ====
/-
  The bias-add + relu region, blocks to array.

  The region walks 20 grid points.  At point t it sees rows 5000·t … 5000·t + 4999 of the feature array X
  (a [5000, 128] block), the whole one-row bias matrix B ([1, 128], the same block at every point), and it writes
  the [5000, 128] block of the output that sits on the same rows.  Inside a block, entry (p, q) of what is written is
  max (x (p, q) + b (0, q)) z  with x the X-block, b the bias row and z the value of the zero word: the identity
  casts change nothing, and the row broadcast [1, 128] → [5000, 128] reads the bias row at the column q.  Entry
  (p, q) of block t is entry (5000·t + p, q) of the array, so each written entry depends on the X-entry at the same
  place and on the bias entry of the same column, and on nothing else.  The 20 blocks tile the 100000 rows (row r
  lies in block r / 5000), so after the last point the output array is biasRelu X B everywhere.
-/
import proofs.«113504_j24661702214227_1_alg».proof.Proof.Gen.KernelIdeal.Frame
import proofs.«113504_j24661702214227_1_alg».proof.Proof.SpecBias
import Idealize.ShloMosaic.Lib.Pipeline.Value
import Idealize.ShloMosaic.Lib.ValueLayout

noncomputable section

namespace Cert.KernelIdeal.Net

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's loads and its one store start at the block's origin. -/
theorem origin3 : (![0, 0] : Fin 2 → Nat) = fun _ => 0 := funext fun a => by fin_cases a <;> rfl

/-- The payload at entry (p, q) of a block: the X-block's entry there plus the bias row's entry at column q,
    then the maximum with the zero word's value. -/
theorem pay3_apply (x0 : Vec Ideal S5000x128 .f32) (x1 : Vec Ideal S1x128 .f32) (p : Fin 5000) (q : Fin 128) :
    k3_pay1 x0 x1 (ix2 p q)
      = max (x0 (ix2 p q) + x1 (ix2 (0 : Fin 1) q)) (Ideal.ofBits .f32 0x00000000#32) := by
  unfold k3_pay1
  show max (shapeCast S5000x128 x0 shapeCasts_S5000x128_S5000x128 (ix2 p q)
      + broadcastTo S5000x128 (shapeCast S1x128 x1 shapeCasts_S1x128_S1x128) broadcasts_S1x128_S5000x128 (ix2 p q))
      (Ideal.ofBits .f32 0x00000000#32) = _
  rw [shapeCast_self, shapeCast_self, broadcastTo_1b_ab_apply]

/-- One written entry against the specification: when the X-block's entry (p, q) is the array's entry at i,
    the bias block is the bias array on its one row, and i's column is q. -/
theorem point3_eq (X : S100000x128.Idx → EReal) (B : S1x128.Idx → EReal)
    (x0 : Vec Ideal S5000x128 .f32) (x1 : Vec Ideal S1x128 .f32) (i : S100000x128.Idx) (p : Fin 5000) (q : Fin 128)
    (h0 : x0 (ix2 p q) = X i) (h1 : x1 (ix2 (0 : Fin 1) q) = B (ix2 (0 : Fin 1) q)) (hi : (i 1).val = q.val) :
    k3_pay1 x0 x1 (ix2 p q) = Cert.Net.biasRelu X B i := by
  rw [pay3_apply, h0, h1]
  have hq : (⟨(i 1).val, (i 1).isLt⟩ : Fin 128) = q := Fin.ext hi
  show _ = max (X i + B (ix2 (0 : Fin 1) (⟨(i 1).val, (i 1).isLt⟩ : Fin 128))) (Ideal.ofBits .f32 0x00000000#32)
  rw [hq]

/-- The printed index maps over the 20 grid points: the X-block and the output block sit at block row t, column
    block 0; the bias block is always block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of biasRelu of the two arrays as the region finds them. -/
theorem flushed3_eq (c : Dev nD) (t : Fin cfg3.N) :
    (dat3 (F := Ideal) V c).flushed 2 t
      = ((cfg3.win 2).blk t).view.read (Elt Ideal) (Cert.Net.biasRelu (V c main_v59) (V c main_v60)) := by
  show (cfg3.win 2).cut (grid3.coords t) ((dat3 V c).after 2 t) = _
  rw [after3_2]
  unfold out3_2
  rw [View.canon_unit_zero origin3]
  simp only [View.ld_unit_zero (S := S5000x128) origin3, View.ld_unit_zero (S := S1x128) origin3]
  obtain ⟨e0, e1, e2, e3, e4, e5⟩ := idx_facts3 t
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
    = Cert.Net.biasRelu (V c main_v59) (V c main_v60) (((cfg3.win 2).blk t).view.emb (ix2 p q))
  refine point3_eq (V c main_v59) (V c main_v60) (iblk3 V c 0 t) (iblk3 V c 1 t)
    (((cfg3.win 2).blk t).view.emb (ix2 p q)) p q ?_ ?_ ?_
  · show V c main_v59 (((cfg3.win 0).blk t).view.emb (ix2 p q)) = V c main_v59 (((cfg3.win 2).blk t).view.emb (ix2 p q))
    refine congrArg (V c main_v59) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  · show V c main_v60 (((cfg3.win 1).blk t).view.emb (ix2 (0 : Fin 1) q)) = V c main_v60 (ix2 (0 : Fin 1) q)
    refine congrArg (V c main_v60) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · show win3_2.index t (1 : Fin 2) * 128 + 1 * q.val = q.val
    omega

/-- An index of the output array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v61).slice (win3_2.rect t)).set ↔ _
  rw [View.set_slice_whole, Rect.mem_set_unit]
  exact Iff.rfl

/-- Every index of the output array is in some point's block: row r is in block r / 5000. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hlt : (i 0).val / 5000 < grid3.N := by rw [N_3]; omega
  obtain ⟨t, ht⟩ : ∃ t : Fin cfg3.N, t.val = (i 0).val / 5000 := ⟨⟨(i 0).val / 5000, hlt⟩, rfl⟩
  obtain ⟨e0, e1, e2, e3, e4, e5⟩ := idx_facts3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- The output array after the region's 20 points is biasRelu of the feature array and the bias row. -/
theorem region3_eq (c : Dev nD) :
    (dat3 (F := Ideal) V c).arrAt 2 cfg3.N = Cert.Net.biasRelu (V c main_v59) (V c main_v60) :=
  (dat3 (F := Ideal) V c).arrAt_eq_of_cover 2 (Cert.Net.biasRelu (V c main_v59) (V c main_v60))
    (fun t _ => flushed3_eq V c t) cover3

end Cert.KernelIdeal.Net

end
-- ==== Proof.BiasRegion5.lean ====
/-
  The bias-add + relu region, blocks to array.

  The region walks 20 grid points.  At point t it sees rows 5000·t … 5000·t + 4999 of the feature array X
  (a [5000, 128] block), the whole one-row bias matrix B ([1, 128], the same block at every point), and it writes
  the [5000, 128] block of the output that sits on the same rows.  Inside a block, entry (p, q) of what is written is
  max (x (p, q) + b (0, q)) z  with x the X-block, b the bias row and z the value of the zero word: the identity
  casts change nothing, and the row broadcast [1, 128] → [5000, 128] reads the bias row at the column q.  Entry
  (p, q) of block t is entry (5000·t + p, q) of the array, so each written entry depends on the X-entry at the same
  place and on the bias entry of the same column, and on nothing else.  The 20 blocks tile the 100000 rows (row r
  lies in block r / 5000), so after the last point the output array is biasRelu X B everywhere.
-/
import proofs.«113504_j24661702214227_1_alg».proof.Proof.Gen.KernelIdeal.Frame
import proofs.«113504_j24661702214227_1_alg».proof.Proof.SpecBias
import Idealize.ShloMosaic.Lib.Pipeline.Value
import Idealize.ShloMosaic.Lib.ValueLayout

noncomputable section

namespace Cert.KernelIdeal.Net

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's loads and its one store start at the block's origin. -/
theorem origin5 : (![0, 0] : Fin 2 → Nat) = fun _ => 0 := funext fun a => by fin_cases a <;> rfl

/-- The payload at entry (p, q) of a block: the X-block's entry there plus the bias row's entry at column q,
    then the maximum with the zero word's value. -/
theorem pay5_apply (x0 : Vec Ideal S5000x128 .f32) (x1 : Vec Ideal S1x128 .f32) (p : Fin 5000) (q : Fin 128) :
    k5_pay1 x0 x1 (ix2 p q)
      = max (x0 (ix2 p q) + x1 (ix2 (0 : Fin 1) q)) (Ideal.ofBits .f32 0x00000000#32) := by
  unfold k5_pay1
  show max (shapeCast S5000x128 x0 shapeCasts_S5000x128_S5000x128 (ix2 p q)
      + broadcastTo S5000x128 (shapeCast S1x128 x1 shapeCasts_S1x128_S1x128) broadcasts_S1x128_S5000x128 (ix2 p q))
      (Ideal.ofBits .f32 0x00000000#32) = _
  rw [shapeCast_self, shapeCast_self, broadcastTo_1b_ab_apply]

/-- One written entry against the specification: when the X-block's entry (p, q) is the array's entry at i,
    the bias block is the bias array on its one row, and i's column is q. -/
theorem point5_eq (X : S100000x128.Idx → EReal) (B : S1x128.Idx → EReal)
    (x0 : Vec Ideal S5000x128 .f32) (x1 : Vec Ideal S1x128 .f32) (i : S100000x128.Idx) (p : Fin 5000) (q : Fin 128)
    (h0 : x0 (ix2 p q) = X i) (h1 : x1 (ix2 (0 : Fin 1) q) = B (ix2 (0 : Fin 1) q)) (hi : (i 1).val = q.val) :
    k5_pay1 x0 x1 (ix2 p q) = Cert.Net.biasRelu X B i := by
  rw [pay5_apply, h0, h1]
  have hq : (⟨(i 1).val, (i 1).isLt⟩ : Fin 128) = q := Fin.ext hi
  show _ = max (X i + B (ix2 (0 : Fin 1) (⟨(i 1).val, (i 1).isLt⟩ : Fin 128))) (Ideal.ofBits .f32 0x00000000#32)
  rw [hq]

/-- The printed index maps over the 20 grid points: the X-block and the output block sit at block row t, column
    block 0; the bias block is always block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of biasRelu of the two arrays as the region finds them. -/
theorem flushed5_eq (c : Dev nD) (t : Fin cfg5.N) :
    (dat5 (F := Ideal) V c).flushed 2 t
      = ((cfg5.win 2).blk t).view.read (Elt Ideal) (Cert.Net.biasRelu (V c main_v75) (V c main_v76)) := by
  show (cfg5.win 2).cut (grid5.coords t) ((dat5 V c).after 2 t) = _
  rw [after5_2]
  unfold out5_2
  rw [View.canon_unit_zero origin5]
  simp only [View.ld_unit_zero (S := S5000x128) origin5, View.ld_unit_zero (S := S1x128) origin5]
  obtain ⟨e0, e1, e2, e3, e4, e5⟩ := idx_facts5 t
  funext j
  obtain ⟨p, q, rfl⟩ : ∃ (p : Fin 5000) (q : Fin 128), j = ix2 p q := ⟨j 0, j 1, eq_ix2 j⟩
  show k5_pay1 (iblk5 V c 0 t) (iblk5 V c 1 t) (ix2 p q)
    = Cert.Net.biasRelu (V c main_v75) (V c main_v76) (((cfg5.win 2).blk t).view.emb (ix2 p q))
  refine point5_eq (V c main_v75) (V c main_v76) (iblk5 V c 0 t) (iblk5 V c 1 t)
    (((cfg5.win 2).blk t).view.emb (ix2 p q)) p q ?_ ?_ ?_
  · show V c main_v75 (((cfg5.win 0).blk t).view.emb (ix2 p q)) = V c main_v75 (((cfg5.win 2).blk t).view.emb (ix2 p q))
    refine congrArg (V c main_v75) (funext fun a => Fin.ext ?_)
    match a with
    | ⟨0, _⟩ => show win5_0.index t (0 : Fin 2) * 5000 + 1 * p.val = win5_2.index t (0 : Fin 2) * 5000 + 1 * p.val; omega
    | ⟨1, _⟩ => show win5_0.index t (1 : Fin 2) * 128 + 1 * q.val = win5_2.index t (1 : Fin 2) * 128 + 1 * q.val; omega
  · show V c main_v76 (((cfg5.win 1).blk t).view.emb (ix2 (0 : Fin 1) q)) = V c main_v76 (ix2 (0 : Fin 1) q)
    refine congrArg (V c main_v76) (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  · show win5_2.index t (1 : Fin 2) * 128 + 1 * q.val = q.val
    omega

/-- An index of the output array is in point t's block iff each coordinate is in the block's range on its axis. -/
theorem mem_blk5 (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v77).slice (win5_2.rect t)).set ↔ _
  rw [View.set_slice_whole, Rect.mem_set_unit]
  exact Iff.rfl

/-- Every index of the output array is in some point's block: row r is in block r / 5000. -/
theorem cover5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hlt : (i 0).val / 5000 < grid5.N := by rw [N_5]; omega
  obtain ⟨t, ht⟩ : ∃ t : Fin cfg5.N, t.val = (i 0).val / 5000 := ⟨⟨(i 0).val / 5000, hlt⟩, rfl⟩
  obtain ⟨e0, e1, e2, e3, e4, e5⟩ := idx_facts5 t
  refine ⟨t, flush5_2 t, ?_⟩
  rw [mem_blk5]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 128 ≤ (i 1).val ∧ (i 1).val < win5_2.index t (1 : Fin 2) * 128 + 128
    omega

/-- The output array after the region's 20 points is biasRelu of the feature array and the bias row. -/
theorem region5_eq (c : Dev nD) :
    (dat5 (F := Ideal) V c).arrAt 2 cfg5.N = Cert.Net.biasRelu (V c main_v75) (V c main_v76) :=
  (dat5 (F := Ideal) V c).arrAt_eq_of_cover 2 (Cert.Net.biasRelu (V c main_v75) (V c main_v76))
    (fun t _ => flushed5_eq V c t) cover5

end Cert.KernelIdeal.Net

end
-- ==== Proof.BiasRef.lean ====
/-
  The reference's bias-add + relu, read index by index.

  The reference holds the bias as a vector [128]; it first makes it a one-row matrix [1, 128] (entry (0, j) is the
  vector's entry j), broadcasts that row over the 100000 rows, adds the result to the feature array X, and takes
  the maximum with a constant array that holds the value of the zero word everywhere.  So entry (r, j) of the
  result is  max (X (r, j) + row (0, j)) z  with row the one-row matrix: exactly the specification biasRelu X row.
  The entry depends on X at the same place and on the row at the same column only.
-/
import proofs.«113504_j24661702214227_1_alg».proof.Proof.RefRead
import proofs.«113504_j24661702214227_1_alg».proof.Proof.SpecBias

noncomputable section

namespace Cert.ReferenceIdeal.Net

open Cert.ReferenceIdeal Idealize.ShloMosaic Idealize.ShloMosaic.ValueIdx

/-- The row broadcast [1, 128] → [100000, 128] at (r, j) reads the row at (0, j). -/
theorem rowBroadcast_apply (y : FVec Ideal S1x128 .f32) (h01 : S1x128.BroadcastsInDim S100000x128 ![0, 1])
    (i : S100000x128.Idx) :
    broadcastInDim S100000x128 ![0, 1] h01 y i = y (ix2 (0 : Fin 1) (⟨(i 1).val, (i 1).isLt⟩ : Fin 128)) :=
  broadcastInDim_apply _ h01 y i (ix2 (0 : Fin 1) (⟨(i 1).val, (i 1).isLt⟩ : Fin 128)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- A scalar broadcast over the whole array reads the scalar everywhere. -/
theorem scalarBroadcast_apply (y : FVec Ideal S_ .f32) (h0 : S_.BroadcastsInDim S100000x128 ![])
    (i : S100000x128.Idx) : broadcastInDim S100000x128 ![] h0 y i = y ix0 :=
  broadcastInDim_apply _ h0 y i ix0 (fun a => a.elim0)

/-- The reference's add of the broadcast bias row and maximum with the zero constant is biasRelu of the feature
    array and the bias row; stated for any proofs of the three broadcasts' side conditions. -/
theorem biasRelu_eq (X : FVec Ideal S100000x128 .f32) (b : FVec Ideal S128 .f32)
    (h01 : S1x128.BroadcastsInDim S100000x128 ![0, 1]) (h1 : S128.BroadcastsInDim S1x128 ![1])
    (h0 : S_.BroadcastsInDim S100000x128 ![]) :
    maximumf (addf X (broadcastInDim S100000x128 ![0, 1] h01 (broadcastInDim S1x128 ![1] h1 b)))
        (broadcastInDim S100000x128 ![] h0 (constant (F := Ideal) S_ .f32 0x00000000#32))
      = Cert.Net.biasRelu X (broadcastInDim S1x128 ![1] h1 b) := by
  funext i
  show max (X i + broadcastInDim S100000x128 ![0, 1] h01 (broadcastInDim S1x128 ![1] h1 b) i)
      (broadcastInDim S100000x128 ![] h0 (constant (F := Ideal) S_ .f32 0x00000000#32) i)
    = max (X i + broadcastInDim S1x128 ![1] h1 b (ix2 (0 : Fin 1) (⟨(i 1).val, (i 1).isLt⟩ : Fin 128)))
      (Ideal.ofBits .f32 0x00000000#32)
  rw [rowBroadcast_apply, scalarBroadcast_apply]
  rfl

end Cert.ReferenceIdeal.Net

end
-- ==== Proof.BiasRow.lean ====
/-
  A bias vector as a one-row matrix, in the two spellings the two programs use.

  One program reshapes the vector b of length n into the matrix [1, n]: the two have the same entries in the same
  row-major order, so entry (0, j) of the matrix is b j.  The other program broadcasts b into [1, n] along the
  second axis: entry (u, j) of the result is b j by definition of the broadcast (the length n is not 1, so the
  vector's own axis is not a unit axis that would be read at 0).  Both matrices therefore hold b j at (0, j), for
  n = 128 and for n = 40, and are equal.  Each statement is for any proofs of the two operations' side conditions.
-/
import proofs.«113504_j24661702214227_1_alg».proof.KernelIdeal
import proofs.«113504_j24661702214227_1_alg».proof.ReferenceIdeal
import Idealize.ShloMosaic.Lib.ValueLayout

noncomputable section

namespace Cert.Net

open Idealize.ShloMosaic Idealize.ShloMosaic.ValueIdx

/-- The reshape [128] → [1, 128] and the broadcast of [128] into [1, 128] along axis 1 give the same matrix. -/
theorem row128_eq (b : FVec Ideal Cert.KernelIdeal.S128 .f32)
    (hc : Cert.KernelIdeal.S128.ShapeCasts Cert.KernelIdeal.S1x128)
    (hb : Cert.ReferenceIdeal.S128.BroadcastsInDim Cert.ReferenceIdeal.S1x128 ![1]) :
    shapeCast Cert.KernelIdeal.S1x128 b hc = broadcastInDim Cert.ReferenceIdeal.S1x128 ![1] hb b := by
  funext i
  obtain ⟨u, j, rfl⟩ : ∃ (u : Fin 1) (j : Fin 128), i = ix2 u j := ⟨i 0, i 1, eq_ix2 i⟩
  refine (shapeCast_a_1a_apply b hc u j).trans ?_
  exact (broadcastInDim_apply _ hb b (ix2 u j) (ix1 j) (fun a => match a with
    | ⟨0, _⟩ => by show j.val = if (128 : Nat) = 1 then 0 else j.val; rw [if_neg (by decide)])).symm

/-- The reshape [40] → [1, 40] and the broadcast of [40] into [1, 40] along axis 1 give the same matrix. -/
theorem row40_eq (b : FVec Ideal Cert.KernelIdeal.S40 .f32)
    (hc : Cert.KernelIdeal.S40.ShapeCasts Cert.KernelIdeal.S1x40)
    (hb : Cert.ReferenceIdeal.S40.BroadcastsInDim Cert.ReferenceIdeal.S1x40 ![1]) :
    shapeCast Cert.KernelIdeal.S1x40 b hc = broadcastInDim Cert.ReferenceIdeal.S1x40 ![1] hb b := by
  funext i
  obtain ⟨u, j, rfl⟩ : ∃ (u : Fin 1) (j : Fin 40), i = ix2 u j := ⟨i 0, i 1, eq_ix2 i⟩
  refine (shapeCast_a_1a_apply b hc u j).trans ?_
  exact (broadcastInDim_apply _ hb b (ix2 u j) (ix1 j) (fun a => match a with
    | ⟨0, _⟩ => by show j.val = if (40 : Nat) = 1 then 0 else j.val; rw [if_neg (by decide)])).symm

end Cert.Net

end
-- ==== Proof.SpecLsm.lean ====
/-
  The last stage of the network as one function of its two operands, index by index.

  For a matrix `X` of 100000 rows and 40 columns and a one-row matrix `B` of 40 columns, row `r` has the logits
  `z k = X (r, k) + B (0, k)`, `k` over the 40 classes.  Their maximum `mx` is the fold of `max` over the 40 classes
  started from the value of the word 0xFF800000 (minus infinity).  Entry `(r, j)` of the result is the log-softmax of
  the row in its shifted form,
      (z j - mx) - log (∑ k, exp (z k - mx)).
  An entry therefore depends on the whole row `r` of `X`, on all of `B`, and on nothing else.

  The row function is stated apart (`lsmRow`, over any 40 logits) so that a block of rows and the whole array can be
  compared through it: both read a row of logits and apply the same function to it.
-/
import proofs.«113504_j24661702214227_1_alg».proof.Proof.Shapes

noncomputable section

open scoped BigOperators

namespace Cert.Net

open Idealize.ShloMosaic Idealize.ShloMosaic.ValueIdx

/-- The maximum of 40 logits: the fold of `max` from minus infinity (the value of the word 0xFF800000). -/
def rowMax (z : Fin 40 → EReal) : EReal :=
  (Finset.univ : Finset (Fin 40)).fold max (Ideal.ofBits .f32 0xFF800000#32) z

/-- The log-softmax of 40 logits at class `j`, shifted by their maximum. -/
def lsmRow (z : Fin 40 → EReal) (j : Fin 40) : EReal :=
  (z j - rowMax z) - Ideal.log (∑ k : Fin 40, Ideal.exp (z k - rowMax z))

/-- The logits of row `r`: the row of `X` plus the one row of `B`. -/
def logits (X : SY.Idx → EReal) (B : SB4.Idx → EReal) (r : Fin 100000) : Fin 40 → EReal :=
  fun k => X (ix2 r k) + B (ix2 (0 : Fin 1) k)

/-- Bias-add followed by a row-wise log-softmax: entry `(r, j)` is `lsmRow` of row `r`'s logits at `j`. -/
def logSoftmaxBias (X : SY.Idx → EReal) (B : SB4.Idx → EReal) : SY.Idx → EReal :=
  fun i => lsmRow (logits X B ⟨(i 0).val, (i 0).isLt⟩) ⟨(i 1).val, (i 1).isLt⟩

/-- The same entry with the index given by its two coordinates. -/
theorem logSoftmaxBias_ix2 (X : SY.Idx → EReal) (B : SB4.Idx → EReal) (r : Fin 100000) (j : Fin 40) :
    logSoftmaxBias X B (ix2 r j) = lsmRow (logits X B r) j := rfl

end Cert.Net

end
-- ==== Proof.LibKeepdims.lean ====
/-
  Layout facts for a row-wise reduction that keeps its axis as a unit axis.

  A reduction of an [a, b] matrix along its columns gives a vector [a].  The kernel then views the vector as a column
  [a, 1] (a shape cast: entry (p, 0) is entry p of the vector) and spreads the column over the b columns again (a
  broadcast: entry (p, c) is entry (p, 0) of the column).  The reduced index p with column k put back is (p, k).
  These three facts are stated here for any extents, with every index written by its coordinates; the reference writes
  the same two layout steps (and the spreading of the one bias row over all rows) as `broadcast_in_dim`, read likewise.
-/
import Idealize.ShloMosaic.Lib.ValueLayout
import Idealize.ShloMosaic.PureOps.Ideal.Laws

namespace Cert.Net

open Idealize.ShloMosaic Idealize.ShloMosaic.ValueIdx

variable {α : Type}

/-- An `[a]` vector cast to a column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `p` of a reduction along the columns, with column `k` put back, is `(p, k)`. -/
theorem lift_cols_ix2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-! ## The same three facts for the reference's `broadcast_in_dim` -/

/-- A vector `[a]` laid along the rows of a column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` spread over `b` columns reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => show 0 = if (1 : ℕ) = 1 then 0 else c.val; rw [if_pos rfl]

/-- One row `[1, b]` spread over `a` rows reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => show 0 = if (1 : ℕ) = 1 then 0 else p.val; rw [if_pos rfl]
  | ⟨1, _⟩ =>
    show c.val = if b = 1 then 0 else c.val
    split
    · have := c.isLt; omega
    · rfl

end Cert.Net
-- ==== Proof.LsmRegion7.lean ====
/-
  The last kernel of the network: bias-add followed by a row-wise log-softmax, over 100000 rows of 40 classes.

  The kernel runs over a grid of 20 points.  At point `t` it is handed rows `5000 t … 5000 t + 4999` of its first
  operand (a [5000, 40] block), the whole one-row second operand (the bias, [1, 40]), and it writes rows
  `5000 t … 5000 t + 4999` of its output.  The body adds the bias row to every row of the block, takes each row's
  maximum over the 40 lanes (started from minus infinity), subtracts it, exponentiates, sums each row over the 40
  lanes, takes the logarithm of the sum and subtracts that too.  So entry `(p, q)` of the output block depends on row
  `p` of the input block and on the bias, and on nothing else; since row `p` of block `t` is row `5000 t + p` of the
  array, block `t` of the output is block `t` of ONE function of the two operand arrays, `Cert.Net.logSoftmaxBias`.
  The 20 output blocks tile the array (row `r` lies in block `r / 5000`), so the array ends holding that function.

  The first half of the module reads the body's value at an entry; the second half goes from blocks to the array.
-/
import proofs.«113504_j24661702214227_1_alg».proof.Proof.Gen.KernelIdeal.Frame
import proofs.«113504_j24661702214227_1_alg».proof.Proof.SpecLsm
import proofs.«113504_j24661702214227_1_alg».proof.Proof.LibKeepdims

noncomputable section
namespace Cert.KernelIdeal.Net
open Cert.KernelIdeal Cert.KernelIdeal.Gen
open Idealize.ShloMosaic Idealize.ShloMosaic.ValueIdx Idealize.ShloMosaic.TcCoe Idealize.SL.Sem
open Idealize.ShloMosaic.Pipeline (Dat Cfg Window)

/-- The lane maximum of a block's row: the fold of `max` from minus infinity over the row's 40 entries. -/
theorem rowmax_apply (v : FVec Ideal S5000x40 .f32) (h : S5000x40.Reduces [1] S5000) (hφ : FKind.Formats .f32)
    (hacc : (0xFF800000#32 : BitVec 32) = 0xFF800000#32) (p : Fin 5000) :
    multiReduction .maximumf [1] S5000 v 0xFF800000#32 h hφ hacc (ix1 p) = Cert.Net.rowMax fun k => v (ix2 p k) := by
  refine (Ideal.multiReduction_maximumf_single v 0xFF800000#32 h hφ hacc (ix1 p)).trans ?_
  unfold Cert.Net.rowMax
  have hf : (v ∘ h.lift (ix1 p)) = fun k : Fin 40 => v (ix2 p k) :=
    funext fun k => congrArg v (Cert.Net.lift_cols_ix2 h p k)
  exact congrArg (fun f => Finset.fold max (Ideal.ofBits .f32 0xFF800000#32) f (Finset.univ : Finset (Fin 40))) hf

/-- The lane sum of a block's row: the sum of the row's 40 entries. -/
theorem rowsum_apply (v : FVec Ideal S5000x40 .f32) (h : S5000x40.Reduces [1] S5000) (hφ : FKind.Formats .f32)
    (hacc : (0x00000000#32 : BitVec 32) = 0x00000000#32) (p : Fin 5000) :
    multiReduction .add [1] S5000 v 0x00000000#32 h hφ hacc (ix1 p) = ∑ k : Fin 40, v (ix2 p k) := by
  refine (Ideal.multiReduction_add_single v 0x00000000#32 h hφ hacc (ix1 p)).trans ?_
  exact Finset.sum_congr rfl fun k _ => congrArg v (Cert.Net.lift_cols_ix2 h p k)

/-- The body's log-softmax of a block of logits `v`, read at `(p, q)`: the row function of row `p` of `v`.  The row's
    maximum and the row's sum of exponentials are each reduced to a vector, viewed as a column and spread over the 40
    columns again; at `(p, ·)` each of them reads the reduced value of row `p`. -/
theorem lsm_block_apply (v : FVec Ideal S5000x40 .f32) (h : S5000x40.Reduces [1] S5000) (hc : S5000.ShapeCasts S5000x1)
    (hb : S5000x1.Broadcasts S5000x40) (hφ : FKind.Formats .f32) (ha : (0xFF800000#32 : BitVec 32) = 0xFF800000#32)
    (hz : (0x00000000#32 : BitVec 32) = 0x00000000#32) (p : Fin 5000) (q : Fin 40) :
    subf (subf v (broadcastTo S5000x40 (shapeCast S5000x1 (multiReduction .maximumf [1] S5000 v 0xFF800000#32 h hφ ha) hc) hb))
        (broadcastTo S5000x40 (log (shapeCast S5000x1 (multiReduction .add [1] S5000
          (exp (subf v (broadcastTo S5000x40 (shapeCast S5000x1 (multiReduction .maximumf [1] S5000 v 0xFF800000#32 h hφ ha) hc) hb)))
          0x00000000#32 h hφ hz) hc)) hb) (ix2 p q)
      = Cert.Net.lsmRow (fun k => v (ix2 p k)) q := by
  have hmax : ∀ k : Fin 40,
      broadcastTo S5000x40 (shapeCast S5000x1 (multiReduction .maximumf [1] S5000 v 0xFF800000#32 h hφ ha) hc) hb (ix2 p k)
        = Cert.Net.rowMax fun k => v (ix2 p k) := fun k =>
    (Cert.Net.broadcastTo_a1_ab_apply _ hb p k).trans
      ((Cert.Net.shapeCast_a_a1_apply _ hc p (0 : Fin 1)).trans (rowmax_apply v h hφ ha p))
  have hsh : ∀ k : Fin 40,
      subf v (broadcastTo S5000x40 (shapeCast S5000x1 (multiReduction .maximumf [1] S5000 v 0xFF800000#32 h hφ ha) hc) hb) (ix2 p k)
        = v (ix2 p k) - Cert.Net.rowMax fun k => v (ix2 p k) := fun k =>
    congrArg (fun m => v (ix2 p k) - m) (hmax k)
  have hsum : multiReduction .add [1] S5000
        (exp (subf v (broadcastTo S5000x40 (shapeCast S5000x1 (multiReduction .maximumf [1] S5000 v 0xFF800000#32 h hφ ha) hc) hb)))
        0x00000000#32 h hφ hz (ix1 p)
      = ∑ k : Fin 40, Ideal.exp (v (ix2 p k) - Cert.Net.rowMax fun k => v (ix2 p k)) :=
    (rowsum_apply _ h hφ hz p).trans (Finset.sum_congr rfl fun k _ => congrArg Ideal.exp (hsh k))
  have hlog : broadcastTo S5000x40 (log (shapeCast S5000x1 (multiReduction .add [1] S5000
          (exp (subf v (broadcastTo S5000x40 (shapeCast S5000x1 (multiReduction .maximumf [1] S5000 v 0xFF800000#32 h hφ ha) hc) hb)))
          0x00000000#32 h hφ hz) hc)) hb (ix2 p q)
      = Ideal.log (∑ k : Fin 40, Ideal.exp (v (ix2 p k) - Cert.Net.rowMax fun k => v (ix2 p k))) :=
    (Cert.Net.broadcastTo_a1_ab_apply _ hb p q).trans
      (congrArg Ideal.log ((Cert.Net.shapeCast_a_a1_apply _ hc p (0 : Fin 1)).trans hsum))
  unfold Cert.Net.lsmRow
  exact congrArg₂ (fun a b : EReal => a - b) (hsh q) hlog

/-- The body's payload at `(p, q)` of its block: the row function of the block's row `p` plus the bias row. -/
theorem pay_apply (x0 : Vec Ideal S5000x40 .f32) (x1 : Vec Ideal S1x40 .f32) (p : Fin 5000) (q : Fin 40) :
    k7_pay1 (F := Ideal) x0 x1 (ix2 p q) = Cert.Net.lsmRow (fun k => x0 (ix2 p k) + x1 (ix2 (0 : Fin 1) k)) q := by
  unfold k7_pay1
  refine (lsm_block_apply _ _ _ _ _ _ _ p q).trans ?_
  refine congrArg (fun z => Cert.Net.lsmRow z q) (funext fun k => ?_)
  show shapeCast S5000x40 x0 shapeCasts_S5000x40_S5000x40 (ix2 p k)
      + broadcastTo S5000x40 (shapeCast S1x40 x1 shapeCasts_S1x40_S1x40) broadcasts_S1x40_S5000x40 (ix2 p k) = _
  rw [shapeCast_self, broadcastTo_1b_ab_apply, shapeCast_self]

variable (V : (c : Dev nD) → (b : Ref sig .tc) → Buf (Elt Ideal) ((c : Thread nD τ).loc b))

/-- The body reads and writes whole buffers: every access starts at the origin. -/
theorem zero_origin : (![0, 0] : Fin 2 → Nat) = fun _ => 0 := funext fun a => by fin_cases a <;> rfl

/-- The printed index maps over the grid: at point `t` the input and the output window are at row block `t`, column
    block 0; the bias window is always at block (0, 0). -/
theorem index_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- Row `p` of the input block at point `t` is row `5000 t + p` of the input array. -/
theorem read_rows7 (c : Dev nD) (t : Fin cfg7.N) (p : Fin 5000) (k : Fin 40) (r : Fin 100000)
    (hr : r.val = t.val * 5000 + p.val) : iblk7 V c 0 t (ix2 p k) = V c main_v91 (ix2 r k) := by
  show V c main_v91 (((cfg7.win 0).blk t).view.emb (ix2 p k)) = V c main_v91 (ix2 r k)
  refine congrArg (V c main_v91) (funext fun a => Fin.ext ?_)
  obtain ⟨e0, e1, -⟩ := index_facts7 t
  match a with
  | ⟨0, _⟩ => show win7_0.index t (0 : Fin 2) * 5000 + 1 * p.val = r.val; omega
  | ⟨1, _⟩ => show win7_0.index t (1 : Fin 2) * 40 + 1 * k.val = k.val; omega

/-- The bias block at every point is the whole one-row bias array. -/
theorem read_bias7 (c : Dev nD) (t : Fin cfg7.N) (k : Fin 40) :
    iblk7 V c 1 t (ix2 (0 : Fin 1) k) = V c main_v92 (ix2 (0 : Fin 1) k) := by
  show V c main_v92 (((cfg7.win 1).blk t).view.emb (ix2 (0 : Fin 1) k)) = V c main_v92 (ix2 (0 : Fin 1) k)
  refine congrArg (V c main_v92) (funext fun a => Fin.ext ?_)
  obtain ⟨-, -, e2, e3, -⟩ := index_facts7 t
  match a with
  | ⟨0, _⟩ => show win7_1.index t (0 : Fin 2) * 1 + 1 * 0 = 0; omega
  | ⟨1, _⟩ => show win7_1.index t (1 : Fin 2) * 40 + 1 * k.val = k.val; omega

/-- WHAT POINT `t` WRITES BACK is block `t` of the bias-add and log-softmax of the arrays as the region finds them:
    entry `(p, q)` of the block is the row function of the block's row `p`, which is row `5000 t + p` of the array. -/
theorem flushed7_eq (c : Dev nD) (t : Fin cfg7.N) :
    (dat7 (F := Ideal) V c).flushed 2 t
      = ((cfg7.win 2).blk t).view.read (Elt Ideal) (Cert.Net.logSoftmaxBias (V c main_v91) (V c main_v92)) := by
  show (cfg7.win 2).cut (grid7.coords t) ((dat7 V c).after 2 t) = _
  rw [after7_2]
  unfold out7_2
  rw [View.canon_unit_zero zero_origin]
  simp only [View.ld_unit_zero (S := S5000x40) zero_origin, View.ld_unit_zero (S := S1x40) zero_origin]
  funext y
  obtain ⟨p, q, rfl⟩ : ∃ (p : Fin 5000) (q : Fin 40), y = ix2 p q := ⟨y 0, y 1, eq_ix2 y⟩
  have hN : cfg7.N = 20 := N_7
  have ht : t.val < 20 := hN ▸ t.isLt
  have hp : p.val < 5000 := p.isLt
  obtain ⟨-, -, -, -, e4, e5⟩ := index_facts7 t
  have hemb : ((cfg7.win 2).blk t).view.emb (ix2 p q)
      = ix2 (⟨t.val * 5000 + p.val, by omega⟩ : Fin 100000) q := by
    funext a; apply Fin.ext
    match a with
    | ⟨0, _⟩ => show win7_2.index t (0 : Fin 2) * 5000 + 1 * p.val = t.val * 5000 + p.val; omega
    | ⟨1, _⟩ => show win7_2.index t (1 : Fin 2) * 40 + 1 * q.val = q.val; omega
  show k7_pay1 (iblk7 V c 0 t) (iblk7 V c 1 t) (ix2 p q)
      = Cert.Net.logSoftmaxBias (V c main_v91) (V c main_v92) (((cfg7.win 2).blk t).view.emb (ix2 p q))
  rw [hemb, Cert.Net.logSoftmaxBias_ix2]
  refine (pay_apply (iblk7 V c 0 t) (iblk7 V c 1 t) p q).trans ?_
  refine congrArg (fun z => Cert.Net.lsmRow z q) (funext fun k => ?_)
  exact congrArg₂ (fun a b : EReal => a + b)
    (read_rows7 V c t p k ⟨t.val * 5000 + p.val, by omega⟩ rfl) (read_bias7 V c t k)

/-- An index of the output array is in point `t`'s block iff each coordinate is in the block's range on its axis. -/
theorem mem_blk7 (t : Fin cfg7.N) (i : S100000x40.Idx) :
    i ∈ ((cfg7.win 2).blk t).view.set ↔ ∀ a : Fin 2, win7_2.index t a * S5000x40.size a ≤ (i a).val
      ∧ (i a).val < win7_2.index t a * S5000x40.size a + S5000x40.size a := by
  show i ∈ ((View.whole main_v93).slice (win7_2.rect t)).set ↔ _
  rw [View.set_slice_whole, Rect.mem_set_unit]
  exact Iff.rfl

/-- The twenty row blocks tile the array: row `r` is in the block of point `r / 5000`. -/
theorem cover7 (i : S100000x40.Idx) :
    ∃ t : Fin cfg7.N, (cfg7.win 2).flush t = true ∧ i ∈ ((cfg7.win 2).blk t).view.set := by
  have hi0 : (i 0).val < 100000 := (i 0).isLt
  have hi1 : (i 1).val < 40 := (i 1).isLt
  have hN : cfg7.N = 20 := N_7
  have hlt : (i 0).val / 5000 < cfg7.N := by rw [hN]; omega
  obtain ⟨-, -, -, -, e4, e5⟩ := index_facts7 ⟨(i 0).val / 5000, hlt⟩
  have e4' : win7_2.index ⟨(i 0).val / 5000, hlt⟩ (0 : Fin 2) = (i 0).val / 5000 := e4
  refine ⟨⟨(i 0).val / 5000, hlt⟩, flush7_2 _, ?_⟩
  rw [mem_blk7]
  intro a
  match a with
  | ⟨0, _⟩ =>
    show win7_2.index ⟨(i 0).val / 5000, hlt⟩ (0 : Fin 2) * 5000 ≤ (i 0).val
      ∧ (i 0).val < win7_2.index ⟨(i 0).val / 5000, hlt⟩ (0 : Fin 2) * 5000 + 5000
    omega
  | ⟨1, _⟩ =>
    show win7_2.index ⟨(i 0).val / 5000, hlt⟩ (1 : Fin 2) * 40 ≤ (i 1).val
      ∧ (i 1).val < win7_2.index ⟨(i 0).val / 5000, hlt⟩ (1 : Fin 2) * 40 + 40
    omega

/-- THE OUTPUT ARRAY after the region: the bias-add and row-wise log-softmax of the two operand arrays as the region
    finds them. -/
theorem region7_eq (c : Dev nD) :
    (dat7 (F := Ideal) V c).arrAt 2 cfg7.N = Cert.Net.logSoftmaxBias (V c main_v91) (V c main_v92) :=
  (dat7 (F := Ideal) V c).arrAt_eq_of_cover 2 _ (fun t _ => flushed7_eq V c t) cover7

end Cert.KernelIdeal.Net

end
-- ==== Proof.LsmRef.lean ====
/-
  The reference's last stages: the bias-add and the row-wise log-softmax, over 100000 rows of 40 classes.

  The reference lays the bias vector as one row, spreads the row over all rows and adds it to its array `X`: the logits.
  It then reduces each row of logits to its maximum (a fold of `max` from minus infinity over the 40 classes; the
  maximum of that with minus infinity, taken once more, is the same value), lays the maxima along a column, spreads the
  column over the 40 classes and subtracts; exponentiates; reduces each row to its sum (from zero); lays the sums along
  a column, takes the logarithm, spreads the column over the 40 classes and subtracts again.  Read at entry `(r, j)`
  every one of these steps mentions row `r` only, and the result is the row function `Cert.Net.lsmRow` of the logits of
  row `r` at `j` — the specification `Cert.Net.logSoftmaxBias` at `X` and the one-row bias.

  The steps are read one at a time over a variable array, then composed; the last theorem says that the composed term
  is the reference's own result stage.
-/
import proofs.«113504_j24661702214227_1_alg».proof.Proof.RefRead
import proofs.«113504_j24661702214227_1_alg».proof.Proof.SpecLsm
import proofs.«113504_j24661702214227_1_alg».proof.Proof.LibKeepdims

noncomputable section
namespace Cert.ReferenceIdeal.Net
open Cert.ReferenceIdeal Cert.ReferenceIdeal.Gen
open Idealize.ShloMosaic Idealize.ShloMosaic.ValueIdx

/-- The word 0xFF800000 denotes minus infinity, below every extended real: taking the maximum with it changes nothing. -/
theorem max_neg_inf (y : EReal) : max (Ideal.ofBits .f32 0xFF800000#32) y = y := by
  simp [Ideal.ofBits, Ideal.ieee]

/-- The reference's row maximum: its reduce over the classes with a maximum body, started from minus infinity, is at
    row `r` the fold of `max` over the row's 40 entries. -/
theorem host_rowmax_apply (L : FVec Ideal S100000x40 .f32) (h' : S100000x40.ReducesTo [1] S100000) (hu : 0 < S_.numel)
    (r : Fin 100000) :
    Host.reduce FloatOps.maximumf L (constant (F := Ideal) S_ .f32 0xFF800000#32) h' hu (ix1 r)
      = Cert.Net.rowMax fun k => L (ix2 r k) := by
  have h : S100000x40.Reduces [1] S100000 := by decide
  refine (Host.reduce_eq_fold_single FloatOps.maximumf L _ h' h hu (ix1 r)).trans ?_
  unfold Cert.Net.rowMax
  have hf : (L ∘ h.lift (ix1 r)) = fun k : Fin 40 => L (ix2 r k) :=
    funext fun k => congrArg L (Cert.Net.lift_cols_ix2 h r k)
  exact congrArg (fun f => Finset.fold max (Ideal.ofBits .f32 0xFF800000#32) f (Finset.univ : Finset (Fin 40))) hf

/-- The reference's row sum: its reduce over the classes with an add body, started from zero, is at row `r` the sum of
    the row's 40 entries. -/
theorem host_rowsum_apply (E : FVec Ideal S100000x40 .f32) (h' : S100000x40.ReducesTo [1] S100000) (hu : 0 < S_.numel)
    (r : Fin 100000) :
    Host.reduceAdd E (constant (F := Ideal) S_ .f32 0x00000000#32) h' hu (ix1 r) = ∑ k : Fin 40, E (ix2 r k) := by
  have h : S100000x40.Reduces [1] S100000 := by decide
  simp only [Host.reduceAdd, Ideal.hostReduceAdd_def]
  rw [Ideal.hostReduceAdd_single h' h]
  show Ideal.ofBits .f32 0x00000000#32 + ∑ k, E (h.lift (ix1 r) k) = _
  rw [Ideal.ofBits_zero_f32, zero_add]
  exact Finset.sum_congr rfl fun k _ => congrArg E (Cert.Net.lift_cols_ix2 h r k)

/-- The reference takes the maximum of each row's maximum with minus infinity once more: nothing changes. -/
theorem max_with_neg_inf_apply (m : FVec Ideal S100000 .f32) (hs : S_.BroadcastsInDim S100000 ![]) (r : Fin 100000) :
    maximumf (broadcastInDim S100000 ![] hs (constant (F := Ideal) S_ .f32 0xFF800000#32)) m (ix1 r) = m (ix1 r) := by
  have hb : broadcastInDim S100000 ![] hs (constant (F := Ideal) S_ .f32 0xFF800000#32) (ix1 r)
      = Ideal.ofBits .f32 0xFF800000#32 :=
    broadcastInDim_apply _ hs _ (ix1 r) ix0 (fun a => a.elim0)
  refine (congrArg (fun z : EReal => max z (m (ix1 r))) hb).trans ?_
  exact max_neg_inf _

/-- Per-row values laid along a column and spread over the 40 classes read, at `(r, k)`, the value of row `r`. -/
theorem col_spread_apply (m : FVec Ideal S100000 .f32) (hc : S100000.BroadcastsInDim S100000x1 ![0])
    (hb : S100000x1.BroadcastsInDim S100000x40 ![0, 1]) (r : Fin 100000) (k : Fin 40) :
    broadcastInDim S100000x40 ![0, 1] hb (broadcastInDim S100000x1 ![0] hc m) (ix2 r k) = m (ix1 r) :=
  (Cert.Net.broadcastInDim_a1_ab_apply (broadcastInDim S100000x1 ![0] hc m) hb r k).trans
    (Cert.Net.broadcastInDim_a_a1_apply m hc r (0 : Fin 1))

/-- The same with the logarithm taken on the column. -/
theorem col_log_spread_apply (s : FVec Ideal S100000 .f32) (hc : S100000.BroadcastsInDim S100000x1 ![0])
    (hb : S100000x1.BroadcastsInDim S100000x40 ![0, 1]) (r : Fin 100000) (k : Fin 40) :
    broadcastInDim S100000x40 ![0, 1] hb (Host.log (broadcastInDim S100000x1 ![0] hc s)) (ix2 r k)
      = Ideal.log (s (ix1 r)) :=
  (Cert.Net.broadcastInDim_a1_ab_apply (Host.log (broadcastInDim S100000x1 ![0] hc s)) hb r k).trans
    (congrArg Ideal.log (Cert.Net.broadcastInDim_a_a1_apply s hc r (0 : Fin 1)))

/-- The reference's shifted logits at `(r, k)`: the logit minus its row's maximum. -/
theorem host_shift_apply (L : FVec Ideal S100000x40 .f32) (h' : S100000x40.ReducesTo [1] S100000) (hu : 0 < S_.numel)
    (hs : S_.BroadcastsInDim S100000 ![]) (hc : S100000.BroadcastsInDim S100000x1 ![0])
    (hb : S100000x1.BroadcastsInDim S100000x40 ![0, 1]) (r : Fin 100000) (k : Fin 40) :
    subf L (broadcastInDim S100000x40 ![0, 1] hb (broadcastInDim S100000x1 ![0] hc
        (maximumf (broadcastInDim S100000 ![] hs (constant (F := Ideal) S_ .f32 0xFF800000#32))
          (Host.reduce FloatOps.maximumf L (constant (F := Ideal) S_ .f32 0xFF800000#32) h' hu)))) (ix2 r k)
      = L (ix2 r k) - Cert.Net.rowMax fun k => L (ix2 r k) :=
  congrArg (fun m : EReal => L (ix2 r k) - m)
    ((col_spread_apply _ hc hb r k).trans ((max_with_neg_inf_apply _ hs r).trans (host_rowmax_apply L h' hu r)))

/-- From shifted logits `S` the reference subtracts, in every row, the logarithm of the row's sum of exponentials. -/
theorem host_tail_apply (S : FVec Ideal S100000x40 .f32) (h' : S100000x40.ReducesTo [1] S100000) (hu : 0 < S_.numel)
    (hc : S100000.BroadcastsInDim S100000x1 ![0]) (hb : S100000x1.BroadcastsInDim S100000x40 ![0, 1])
    (r : Fin 100000) (j : Fin 40) :
    subf S (broadcastInDim S100000x40 ![0, 1] hb (Host.log (broadcastInDim S100000x1 ![0] hc
        (Host.reduceAdd (Host.exp S) (constant (F := Ideal) S_ .f32 0x00000000#32) h' hu)))) (ix2 r j)
      = S (ix2 r j) - Ideal.log (∑ k : Fin 40, Ideal.exp (S (ix2 r k))) :=
  congrArg (fun m : EReal => S (ix2 r j) - m)
    ((col_log_spread_apply _ hc hb r j).trans (congrArg Ideal.log (host_rowsum_apply (Host.exp S) h' hu r)))
/-- The reference's log-softmax of an array of logits `L`, read at `(r, j)`: the row function of row `r` of `L`.  The
    reference takes each row's maximum (and its maximum with minus infinity once more, which changes nothing), lays it
    along a column and spreads it over the 40 classes, subtracts, exponentiates, sums each row, takes the logarithm of
    the sums laid along a column, spreads it and subtracts again. -/
theorem host_lsm_apply (L : FVec Ideal S100000x40 .f32) (h' : S100000x40.ReducesTo [1] S100000) (hu : 0 < S_.numel)
    (hs : S_.BroadcastsInDim S100000 ![]) (hc : S100000.BroadcastsInDim S100000x1 ![0])
    (hb : S100000x1.BroadcastsInDim S100000x40 ![0, 1]) (r : Fin 100000) (j : Fin 40) :
    subf (subf L (broadcastInDim S100000x40 ![0, 1] hb (broadcastInDim S100000x1 ![0] hc
          (maximumf (broadcastInDim S100000 ![] hs (constant (F := Ideal) S_ .f32 0xFF800000#32))
            (Host.reduce FloatOps.maximumf L (constant (F := Ideal) S_ .f32 0xFF800000#32) h' hu)))))
        (broadcastInDim S100000x40 ![0, 1] hb (Host.log (broadcastInDim S100000x1 ![0] hc
          (Host.reduceAdd (Host.exp (subf L (broadcastInDim S100000x40 ![0, 1] hb (broadcastInDim S100000x1 ![0] hc
              (maximumf (broadcastInDim S100000 ![] hs (constant (F := Ideal) S_ .f32 0xFF800000#32))
                (Host.reduce FloatOps.maximumf L (constant (F := Ideal) S_ .f32 0xFF800000#32) h' hu))))))
            (constant (F := Ideal) S_ .f32 0x00000000#32) h' hu)))) (ix2 r j)
      = Cert.Net.lsmRow (fun k => L (ix2 r k)) j := by
  refine (host_tail_apply _ h' hu hc hb r j).trans ?_
  unfold Cert.Net.lsmRow
  rw [host_shift_apply L h' hu hs hc hb r j]
  refine congrArg (fun s : EReal => (L (ix2 r j) - Cert.Net.rowMax fun k => L (ix2 r k)) - Ideal.log s)
    (Finset.sum_congr rfl fun k _ => ?_)
  rw [host_shift_apply L h' hu hs hc hb r k]

/-- THE REFERENCE'S LAST STAGES, from the array `X` it adds the bias to: the bias vector laid as one row and spread
    over the rows, added, and the log-softmax of the sum — index by index the specification at `X` and the one-row bias. -/
theorem logSoftmax_eq (X : FVec Ideal S100000x40 .f32) (b : FVec Ideal S40 .f32) :
    subf (subf (addf X (broadcastInDim S100000x40 ![0, 1] bcast_S1x40_S100000x40_0_1 (broadcastInDim S1x40 ![1] bcast_S40_S1x40_1 b)))
          (broadcastInDim S100000x40 ![0, 1] bcast_S100000x1_S100000x40_0_1 (broadcastInDim S100000x1 ![0] bcast_S100000_S100000x1_0
            (maximumf (broadcastInDim S100000 ![] bcast_S_S100000 (constant (F := Ideal) S_ .f32 0xFF800000#32))
              (Host.reduce FloatOps.maximumf
                (addf X (broadcastInDim S100000x40 ![0, 1] bcast_S1x40_S100000x40_0_1 (broadcastInDim S1x40 ![1] bcast_S40_S1x40_1 b)))
                (constant (F := Ideal) S_ .f32 0xFF800000#32) reducesTo_S100000x40_S100000_d1 h_S_)))))
        (broadcastInDim S100000x40 ![0, 1] bcast_S100000x1_S100000x40_0_1 (Host.log (broadcastInDim S100000x1 ![0] bcast_S100000_S100000x1_0
          (Host.reduceAdd (Host.exp (subf (addf X (broadcastInDim S100000x40 ![0, 1] bcast_S1x40_S100000x40_0_1 (broadcastInDim S1x40 ![1] bcast_S40_S1x40_1 b)))
              (broadcastInDim S100000x40 ![0, 1] bcast_S100000x1_S100000x40_0_1 (broadcastInDim S100000x1 ![0] bcast_S100000_S100000x1_0
                (maximumf (broadcastInDim S100000 ![] bcast_S_S100000 (constant (F := Ideal) S_ .f32 0xFF800000#32))
                  (Host.reduce FloatOps.maximumf
                    (addf X (broadcastInDim S100000x40 ![0, 1] bcast_S1x40_S100000x40_0_1 (broadcastInDim S1x40 ![1] bcast_S40_S1x40_1 b)))
                    (constant (F := Ideal) S_ .f32 0xFF800000#32) reducesTo_S100000x40_S100000_d1 h_S_))))))
            (constant (F := Ideal) S_ .f32 0x00000000#32) reducesTo_S100000x40_S100000_d1 h_S_))))
      = Cert.Net.logSoftmaxBias X (broadcastInDim S1x40 ![1] bcast_S40_S1x40_1 b) := by
  funext i
  obtain ⟨r, j, rfl⟩ : ∃ (r : Fin 100000) (j : Fin 40), i = ix2 r j := ⟨i 0, i 1, eq_ix2 i⟩
  refine (host_lsm_apply _ reducesTo_S100000x40_S100000_d1 h_S_ bcast_S_S100000 bcast_S100000_S100000x1_0
    bcast_S100000x1_S100000x40_0_1 r j).trans ?_
  rw [Cert.Net.logSoftmaxBias_ix2]
  refine congrArg (fun z => Cert.Net.lsmRow z j) (funext fun k => ?_)
  show X (ix2 r k) + broadcastInDim S100000x40 ![0, 1] bcast_S1x40_S100000x40_0_1
      (broadcastInDim S1x40 ![1] bcast_S40_S1x40_1 b) (ix2 r k) = _
  rw [Cert.Net.broadcastInDim_1b_ab_apply]
  rfl

/-- The reference's result stage IS that term at the stage before the bias-add and the bias argument: the stages'
    definitions unfolded. -/
theorem val_main_v101_eq_spec (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x40, .f32⟩ : BufTy).Contents (Elt Ideal)) (x9 : (⟨S40, .f32⟩ : BufTy).Contents (Elt Ideal)) :
    ReadP.val_main_v101 (F := Ideal) x0 x1 x2 x3 x4 x5 x6 x7 x8 x9
      = Cert.Net.logSoftmaxBias (ReadP.val_main_v97 (F := Ideal) x0 x1 x2 x3 x4 x5 x6 x7 x8)
          (broadcastInDim S1x40 ![1] bcast_S40_S1x40_1 x9) := by
  refine Eq.trans ?_ (logSoftmax_eq (ReadP.val_main_v97 (F := Ideal) x0 x1 x2 x3 x4 x5 x6 x7 x8) x9)
  unfold ReadP.val_main_v101 ReadP.val_main_call4_v10 ReadP.val_main_call4_v9 ReadP.val_main_call4_v8 ReadP.val_main_call4_v7
    ReadP.val_main_call4_cst_1 ReadP.val_main_call4_v6 ReadP.val_main_call4_v5 ReadP.val_main_call4_v4 ReadP.val_main_call4_v3
    ReadP.val_main_call4_v2 ReadP.val_main_call4_v1 ReadP.val_main_call4_cst_0 ReadP.val_main_call4_v0 ReadP.val_main_call4_cst
    ReadP.val_main_v100 ReadP.val_main_v99 ReadP.val_main_v98
  rfl

end Cert.ReferenceIdeal.Net

end
-- ==== Proof.lean ====
/-
  A four-layer graph convolution network over 100000 nodes and 640000 edges (plus one self-edge per node), as a
  Pallas program against its plain jnp reference, both read at the ideal instance (a float is an extended real, every
  operation exact, a change of format the identity).

  Each layer is: the node features times a weight matrix; then over the edges, the product's row at the source node,
  scaled by the edge weight d[src]·d[dst] (d the inverse square root of the in-degree, 0 where the degree is not
  positive), added into the row of the destination node; then the bias, and a maximum with zero — except that the
  last layer (40 classes) ends in the bias and a row-wise log-softmax, (z − max z) − log Σ exp (z − max z).

  The Pallas program runs the three dense parts of a layer as pipelined regions over 20 row blocks of 5000 nodes —
  the product (a matmul into a zero accumulator, the weight matrix resident whole), the bias with its maximum, and
  the bias with the log-softmax — and leaves the gather / scale / scatter-add to the host, where the reference has
  one dot_general, an add of a broadcast bias with a maximum, and a log_softmax.  At the ideal instance:
    * block t of a product region's output holds, at row r and column j, the sum over k of X[5000 t + r, k]·W[k, j]:
      the blocks tile the rows, so the output array is X·W entry by entry, which is what dot_general computes;
    * a bias region's block is max (X[5000 t + r, j] + b[j]) 0, again entry by entry the reference's operations (the
      program passes the bias reshaped to one row, the reference broadcasts it to one row: the same array);
    * the last region's block takes a row's maximum and sum over its 40 entries, and a row lies inside one block;
      the reference takes the same row maximum once more against −∞, which changes nothing.
  No entry is regrouped across a sum and no factor is moved: the two programs compute the same expression of the
  arguments, stage by stage, so the precondition (finite inputs) is not used.

  The modules: Shapes (the array shapes); SpecLin / SpecBias / SpecLsm (the three array functions); LinRegion0/2/4/6,
  BiasRegion1/3/5, LsmRegion7 (what each region leaves in its output array, whatever it finds in its inputs);
  LinRef, BiasRef, LsmRef, BiasRow (the reference's operations are the same functions; a bias as one row);
  LibKeepdims (a reduced vector as a column, a column spread over the columns, read at an index);
  RunResult (the program's run with its result named); ChainPrep and Chain (the program's fifteen segments walked
  in order: every buffer the next segment reads holds the reference's matching stage); RefChunks, RefStageA,
  RefStageB, RefStaged (the reference's run read back group by group); this file (the five claims).
-/
import proofs.«113504_j24661702214227_1_alg».proof.Defs
import proofs.«113504_j24661702214227_1_alg».proof.Proof.Gen.Kernel
import proofs.«113504_j24661702214227_1_alg».proof.Proof.Gen.Kernel.Skeleton
import proofs.«113504_j24661702214227_1_alg».proof.Proof.Gen.Kernel.Launch
import proofs.«113504_j24661702214227_1_alg».proof.Proof.Gen.Kernel.Points
import proofs.«113504_j24661702214227_1_alg».proof.Proof.Gen.Kernel.Frame
import proofs.«113504_j24661702214227_1_alg».proof.Proof.Gen.KernelIdeal
import proofs.«113504_j24661702214227_1_alg».proof.Proof.Gen.KernelIdeal.Skeleton
import proofs.«113504_j24661702214227_1_alg».proof.Proof.Gen.KernelIdeal.Launch
import proofs.«113504_j24661702214227_1_alg».proof.Proof.Gen.KernelIdeal.Points
import proofs.«113504_j24661702214227_1_alg».proof.Proof.Gen.KernelIdeal.Frame
import proofs.«113504_j24661702214227_1_alg».proof.Proof.Gen.ReferenceIdeal
import proofs.«113504_j24661702214227_1_alg».proof.Proof.Gen.Pre_finite_inputs
import proofs.«113504_j24661702214227_1_alg».proof.Proof.RunResult
import proofs.«113504_j24661702214227_1_alg».proof.Proof.Chain
import proofs.«113504_j24661702214227_1_alg».proof.Proof.RefStaged
import proofs.«113504_j24661702214227_1_alg».proof.Proof.LinRegion0
import proofs.«113504_j24661702214227_1_alg».proof.Proof.LinRegion2
import proofs.«113504_j24661702214227_1_alg».proof.Proof.LinRegion4
import proofs.«113504_j24661702214227_1_alg».proof.Proof.LinRegion6
import proofs.«113504_j24661702214227_1_alg».proof.Proof.LinRef
import proofs.«113504_j24661702214227_1_alg».proof.Proof.BiasRegion1
import proofs.«113504_j24661702214227_1_alg».proof.Proof.BiasRegion3
import proofs.«113504_j24661702214227_1_alg».proof.Proof.BiasRegion5
import proofs.«113504_j24661702214227_1_alg».proof.Proof.BiasRef
import proofs.«113504_j24661702214227_1_alg».proof.Proof.BiasRow
import proofs.«113504_j24661702214227_1_alg».proof.Proof.LsmRegion7
import proofs.«113504_j24661702214227_1_alg».proof.Proof.LsmRef
import Idealize.ShloMosaic.Adequacy
import Idealize.ShloMosaic.Init

set_option maxRecDepth 16384

noncomputable section

namespace Cert.Proof

open Idealize.ShloMosaic Idealize.SL.Sem

/-- The word-level program runs and keeps its arguments: the generated frame of its eight regions. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference runs and keeps its arguments: its run read back, with the result dropped. -/
theorem frame_ri : Cert.frame_ReferenceIdeal := fun m ρ _ =>
  (θ_run Cert.ReferenceIdeal.defs _ _).mono (fun _ h c => (h c).2) (Cert.ReferenceIdeal.Net.run m ρ)

/-- The ideal pass rewrote no operation of the program. -/
theorem preserves : Cert.preserves_Kernel_KernelIdeal := trivial

/-- The idealized program's result buffer after its run is the reference's last stage of the ten arguments: the
    chain of fifteen segments, with each region's output and each group of reference operations the same array
    function. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W15 m ρ c (Proc.devRef .tc Cert.KernelIdeal.main_v93)
      = Cert.ReferenceIdeal.ReadP.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) :=
  Cert.KernelIdeal.Net.result_eq m ρ Cert.Net.lin128 Cert.Net.lin40 Cert.Net.biasRelu Cert.Net.logSoftmaxBias
    Cert.KernelIdeal.Net.region0_eq Cert.KernelIdeal.Net.region1_eq Cert.KernelIdeal.Net.region2_eq Cert.KernelIdeal.Net.region3_eq
    Cert.KernelIdeal.Net.region4_eq Cert.KernelIdeal.Net.region5_eq Cert.KernelIdeal.Net.region6_eq Cert.KernelIdeal.Net.region7_eq
    Cert.ReferenceIdeal.Net.dot128_eq Cert.ReferenceIdeal.Net.dot40_eq Cert.ReferenceIdeal.Net.biasRelu_eq
    Cert.ReferenceIdeal.Net.val_main_v101_eq_spec Cert.Net.row128_eq Cert.Net.row40_eq c

/-- From memories agreeing on the arguments both idealized programs run, end with the same result array — the
    reference's last stage of the arguments — and keep their arguments. -/
theorem algebraic : Cert.algebraic_KernelIdeal_ReferenceIdeal := by
  intro m ρ m' ρ' _ hagree
  refine ⟨fun c => Cert.ReferenceIdeal.ReadP.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (kernel_result m ρ c), (h c).2⟩) (Cert.KernelIdeal.Net.run_result m ρ)
  · refine (θ_run Cert.ReferenceIdeal.defs _ _).mono (fun r h c => ⟨(h c).1.trans ?_, (h c).2⟩)
      (Cert.ReferenceIdeal.Net.run m' ρ')
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
